-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v89)) (v1 : (c : Dev Cert.KernelIdeal.nD) → Buf (Elt Ideal) ((c.tc : Thread Cert.KernelIdeal.nD Cert.KernelIdeal.τ).loc Cert.KernelIdeal.main_v88_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v89) = v0 c
          ∧ r.2.mem ((c.tc : Thread Cert.KernelIdeal.nD Cert.KernelIdeal.τ).loc Cert.KernelIdeal.main_v88_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v132) = v0 c
          ∧ r.2.mem ((c.tc : Thread Cert.ReferenceIdeal.nD Cert.ReferenceIdeal.τ).loc Cert.ReferenceIdeal.main_v127) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1200000 : Shape := ⟨2, ![2, 1200000]⟩
abbrev S128x64 : Shape := ⟨2, ![128, 64]⟩
abbrev S64 : Shape := ⟨1, ![64]⟩
abbrev S64x64 : Shape := ⟨2, ![64, 64]⟩
abbrev S128x1 : Shape := ⟨2, ![128, 1]⟩
abbrev S1 : Shape := ⟨1, ![1]⟩
abbrev S64x32 : Shape := ⟨2, ![64, 32]⟩
abbrev S32 : Shape := ⟨1, ![32]⟩
abbrev S64x1 : Shape := ⟨2, ![64, 1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S64x1 : S_.BroadcastsInDim S64x1 (![] : Fin 0 → Fin S64x1.rank)
  reducesTo_S64x1_S_d0_1 : S64x1.ReducesTo [0, 1] S_

variable [Facts]

def fn_part6 {F : FTy → Type} [FloatOps F] (main_arg7 : FVec F S64 .f32) (main_v98 : IVec S_ 1) (main_v101 : IVec S1 1) (main_c_39 : IVec S_ 1) : IVec S_ 1 :=
  let main_v102 : IVec S_ 1 := (fun x v => Host.reduce IntOp.andi x v reducesTo_S1_S_d0 h_S_) main_v101 main_c_39
  let main_v103 : IVec S_ 1 := andi main_v98 main_v102
  let main_cst_40 : FVec F S_ .f32 := constant S_ .f32 0x00000000#32
  let main_v104 : FVec F S64 .f32 := broadcastInDim S64 ![] bcast_S_S64 main_cst_40
  let main_v105 : IVec S64 1 := cmpf .oge main_arg7 main_v104
  let main_c_41 : IVec S_ 1 := constantI S_ 1 1#1
  let main_v106 : IVec S_ 1 := (fun x v => Host.reduce IntOp.andi x v reducesTo_S64_S_d0 h_S_) main_v105 main_c_41
  let main_v107 : IVec S_ 1 := andi main_v103 main_v106
  main_v107

def fn_part5 {F : FTy → Type} [FloatOps F] (main_arg7 : FVec F S64 .f32) (main_arg19 : FVec F S32 .f32) (main_arg20 : FVec F S64x1 .f32) (main_arg21 : FVec F S1 .f32) (main_v83 : IVec S_ 1) (main_v84 : FVec F S64x32 .f32) (main_cst_32 : FVec F S_ .f32) : IVec S_ 1 :=
  let main_v85 : FVec F S64x32 .f32 := broadcastInDim S64x32 ![] bcast_S_S64x32 main_cst_32
  let main_v86 : IVec S64x32 1 := cmpf .olt main_v84 main_v85
  let main_c_33 : IVec S_ 1 := constantI S_ 1 1#1
  let main_v87 : IVec S_ 1 := (fun x v => Host.reduce IntOp.andi x v reducesTo_S64x32_S_d0_1 h_S_) main_v86 main_c_33
  let main_v88 : IVec S_ 1 := andi main_v83 main_v87
  let main_v89 : FVec F S32 .f32 := Host.absf main_arg19
  let main_cst_34 : FVec F S_ .f32 := constant S_ .f32 0x7F800000#32
  let main_v90 : FVec F S32 .f32 := broadcastInDim S32 ![] bcast_S_S32 main_cst_34
  let main_v91 : IVec S32 1 := cmpf .olt main_v89 main_v90
  let main_c_35 : IVec S_ 1 := constantI S_ 1 1#1
  let main_v92 : IVec S_ 1 := (fun x v => Host.reduce IntOp.andi x v reducesTo_S32_S_d0 h_S_) main_v91 main_c_35
  let main_v93 : IVec S_ 1 := andi main_v88 main_v92
  let main_v94 : FVec F S64x1 .f32 := Host.absf main_arg20
  let main_cst_36 : FVec F S_ .f32 := constant S_ .f32 0x7F800000#32
  let main_v95 : FVec F S64x1 .f32 := broadcastInDim S64x1 ![] bcast_S_S64x1 main_cst_36
  let main_v96 : IVec S64x1 1 := cmpf .olt main_v94 main_v95
  let main_c_37 : IVec S_ 1 := constantI S_ 1 1#1
  let main_v97 : IVec S_ 1 := (fun x v => Host.reduce IntOp.andi x v reducesTo_S64x1_S_d0_1 h_S_) main_v96 main_c_37
  let main_v98 : IVec S_ 1 := andi main_v93 main_v97
  let main_v99 : FVec F S1 .f32 := Host.absf main_arg21
  let main_cst_38 : FVec F S_ .f32 := constant S_ .f32 0x7F800000#32
  let main_v100 : FVec F S1 .f32 := broadcastInDim S1 ![] bcast_S_S1 main_cst_38
  let main_v101 : IVec S1 1 := cmpf .olt main_v99 main_v100
  let main_c_39 : IVec S_ 1 := constantI S_ 1 1#1
  fn_part6 (F := F) main_arg7 main_v98 main_v101 main_c_39

def fn_part4 {F : FTy → Type} [FloatOps F] (main_arg7 : FVec F S64 .f32) (main_arg15 : FVec F S1 .f32) (main_arg16 : FVec F S64x64 .f32) (main_arg17 : FVec F S64 .f32) (main_arg18 : FVec F S64x32 .f32) (main_arg19 : FVec F S32 .f32) (main_arg20 : FVec F S64x1 .f32) (main_arg21 : FVec F S1 .f32) (main_v63 : IVec S_ 1) (main_v67 : IVec S_ 1) : IVec S_ 1 :=
  let main_v68 : IVec S_ 1 := andi main_v63 main_v67
  let main_v69 : FVec F S1 .f32 := Host.absf main_arg15
  let main_cst_26 : FVec F S_ .f32 := constant S_ .f32 0x7F800000#32
  let main_v70 : FVec F S1 .f32 := broadcastInDim S1 ![] bcast_S_S1 main_cst_26
  let main_v71 : IVec S1 1 := cmpf .olt main_v69 main_v70
  let main_c_27 : IVec S_ 1 := constantI S_ 1 1#1
  let main_v72 : IVec S_ 1 := (fun x v => Host.reduce IntOp.andi x v reducesTo_S1_S_d0 h_S_) main_v71 main_c_27
  let main_v73 : IVec S_ 1 := andi main_v68 main_v72
  let main_v74 : FVec F S64x64 .f32 := Host.absf main_arg16
  let main_cst_28 : FVec F S_ .f32 := constant S_ .f32 0x7F800000#32
  let main_v75 : FVec F S64x64 .f32 := broadcastInDim S64x64 ![] bcast_S_S64x64 main_cst_28
  let main_v76 : IVec S64x64 1 := cmpf .olt main_v74 main_v75
  let main_c_29 : IVec S_ 1 := constantI S_ 1 1#1
  let main_v77 : IVec S_ 1 := (fun x v => Host.reduce IntOp.andi x v reducesTo_S64x64_S_d0_1 h_S_) main_v76 main_c_29
  let main_v78 : IVec S_ 1 := andi main_v73 main_v77
  let main_v79 : FVec F S64 .f32 := Host.absf main_arg17
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  let main_v84 : FVec F S64x32 .f32 := Host.absf main_arg18
  let main_cst_32 : FVec F S_ .f32 := constant S_ .f32 0x7F800000#32
  fn_part5 (F := F) main_arg7 main_arg19 main_arg20 main_arg21 main_v83 main_v84 main_cst_32

def fn_part3 {F : FTy → Type} [FloatOps F] (main_arg7 : FVec F S64 .f32) (main_arg12 : FVec F S64x64 .f32) (main_arg13 : FVec F S64 .f32) (main_arg14 : FVec F S128x1 .f32) (main_arg15 : FVec F S1 .f32) (main_arg16 : FVec F S64x64 .f32) (main_arg17 : FVec F S64 .f32) (main_arg18 : FVec F S64x32 .f32) (main_arg19 : FVec F S32 .f32) (main_arg20 : FVec F S64x1 .f32) (main_arg21 : FVec F S1 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x64 .f32 := Host.absf main_arg12
  let main_cst_20 : FVec F S_ .f32 := constant S_ .f32 0x7F800000#32
  let main_v55 : FVec F S64x64 .f32 := broadcastInDim S64x64 ![] bcast_S_S64x64 main_cst_20
  let main_v56 : IVec S64x64 1 := cmpf .olt main_v54 main_v55
  let main_c_21 : IVec S_ 1 := constantI S_ 1 1#1
  let main_v57 : IVec S_ 1 := (fun x v => Host.reduce IntOp.andi x v reducesTo_S64x64_S_d0_1 h_S_) main_v56 main_c_21
  let main_v58 : IVec S_ 1 := andi main_v53 main_v57
  let main_v59 : FVec F S64 .f32 := Host.absf main_arg13
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S128x1 .f32 := Host.absf main_arg14
  let main_cst_24 : FVec F S_ .f32 := constant S_ .f32 0x7F800000#32
  let main_v65 : FVec F S128x1 .f32 := broadcastInDim S128x1 ![] bcast_S_S128x1 main_cst_24
  let main_v66 : IVec S128x1 1 := cmpf .olt main_v64 main_v65
  let main_c_25 : IVec S_ 1 := constantI S_ 1 1#1
  let main_v67 : IVec S_ 1 := (fun x v => Host.reduce IntOp.andi x v reducesTo_S128x1_S_d0_1 h_S_) main_v66 main_c_25
  fn_part4 (F := F) main_arg7 main_arg15 main_arg16 main_arg17 main_arg18 main_arg19 main_arg20 main_arg21 main_v63 main_v67

def fn_part2 {F : FTy → Type} [FloatOps F] (main_arg7 : FVec F S64 .f32) (main_arg8 : FVec F S128x64 .f32) (main_arg9 : FVec F S64 .f32) (main_arg10 : FVec F S64x64 .f32) (main_arg11 : FVec F S64 .f32) (main_arg12 : FVec F S64x64 .f32) (main_arg13 : FVec F S64 .f32) (main_arg14 : FVec F S128x1 .f32) (main_arg15 : FVec F S1 .f32) (main_arg16 : FVec F S64x64 .f32) (main_arg17 : FVec F S64 .f32) (main_arg18 : FVec F S64x32 .f32) (main_arg19 : FVec F S32 .f32) (main_arg20 : FVec F S64x1 .f32) (main_arg21 : FVec F S1 .f32) (main_v33 : IVec S_ 1) : IVec S_ 1 :=
  let main_v34 : FVec F S128x64 .f32 := Host.absf main_arg8
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg10
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_arg7 main_arg12 main_arg13 main_arg14 main_arg15 main_arg16 main_arg17 main_arg18 main_arg19 main_arg20 main_arg21 main_v48 main_v49 main_v50

def fn_part1 {F : FTy → Type} [FloatOps F] (main_arg5 : FVec F S64 .f32) (main_arg6 : FVec F S64 .f32) (main_arg7 : FVec F S64 .f32) (main_arg8 : FVec F S128x64 .f32) (main_arg9 : FVec F S64 .f32) (main_arg10 : FVec F S64x64 .f32) (main_arg11 : FVec F S64 .f32) (main_arg12 : FVec F S64x64 .f32) (main_arg13 : FVec F S64 .f32) (main_arg14 : FVec F S128x1 .f32) (main_arg15 : FVec F S1 .f32) (main_arg16 : FVec F S64x64 .f32) (main_arg17 : FVec F S64 .f32) (main_arg18 : FVec F S64x32 .f32) (main_arg19 : FVec F S32 .f32) (main_arg20 : FVec F S64x1 .f32) (main_arg21 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_v33

def fn {F : FTy → Type} [FloatOps F] (main_arg0 : FVec F S100000x128 .f32) (main_arg1 : IVec S2x1200000 32) (main_arg2 : FVec F S128x64 .f32) (main_arg3 : FVec F S64 .f32) (main_arg4 : FVec F S64 .f32) (main_arg5 : FVec F S64 .f32) (main_arg6 : FVec F S64 .f32) (main_arg7 : FVec F S64 .f32) (main_arg8 : FVec F S128x64 .f32) (main_arg9 : FVec F S64 .f32) (main_arg10 : FVec F S64x64 .f32) (main_arg11 : FVec F S64 .f32) (main_arg12 : FVec F S64x64 .f32) (main_arg13 : FVec F S64 .f32) (main_arg14 : FVec F S128x1 .f32) (main_arg15 : FVec F S1 .f32) (main_arg16 : FVec F S64x64 .f32) (main_arg17 : FVec F S64 .f32) (main_arg18 : FVec F S64x32 .f32) (main_arg19 : FVec F S32 .f32) (main_arg20 : FVec F S64x1 .f32) (main_arg21 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_arg21 main_v13 main_v16
-- ==== Kernel.lean ====
abbrev S100000x128 : Shape := ⟨2, ![100000, 128]⟩
abbrev S2x1200000 : Shape := ⟨2, ![2, 1200000]⟩
abbrev S128x64 : Shape := ⟨2, ![128, 64]⟩
abbrev S64 : Shape := ⟨1, ![64]⟩
abbrev S64x64 : Shape := ⟨2, ![64, 64]⟩
abbrev S128x1 : Shape := ⟨2, ![128, 1]⟩
abbrev S1 : Shape := ⟨1, ![1]⟩
abbrev S64x32 : Shape := ⟨2, ![64, 32]⟩
abbrev S32 : Shape := ⟨1, ![32]⟩
abbrev S64x1 : Shape := ⟨2, ![64, 1]⟩
abbrev S100000 : Shape := ⟨1, ![100000]⟩
abbrev S1x1200000 : Shape := ⟨2, ![1, 1200000]⟩
abbrev S1200000 : Shape := ⟨1, ![1200000]⟩
abbrev S1300000 : Shape := ⟨1, ![1300000]⟩
abbrev S_ : Shape := ⟨0, ![]⟩
abbrev S1300000x1 : Shape := ⟨2, ![1300000, 1]⟩
abbrev S1x64 : Shape := ⟨2, ![1, 64]⟩
abbrev S1x1 : Shape := ⟨2, ![1, 1]⟩
abbrev S1x32 : Shape := ⟨2, ![1, 32]⟩
abbrev S100000x64 : Shape := ⟨2, ![100000, 64]⟩
abbrev S5000x128 : Shape := ⟨2, ![5000, 128]⟩
abbrev S5000x64 : Shape := ⟨2, ![5000, 64]⟩
abbrev S1300000x64 : Shape := ⟨2, ![1300000, 64]⟩
abbrev S5000x1 : Shape := ⟨2, ![5000, 1]⟩
abbrev S100000x32 : Shape := ⟨2, ![100000, 32]⟩
abbrev S100000x1 : Shape := ⟨2, ![100000, 1]⟩
abbrev S5000x32 : Shape := ⟨2, ![5000, 32]⟩

abbrev nBuf : Space → Nat
  | .hbm => 130
  | .vmem => 45
  | .smem => 0
  | _ => 0

abbrev hbmTy0_0 (i : Nat) : BufTy := match i % 128 with
  | 0 => ⟨S100000x128, .f32⟩
  | 1 => ⟨S2x1200000, .i32⟩
  | 2 => ⟨S128x64, .f32⟩
  | 3 => ⟨S64, .f32⟩
  | 4 => ⟨S64, .f32⟩
  | 5 => ⟨S64, .f32⟩
  | 6 => ⟨S64, .f32⟩
  | 7 => ⟨S64, .f32⟩
  | 8 => ⟨S128x64, .f32⟩
  | 9 => ⟨S64, .f32⟩
  | 10 => ⟨S64x64, .f32⟩
  | 11 => ⟨S64, .f32⟩
  | 12 => ⟨S64x64, .f32⟩
  | 13 => ⟨S64, .f32⟩
  | 14 => ⟨S128x1, .f32⟩
  | 15 => ⟨S1, .f32⟩
  | 16 => ⟨S64x64, .f32⟩
  | 17 => ⟨S64, .f32⟩
  | 18 => ⟨S64x32, .f32⟩
  | 19 => ⟨S32, .f32⟩
  | 20 => ⟨S64x1, .f32⟩
  | 21 => ⟨S1, .f32⟩
  | 22 => ⟨S100000, .i32⟩
  | 23 => ⟨S1x1200000, .i32⟩
  | 24 => ⟨S1200000, .i32⟩
  | 25 => ⟨S1300000, .i32⟩
  | 26 => ⟨S1x1200000, .i32⟩
  | 27 => ⟨S1200000, .i32⟩
  | 28 => ⟨S1300000, .i32⟩
  | 29 => ⟨S_, .f32⟩
  | 30 => ⟨S1300000, .f32⟩
  | 31 => ⟨S_, .f32⟩
  | 32 => ⟨S100000, .f32⟩
  | 33 => ⟨S1300000x1, .i32⟩
  | 34 => ⟨S100000, .f32⟩
  | 35 => ⟨S100000, .f32⟩
  | 36 => ⟨S_, .i32⟩
  | 37 => ⟨S1300000, .i32⟩
  | 38 => ⟨S1300000, .i1⟩
  | 39 => ⟨S_, .i32⟩
  | 40 => ⟨S1300000, .i32⟩
  | 41 => ⟨S1300000, .i32⟩
  | 42 => ⟨S1300000, .i32⟩
  | 43 => ⟨S1300000x1, .i32⟩
  | 44 => ⟨S1300000, .f32⟩
  | 45 => ⟨S_, .i32⟩
  | 46 => ⟨S1300000, .i32⟩
  | 47 => ⟨S1300000, .i1⟩
  | 48 => ⟨S_, .i32⟩
  | 49 => ⟨S1300000, .i32⟩
  | 50 => ⟨S1300000, .i32⟩
  | 51 => ⟨S1300000, .i32⟩
  | 52 => ⟨S1300000x1, .i32⟩
  | 53 => ⟨S1300000, .f32⟩
  | 54 => ⟨S1300000, .f32⟩
  | 55 => ⟨S_, .f32⟩
  | 56 => ⟨S64, .f32⟩
  | 57 => ⟨S64, .f32⟩
  | 58 => ⟨S64, .f32⟩
  | 59 => ⟨S64, .f32⟩
  | 60 => ⟨S64, .f32⟩
  | 61 => ⟨S64, .f32⟩
  | 62 => ⟨S1x64, .f32⟩
  | 63 => ⟨S1x64, .f32⟩
  | 64 => ⟨S1x64, .f32⟩
  | 65 => ⟨S1x64, .f32⟩
  | 66 => ⟨S1x64, .f32⟩
  | 67 => ⟨S1x64, .f32⟩
  | 68 => ⟨S1x1, .f32⟩
  | 69 => ⟨S1x64, .f32⟩
  | 70 => ⟨S1x32, .f32⟩
  | 71 => ⟨S1x1, .f32⟩
  | 72 => ⟨S64x1, .f32⟩
  | 73 => ⟨S64x1, .f32⟩
  | 74 => ⟨S100000x64, .f32⟩
  | 75 => ⟨S100000x64, .f32⟩
  | 76 => ⟨S_, .i32⟩
  | 77 => ⟨S1300000, .i32⟩
  | 78 => ⟨S1300000, .i1⟩
  | 79 => ⟨S_, .i32⟩
  | 80 => ⟨S1300000, .i32⟩
  | 81 => ⟨S1300000, .i32⟩
  | 82 => ⟨S1300000, .i32⟩
  | 83 => ⟨S1300000x1, .i32⟩
  | 84 => ⟨S1300000x64, .f32⟩
  | 85 => ⟨S1300000x1, .f32⟩
  | 86 => ⟨S1300000x64, .f32⟩
  | 87 => ⟨S1300000x64, .f32⟩
  | 88 => ⟨S_, .f32⟩
  | 89 => ⟨S100000x64, .f32⟩
  | 90 => ⟨S1300000x1, .i32⟩
  | 91 => ⟨S100000x64, .f32⟩
  | 92 => ⟨S100000x64, .f32⟩
  | 93 => ⟨S_, .i32⟩
  | 94 => ⟨S1300000, .i32⟩
  | 95 => ⟨S1300000, .i1⟩
  | 96 => ⟨S_, .i32⟩
  | 97 => ⟨S1300000, .i32⟩
  | 98 => ⟨S1300000, .i32⟩
  | 99 => ⟨S1300000, .i32⟩
  | 100 => ⟨S1300000x1, .i32⟩
  | 101 => ⟨S1300000x64, .f32⟩
  | 102 => ⟨S1300000x1, .f32⟩
  | 103 => ⟨S1300000x64, .f32⟩
  | 104 => ⟨S1300000x64, .f32⟩
  | 105 => ⟨S_, .f32⟩
  | 106 => ⟨S100000x64, .f32⟩
  | 107 => ⟨S1300000x1, .i32⟩
  | 108 => ⟨S100000x64, .f32⟩
  | 109 => ⟨S100000x64, .f32⟩
  | 110 => ⟨S_, .i32⟩
  | 111 => ⟨S1300000, .i32⟩
  | 112 => ⟨S1300000, .i1⟩
  | 113 => ⟨S_, .i32⟩
  | 114 => ⟨S1300000, .i32⟩
  | 115 => ⟨S1300000, .i32⟩
  | 116 => ⟨S1300000, .i32⟩
  | 117 => ⟨S1300000x1, .i32⟩
  | 118 => ⟨S1300000x64, .f32⟩
  | 119 => ⟨S1300000x1, .f32⟩
  | 120 => ⟨S1300000x64, .f32⟩
  | 121 => ⟨S1300000x64, .f32⟩
  | 122 => ⟨S_, .f32⟩
  | 123 => ⟨S100000x64, .f32⟩
  | 124 => ⟨S1300000x1, .i32⟩
  | 125 => ⟨S100000x64, .f32⟩
  | 126 => ⟨S100000x64, .f32⟩
  | 127 => ⟨S100000x32, .f32⟩
  | _ => ⟨S100000x128, .f32⟩

abbrev hbmTy0_1 (i : Nat) : BufTy := match i % 128 with
  | 0 => ⟨S100000x1, .f32⟩
  | 1 => ⟨S100000, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S1x64, .f32⟩
  | .local _ .vmem, ⟨4, _⟩ => ⟨S1x64, .f32⟩
  | .local _ .vmem, ⟨5, _⟩ => ⟨S1x64, .f32⟩
  | .local _ .vmem, ⟨6, _⟩ => ⟨S128x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S1x64, .f32⟩
  | .local _ .vmem, ⟨14, _⟩ => ⟨S64x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S1x64, .f32⟩
  | .local _ .vmem, ⟨20, _⟩ => ⟨S64x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S1x64, .f32⟩
  | .local _ .vmem, ⟨26, _⟩ => ⟨S5000x64, .f32⟩
  | .local _ .vmem, ⟨27, _⟩ => ⟨S5000x64, .f32⟩
  | .local _ .vmem, ⟨28, _⟩ => ⟨S64x1, .f32⟩
  | .local _ .vmem, ⟨29, _⟩ => ⟨S64x1, .f32⟩
  | .local _ .vmem, ⟨30, _⟩ => ⟨S1x1, .f32⟩
  | .local _ .vmem, ⟨31, _⟩ => ⟨S5000x64, .f32⟩
  | .local _ .vmem, ⟨32, _⟩ => ⟨S5000x64, .f32⟩
  | .local _ .vmem, ⟨33, _⟩ => ⟨S5000x64, .f32⟩
  | .local _ .vmem, ⟨34, _⟩ => ⟨S5000x64, .f32⟩
  | .local _ .vmem, ⟨35, _⟩ => ⟨S64x64, .f32⟩
  | .local _ .vmem, ⟨36, _⟩ => ⟨S1x64, .f32⟩
  | .local _ .vmem, ⟨37, _⟩ => ⟨S64x32, .f32⟩
  | .local _ .vmem, ⟨38, _⟩ => ⟨S1x32, .f32⟩
  | .local _ .vmem, ⟨39, _⟩ => ⟨S64x1, .f32⟩
  | .local _ .vmem, ⟨40, _⟩ => ⟨S1x1, .f32⟩
  | .local _ .vmem, ⟨41, _⟩ => ⟨S5000x32, .f32⟩
  | .local _ .vmem, ⟨42, _⟩ => ⟨S5000x32, .f32⟩
  | .local _ .vmem, ⟨43, _⟩ => ⟨S5000x1, .f32⟩
  | .local _ .vmem, ⟨44, _⟩ => ⟨S5000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_cst : Ref sig .tc := ⟨.hbm, 29, rfl⟩
abbrev main_v7 : Ref sig .tc := ⟨.hbm, 30, rfl⟩
abbrev main_cst_0 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_c : Ref sig .tc := ⟨.hbm, 36, rfl⟩
abbrev main_v12 : Ref sig .tc := ⟨.hbm, 37, rfl⟩
abbrev main_v13 : Ref sig .tc := ⟨.hbm, 38, rfl⟩
abbrev main_c_1 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_c_2 : Ref sig .tc := ⟨.hbm, 45, rfl⟩
abbrev main_v19 : Ref sig .tc := ⟨.hbm, 46, rfl⟩
abbrev main_v20 : Ref sig .tc := ⟨.hbm, 47, rfl⟩
abbrev main_c_3 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_cst_4 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45_0 : Ref sig .tc := ⟨.hbm, 74, rfl⟩
abbrev main_v45_1 : Ref sig .tc := ⟨.hbm, 75, rfl⟩
abbrev main_c_5 : Ref sig .tc := ⟨.hbm, 76, rfl⟩
abbrev main_v46 : Ref sig .tc := ⟨.hbm, 77, rfl⟩
abbrev main_v47 : Ref sig .tc := ⟨.hbm, 78, rfl⟩
abbrev main_c_6 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_cst_7 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_c_8 : Ref sig .tc := ⟨.hbm, 93, rfl⟩
abbrev main_v60 : Ref sig .tc := ⟨.hbm, 94, rfl⟩
abbrev main_v61 : Ref sig .tc := ⟨.hbm, 95, rfl⟩
abbrev main_c_9 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_cst_10 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_c_11 : Ref sig .tc := ⟨.hbm, 110, rfl⟩
abbrev main_v74 : Ref sig .tc := ⟨.hbm, 111, rfl⟩
abbrev main_v75 : Ref sig .tc := ⟨.hbm, 112, rfl⟩
abbrev main_c_12 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_cst_13 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88_0 : Ref sig .tc := ⟨.hbm, 127, rfl⟩
abbrev main_v88_1 : Ref sig .tc := ⟨.hbm, 128, rfl⟩
abbrev main_v89 : Ref sig .tc := ⟨.hbm, 129, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg3_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg3_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg2_0 : Ref sig .tc := ⟨.vmem, 26, rfl⟩
abbrev cc3_stg2_1 : Ref sig .tc := ⟨.vmem, 27, rfl⟩
abbrev cc3_stg3_0 : Ref sig .tc := ⟨.vmem, 28, rfl⟩
abbrev cc3_stg4_0 : Ref sig .tc := ⟨.vmem, 29, rfl⟩
abbrev cc3_stg5_0 : Ref sig .tc := ⟨.vmem, 30, rfl⟩
abbrev cc3_stg6_0 : Ref sig .tc := ⟨.vmem, 31, rfl⟩
abbrev cc3_stg6_1 : Ref sig .tc := ⟨.vmem, 32, rfl⟩
abbrev cc4_stg0_0 : Ref sig .tc := ⟨.vmem, 33, rfl⟩
abbrev cc4_stg0_1 : Ref sig .tc := ⟨.vmem, 34, rfl⟩
abbrev cc4_stg1_0 : Ref sig .tc := ⟨.vmem, 35, rfl⟩
abbrev cc4_stg2_0 : Ref sig .tc := ⟨.vmem, 36, rfl⟩
abbrev cc4_stg3_0 : Ref sig .tc := ⟨.vmem, 37, rfl⟩
abbrev cc4_stg4_0 : Ref sig .tc := ⟨.vmem, 38, rfl⟩
abbrev cc4_stg5_0 : Ref sig .tc := ⟨.vmem, 39, rfl⟩
abbrev cc4_stg6_0 : Ref sig .tc := ⟨.vmem, 40, rfl⟩
abbrev cc4_stg7_0 : Ref sig .tc := ⟨.vmem, 41, rfl⟩
abbrev cc4_stg7_1 : Ref sig .tc := ⟨.vmem, 42, rfl⟩
abbrev cc4_stg8_0 : Ref sig .tc := ⟨.vmem, 43, rfl⟩
abbrev cc4_stg8_1 : Ref sig .tc := ⟨.vmem, 44, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem3_1 : DmaSem sig := 16
abbrev cc2_sem0_0 : DmaSem sig := 17
abbrev cc2_sem0_1 : DmaSem sig := 18
abbrev cc2_sem1_0 : DmaSem sig := 19
abbrev cc2_sem2_0 : DmaSem sig := 20
abbrev cc2_sem3_0 : DmaSem sig := 21
abbrev cc2_sem3_1 : DmaSem sig := 22
abbrev cc3_sem0_0 : DmaSem sig := 23
abbrev cc3_sem0_1 : DmaSem sig := 24
abbrev cc3_sem1_0 : DmaSem sig := 25
abbrev cc3_sem2_0 : DmaSem sig := 26
abbrev cc3_sem2_1 : DmaSem sig := 27
abbrev cc3_sem3_0 : DmaSem sig := 28
abbrev cc3_sem4_0 : DmaSem sig := 29
abbrev cc3_sem5_0 : DmaSem sig := 30
abbrev cc3_sem6_0 : DmaSem sig := 31
abbrev cc3_sem6_1 : DmaSem sig := 32
abbrev cc4_sem0_0 : DmaSem sig := 33
abbrev cc4_sem0_1 : DmaSem sig := 34
abbrev cc4_sem1_0 : DmaSem sig := 35
abbrev cc4_sem2_0 : DmaSem sig := 36
abbrev cc4_sem3_0 : DmaSem sig := 37
abbrev cc4_sem4_0 : DmaSem sig := 38
abbrev cc4_sem5_0 : DmaSem sig := 39
abbrev cc4_sem6_0 : DmaSem sig := 40
abbrev cc4_sem7_0 : DmaSem sig := 41
abbrev cc4_sem7_1 : DmaSem sig := 42
abbrev cc4_sem8_0 : DmaSem sig := 43
abbrev cc4_sem8_1 : DmaSem sig := 44

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S5000x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S64x1 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64x1 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x1 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x64 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_8 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S64x32 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x32 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S64x1 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x1 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S5000x32 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev stage4_8 : Fin 2 → Memref sig .tc .vmem S5000x1 .f32 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true]

class Facts₀ : Prop where
  slices_S2x1200000_S1x1200000_0_0 : S2x1200000.Slices ![0, 0] S1x1200000
  shapeCasts_S1x1200000_S1200000 : S1x1200000.ShapeCasts S1200000
  concatenates_S1200000_S100000_S1300000_d0 : Shape.Concatenates [S1200000, S100000] S1300000 0
  slices_S2x1200000_S1x1200000_1_0 : S2x1200000.Slices ![1, 0] S1x1200000
  bcast_S_S1300000 : S_.BroadcastsInDim S1300000 (![] : Fin 0 → Fin S1300000.rank)
  bcast_S_S100000 : S_.BroadcastsInDim S100000 (![] : Fin 0 → Fin S100000.rank)
  bcast_S1300000_S1300000x1_0 : S1300000.BroadcastsInDim S1300000x1 (![0] : Fin 1 → Fin S1300000x1.rank)
  bcast_S_S64 : S_.BroadcastsInDim S64 (![] : Fin 0 → Fin S64.rank)
  shapeCasts_S64_S1x64 : S64.ShapeCasts S1x64
  shapeCasts_S1_S1x1 : S1.ShapeCasts S1x1
  shapeCasts_S32_S1x32 : S32.ShapeCasts S1x32
  slices_S128x1_S64x1_0_0 : S128x1.Slices ![0, 0] S64x1
  slices_S128x1_S64x1_64_0 : S128x1.Slices ![64, 0] S64x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S1300000x1_S1300000x64_0_1 : S1300000x1.BroadcastsInDim S1300000x64 (![0, 1] : Fin 2 → Fin S1300000x64.rank)
  bcast_S_S100000x64 : S_.BroadcastsInDim S100000x64 (![] : Fin 0 → Fin S100000x64.rank)
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  broadcasts_S5000x1_S5000x64 : S5000x1.Broadcasts S5000x64
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S5000x32_S5000x32_0_0 : ∀ a, (![0, 0] : Fin 2 → Nat) a + S5000x32.size a ≤ S5000x32.size a
  h_S5000x32 : 0 < S5000x32.numel
  inb_S5000x1_S5000x1_0_0 : ∀ a, (![0, 0] : Fin 2 → Nat) a + S5000x1.size a ≤ S5000x1.size a
  h_S5000x1 : 0 < S5000x1.numel
  shapeCasts_S100000x1_S100000 : S100000x1.ShapeCasts S100000
  scatter_S100000_S1300000x1_S1300000_n_0_0_1_wf : ScatterDims.WF S100000 S1300000x1 S1300000 [] [0] [0] 1
  gather_S100000_S1300000x1_S1300000_n_0_n_n_0_1_1_wf : GatherDims.WF S100000 S1300000x1 S1300000 [] [0] [] [0] [] 1 ![1]
  dot_S5000x128_S128x64_S5000x64_1_0_0_1_n_n_wf : DotDims.WF S5000x128 S128x64 S5000x64 [1] [0] [0] [1] [] []
  gather_S100000x64_S1300000x1_S1300000x64_1_0_n_n_0_1_164_wf : GatherDims.WF S100000x64 S1300000x1 S1300000x64 [1] [0] [] [0] [] 1 ![1, 64]
  scatter_S100000x64_S1300000x1_S1300000x64_1_0_0_1_wf : ScatterDims.WF S100000x64 S1300000x1 S1300000x64 [1] [0] [0] 1
  dot_S5000x64_S64x64_S5000x64_1_0_0_1_n_n_wf : DotDims.WF S5000x64 S64x64 S5000x64 [1] [0] [0] [1] [] []
  dot_S5000x64_S64x1_S5000x1_1_0_0_1_n_n_wf : DotDims.WF S5000x64 S64x1 S5000x1 [1] [0] [0] [1] [] []
  dot_S5000x64_S64x32_S5000x32_1_0_0_1_n_n_wf : DotDims.WF S5000x64 S64x32 S5000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x64.size a ≤ S128x64.size a
  hwx0_5 : ∀ i : grid0.Coords, EltTy.bits .f32 = 32 ∨ (Rect.block (s := S128x64) S128x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x64.size a ≤ S100000x64.size a
  hwx0_6 : ∀ i : grid0.Coords, EltTy.bits .f32 = 32 ∨ (Rect.block (s := S100000x64) S5000x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x64.size a ≤ S100000x64.size a
  hwx0_7 : ∀ i : grid0.Coords, EltTy.bits .f32 = 32 ∨ (Rect.block (s := S100000x64) S5000x64.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .f32 = 32 ∨ (Rect.block (s := S100000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S100000x64.size a
  hwx2_3 : ∀ i : grid2.Coords, EltTy.bits .f32 = 32 ∨ (Rect.block (s := S100000x64) S5000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S100000x64.size a
  hwx3_2 : ∀ i : grid3.Coords, EltTy.bits .f32 = 32 ∨ (Rect.block (s := S100000x64) S5000x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x1.size a ≤ S64x1.size a
  hwx3_3 : ∀ i : grid3.Coords, EltTy.bits .f32 = 32 ∨ (Rect.block (s := S64x1) S64x1.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64x1.size a ≤ S64x1.size a
  hwx3_4 : ∀ i : grid3.Coords, EltTy.bits .f32 = 32 ∨ (Rect.block (s := S64x1) S64x1.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x1.size a ≤ S1x1.size a
  hwx3_5 : ∀ i : grid3.Coords, EltTy.bits .f32 = 32 ∨ (Rect.block (s := S1x1) S1x1.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x64.size a ≤ S100000x64.size a
  hwx3_6 : ∀ i : grid3.Coords, EltTy.bits .f32 = 32 ∨ (Rect.block (s := S100000x64) S5000x64.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x32.size a ≤ S64x32.size a
  hwx4_3 : ∀ i : grid4.Coords, EltTy.bits .f32 = 32 ∨ (Rect.block (s := S64x32) S64x32.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x32.size a ≤ S1x32.size a
  hwx4_4 : ∀ i : grid4.Coords, EltTy.bits .f32 = 32 ∨ (Rect.block (s := S1x32) S1x32.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S64x1.size a ≤ S64x1.size a
  hwx4_5 : ∀ i : grid4.Coords, EltTy.bits .f32 = 32 ∨ (Rect.block (s := S64x1) S64x1.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x1.size a ≤ S1x1.size a
  hwx4_6 : ∀ i : grid4.Coords, EltTy.bits .f32 = 32 ∨ (Rect.block (s := S1x1) S1x1.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S5000x32.size a ≤ S100000x32.size a
  hwx4_7 : ∀ i : grid4.Coords, EltTy.bits .f32 = 32 ∨ (Rect.block (s := S100000x32) S5000x32.size (cc4_transform_7 i) (hinb4_7 i)).WholeWords (EltTy.packing .f32)
  hstage4_8 : ∀ j, (stage4_8 j).IsWhole
  nbuf4_8 : grid4.bufCount reads4_8 false = 2
  hreads4_8 : ∀ i i' : grid4.Coords, (∀ a, reads4_8 a = true → i a = i' a) → cc4_transform_8 i = cc4_transform_8 i'
  hinb4_8 : ∀ (i : grid4.Coords) a, (cc4_transform_8 i a + 1) * S5000x1.size a ≤ S100000x1.size a
  hwx4_8 : ∀ i : grid4.Coords, EltTy.bits .f32 = 32 ∨ (Rect.block (s := S100000x1) S5000x1.size (cc4_transform_8 i) (hinb4_8 i)).WholeWords (EltTy.packing .f32)

variable [Facts₀]

def scatter_S100000_S1300000x1_S1300000_n_0_0_1 : ScatterDims S100000 S1300000x1 S1300000 where
  updateWindowDims := []
  insertedWindowDims := [0]
  scatterDimsToOperandDims := [0]
  indexVectorDim := 1
  wf := scatter_S100000_S1300000x1_S1300000_n_0_0_1_wf
def gather_S100000_S1300000x1_S1300000_n_0_n_n_0_1_1 : GatherDims S100000 S1300000x1 S1300000 where
  offsetDims := []
  collapsedSliceDims := [0]
  operandBatchingDims := []
  startIndicesBatchingDims := []
  startIndexMap := [0]
  indexVectorDim := 1
  sliceSizes := ![1]
  wf := gather_S100000_S1300000x1_S1300000_n_0_n_n_0_1_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1300000x1_S1300000x64_1_0_n_n_0_1_164 : GatherDims S100000x64 S1300000x1 S1300000x64 where
  offsetDims := [1]
  collapsedSliceDims := [0]
  operandBatchingDims := []
  startIndicesBatchingDims := []
  startIndexMap := [0]
  indexVectorDim := 1
  sliceSizes := ![1, 64]
  wf := gather_S100000x64_S1300000x1_S1300000x64_1_0_n_n_0_1_164_wf
def scatter_S100000x64_S1300000x1_S1300000x64_1_0_0_1 : ScatterDims S100000x64 S1300000x1 S1300000x64 where
  updateWindowDims := [1]
  insertedWindowDims := [0]
  scatterDimsToOperandDims := [0]
  indexVectorDim := 1
  wf := scatter_S100000x64_S1300000x1_S1300000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x1_S5000x1_1_0_0_1_n_n : DotDims S5000x64 S64x1 S5000x1 where
  lhsContracting := [1]
  rhsContracting := [0]
  lhsNonContracting := [0]
  rhsNonContracting := [1]
  lhsBatch := []
  rhsBatch := []
  wf := dot_S5000x64_S64x1_S5000x1_1_0_0_1_n_n_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v34) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v35) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg8) S128x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v45_0) S5000x64.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v45_1) S5000x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v58) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v36) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg10) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v59) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v72) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v37) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg12) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v73) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v86) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v38) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v45_0) S5000x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v43) S64x1.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v44) S64x1.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v39) S1x1.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v87) S5000x64.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v87) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg16) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v40) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg18) S64x32.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v41) S1x32.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg20) S64x1.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v42) S1x1.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v88_0) S5000x32.size cc4_transform_7 reads4_7 true false 2 stage4_7 sem4_7
    hrank4 hreads4_7 hinb4_7 nbuf4_7 (Memref.isWhole_whole _) hwx4_7 hstage4_7

abbrev win4_8 : Pipeline.Window sig grid4 :=
  Pipeline.Window.ofSpec (Memref.whole main_v88_1) S5000x1.size cc4_transform_8 reads4_8 true false 2 stage4_8 sem4_8
    hrank4 hreads4_8 hinb4_8 nbuf4_8 (Memref.isWhole_whole _) hwx4_8 hstage4_8

abbrev win4 : Fin 9 → Pipeline.Window sig grid4 := fun | 0 => win4_0 | 1 => win4_1 | 2 => win4_2 | 3 => win4_3 | 4 => win4_4 | 5 => win4_5 | 6 => win4_6 | 7 => win4_7 | 8 => win4_8 | ⟨_ + 9, h⟩ => absurd h (Nat.not_lt.2 (Nat.le_add_left _ _))
abbrev spec4 : Fin 9 → Pipeline.WinSpec sig grid4.rank := fun w => (win4 w).toWinSpec

class Facts : Prop extends Facts₀ where

variable [Facts]
-- ==== ReferenceIdeal.lean ====
abbrev S100000x128 : Shape := ⟨2, ![100000, 128]⟩
abbrev S2x1200000 : Shape := ⟨2, ![2, 1200000]⟩
abbrev S128x64 : Shape := ⟨2, ![128, 64]⟩
abbrev S64 : Shape := ⟨1, ![64]⟩
abbrev S64x64 : Shape := ⟨2, ![64, 64]⟩
abbrev S128x1 : Shape := ⟨2, ![128, 1]⟩
abbrev S1 : Shape := ⟨1, ![1]⟩
abbrev S64x32 : Shape := ⟨2, ![64, 32]⟩
abbrev S32 : Shape := ⟨1, ![32]⟩
abbrev S64x1 : Shape := ⟨2, ![64, 1]⟩
abbrev S100000 : Shape := ⟨1, ![100000]⟩
abbrev S1x1200000 : Shape := ⟨2, ![1, 1200000]⟩
abbrev S1200000 : Shape := ⟨1, ![1200000]⟩
abbrev S1300000 : Shape := ⟨1, ![1300000]⟩
abbrev S_ : Shape := ⟨0, ![]⟩
abbrev S1300000x1 : Shape := ⟨2, ![1300000, 1]⟩
abbrev S100000x64 : Shape := ⟨2, ![100000, 64]⟩
abbrev S1x64 : Shape := ⟨2, ![1, 64]⟩
abbrev S1300000x64 : Shape := ⟨2, ![1300000, 64]⟩
abbrev S100000x1 : Shape := ⟨2, ![100000, 1]⟩
abbrev S1x1 : Shape := ⟨2, ![1, 1]⟩
abbrev S100000x32 : Shape := ⟨2, ![100000, 32]⟩
abbrev S1x32 : Shape := ⟨2, ![1, 32]⟩

abbrev nBuf : Space → Nat
  | .hbm => 184
  | .vmem => 0
  | .smem => 0
  | _ => 0

abbrev hbmTy0_0 (i : Nat) : BufTy := match i % 128 with
  | 0 => ⟨S100000x128, .f32⟩
  | 1 => ⟨S2x1200000, .i32⟩
  | 2 => ⟨S128x64, .f32⟩
  | 3 => ⟨S64, .f32⟩
  | 4 => ⟨S64, .f32⟩
  | 5 => ⟨S64, .f32⟩
  | 6 => ⟨S64, .f32⟩
  | 7 => ⟨S64, .f32⟩
  | 8 => ⟨S128x64, .f32⟩
  | 9 => ⟨S64, .f32⟩
  | 10 => ⟨S64x64, .f32⟩
  | 11 => ⟨S64, .f32⟩
  | 12 => ⟨S64x64, .f32⟩
  | 13 => ⟨S64, .f32⟩
  | 14 => ⟨S128x1, .f32⟩
  | 15 => ⟨S1, .f32⟩
  | 16 => ⟨S64x64, .f32⟩
  | 17 => ⟨S64, .f32⟩
  | 18 => ⟨S64x32, .f32⟩
  | 19 => ⟨S32, .f32⟩
  | 20 => ⟨S64x1, .f32⟩
  | 21 => ⟨S1, .f32⟩
  | 22 => ⟨S100000, .i32⟩
  | 23 => ⟨S1x1200000, .i32⟩
  | 24 => ⟨S1200000, .i32⟩
  | 25 => ⟨S1300000, .i32⟩
  | 26 => ⟨S1x1200000, .i32⟩
  | 27 => ⟨S1200000, .i32⟩
  | 28 => ⟨S1300000, .i32⟩
  | 29 => ⟨S_, .f32⟩
  | 30 => ⟨S1300000, .f32⟩
  | 31 => ⟨S_, .f32⟩
  | 32 => ⟨S100000, .f32⟩
  | 33 => ⟨S1300000x1, .i32⟩
  | 34 => ⟨S100000, .f32⟩
  | 35 => ⟨S100000, .f32⟩
  | 36 => ⟨S_, .i32⟩
  | 37 => ⟨S1300000, .i32⟩
  | 38 => ⟨S1300000, .i1⟩
  | 39 => ⟨S_, .i32⟩
  | 40 => ⟨S1300000, .i32⟩
  | 41 => ⟨S1300000, .i32⟩
  | 42 => ⟨S1300000, .i32⟩
  | 43 => ⟨S1300000x1, .i32⟩
  | 44 => ⟨S1300000, .f32⟩
  | 45 => ⟨S_, .i32⟩
  | 46 => ⟨S1300000, .i32⟩
  | 47 => ⟨S1300000, .i1⟩
  | 48 => ⟨S_, .i32⟩
  | 49 => ⟨S1300000, .i32⟩
  | 50 => ⟨S1300000, .i32⟩
  | 51 => ⟨S1300000, .i32⟩
  | 52 => ⟨S1300000x1, .i32⟩
  | 53 => ⟨S1300000, .f32⟩
  | 54 => ⟨S1300000, .f32⟩
  | 55 => ⟨S100000x64, .f32⟩
  | 56 => ⟨S1x64, .f32⟩
  | 57 => ⟨S100000x64, .f32⟩
  | 58 => ⟨S100000x64, .f32⟩
  | 59 => ⟨S1x64, .f32⟩
  | 60 => ⟨S100000x64, .f32⟩
  | 61 => ⟨S100000x64, .f32⟩
  | 62 => ⟨S_, .f32⟩
  | 63 => ⟨S64, .f32⟩
  | 64 => ⟨S64, .f32⟩
  | 65 => ⟨S64, .f32⟩
  | 66 => ⟨S1x64, .f32⟩
  | 67 => ⟨S100000x64, .f32⟩
  | 68 => ⟨S100000x64, .f32⟩
  | 69 => ⟨S1x64, .f32⟩
  | 70 => ⟨S100000x64, .f32⟩
  | 71 => ⟨S100000x64, .f32⟩
  | 72 => ⟨S1x64, .f32⟩
  | 73 => ⟨S100000x64, .f32⟩
  | 74 => ⟨S100000x64, .f32⟩
  | 75 => ⟨S_, .f32⟩
  | 76 => ⟨S100000x64, .f32⟩
  | 77 => ⟨S100000x64, .f32⟩
  | 78 => ⟨S100000x64, .f32⟩
  | 79 => ⟨S_, .i32⟩
  | 80 => ⟨S1300000, .i32⟩
  | 81 => ⟨S1300000, .i1⟩
  | 82 => ⟨S_, .i32⟩
  | 83 => ⟨S1300000, .i32⟩
  | 84 => ⟨S1300000, .i32⟩
  | 85 => ⟨S1300000, .i32⟩
  | 86 => ⟨S1300000x1, .i32⟩
  | 87 => ⟨S1300000x64, .f32⟩
  | 88 => ⟨S1300000x1, .f32⟩
  | 89 => ⟨S1300000x64, .f32⟩
  | 90 => ⟨S1300000x64, .f32⟩
  | 91 => ⟨S_, .f32⟩
  | 92 => ⟨S100000x64, .f32⟩
  | 93 => ⟨S1300000x1, .i32⟩
  | 94 => ⟨S100000x64, .f32⟩
  | 95 => ⟨S1x64, .f32⟩
  | 96 => ⟨S100000x64, .f32⟩
  | 97 => ⟨S100000x64, .f32⟩
  | 98 => ⟨S_, .f32⟩
  | 99 => ⟨S100000x64, .f32⟩
  | 100 => ⟨S100000x64, .f32⟩
  | 101 => ⟨S100000x64, .f32⟩
  | 102 => ⟨S_, .i32⟩
  | 103 => ⟨S1300000, .i32⟩
  | 104 => ⟨S1300000, .i1⟩
  | 105 => ⟨S_, .i32⟩
  | 106 => ⟨S1300000, .i32⟩
  | 107 => ⟨S1300000, .i32⟩
  | 108 => ⟨S1300000, .i32⟩
  | 109 => ⟨S1300000x1, .i32⟩
  | 110 => ⟨S1300000x64, .f32⟩
  | 111 => ⟨S1300000x1, .f32⟩
  | 112 => ⟨S1300000x64, .f32⟩
  | 113 => ⟨S1300000x64, .f32⟩
  | 114 => ⟨S_, .f32⟩
  | 115 => ⟨S100000x64, .f32⟩
  | 116 => ⟨S1300000x1, .i32⟩
  | 117 => ⟨S100000x64, .f32⟩
  | 118 => ⟨S1x64, .f32⟩
  | 119 => ⟨S100000x64, .f32⟩
  | 120 => ⟨S100000x64, .f32⟩
  | 121 => ⟨S_, .f32⟩
  | 122 => ⟨S100000x64, .f32⟩
  | 123 => ⟨S100000x64, .f32⟩
  | 124 => ⟨S100000x64, .f32⟩
  | 125 => ⟨S_, .i32⟩
  | 126 => ⟨S1300000, .i32⟩
  | 127 => ⟨S1300000, .i1⟩
  | _ => ⟨S100000x128, .f32⟩

abbrev hbmTy0_1 (i : Nat) : BufTy := match i % 128 with
  | 0 => ⟨S_, .i32⟩
  | 1 => ⟨S1300000, .i32⟩
  | 2 => ⟨S1300000, .i32⟩
  | 3 => ⟨S1300000, .i32⟩
  | 4 => ⟨S1300000x1, .i32⟩
  | 5 => ⟨S1300000x64, .f32⟩
  | 6 => ⟨S1300000x1, .f32⟩
  | 7 => ⟨S1300000x64, .f32⟩
  | 8 => ⟨S1300000x64, .f32⟩
  | 9 => ⟨S_, .f32⟩
  | 10 => ⟨S100000x64, .f32⟩
  | 11 => ⟨S1300000x1, .i32⟩
  | 12 => ⟨S100000x64, .f32⟩
  | 13 => ⟨S1x64, .f32⟩
  | 14 => ⟨S100000x64, .f32⟩
  | 15 => ⟨S100000x64, .f32⟩
  | 16 => ⟨S_, .f32⟩
  | 17 => ⟨S100000x64, .f32⟩
  | 18 => ⟨S100000x64, .f32⟩
  | 19 => ⟨S100000x128, .f32⟩
  | 20 => ⟨S100000x1, .f32⟩
  | 21 => ⟨S1x1, .f32⟩
  | 22 => ⟨S100000x1, .f32⟩
  | 23 => ⟨S100000x1, .f32⟩
  | 24 => ⟨S100000x1, .f32⟩
  | 25 => ⟨S100000x1, .f32⟩
  | 26 => ⟨S_, .f32⟩
  | 27 => ⟨S100000x1, .f32⟩
  | 28 => ⟨S100000x1, .f32⟩
  | 29 => ⟨S_, .f32⟩
  | 30 => ⟨S100000x1, .f32⟩
  | 31 => ⟨S100000x1, .f32⟩
  | 32 => ⟨S100000x64, .f32⟩
  | 33 => ⟨S100000x64, .f32⟩
  | 34 => ⟨S_, .f32⟩
  | 35 => ⟨S100000x1, .f32⟩
  | 36 => ⟨S100000x1, .f32⟩
  | 37 => ⟨S100000x64, .f32⟩
  | 38 => ⟨S100000x64, .f32⟩
  | 39 => ⟨S100000x64, .f32⟩
  | 40 => ⟨S100000x64, .f32⟩
  | 41 => ⟨S1x64, .f32⟩
  | 42 => ⟨S100000x64, .f32⟩
  | 43 => ⟨S100000x64, .f32⟩
  | 44 => ⟨S_, .f32⟩
  | 45 => ⟨S100000x64, .f32⟩
  | 46 => ⟨S100000x64, .f32⟩
  | 47 => ⟨S100000x32, .f32⟩
  | 48 => ⟨S1x32, .f32⟩
  | 49 => ⟨S100000x32, .f32⟩
  | 50 => ⟨S100000x32, .f32⟩
  | 51 => ⟨S100000x1, .f32⟩
  | 52 => ⟨S1x1, .f32⟩
  | 53 => ⟨S100000x1, .f32⟩
  | 54 => ⟨S100000x1, .f32⟩
  | 55 => ⟨S100000, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_cst : Ref sig .tc := ⟨.hbm, 29, rfl⟩
abbrev main_v7 : Ref sig .tc := ⟨.hbm, 30, rfl⟩
abbrev main_cst_0 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_c : Ref sig .tc := ⟨.hbm, 36, rfl⟩
abbrev main_v12 : Ref sig .tc := ⟨.hbm, 37, rfl⟩
abbrev main_v13 : Ref sig .tc := ⟨.hbm, 38, rfl⟩
abbrev main_c_1 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_c_2 : Ref sig .tc := ⟨.hbm, 45, rfl⟩
abbrev main_v19 : Ref sig .tc := ⟨.hbm, 46, rfl⟩
abbrev main_v20 : Ref sig .tc := ⟨.hbm, 47, rfl⟩
abbrev main_c_3 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_cst_4 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_call0_cst : Ref sig .tc := ⟨.hbm, 75, rfl⟩
abbrev main_call0_v0 : Ref sig .tc := ⟨.hbm, 76, rfl⟩
abbrev main_v46 : Ref sig .tc := ⟨.hbm, 77, rfl⟩
abbrev main_v47 : Ref sig .tc := ⟨.hbm, 78, rfl⟩
abbrev main_c_5 : Ref sig .tc := ⟨.hbm, 79, rfl⟩
abbrev main_v48 : Ref sig .tc := ⟨.hbm, 80, rfl⟩
abbrev main_v49 : Ref sig .tc := ⟨.hbm, 81, rfl⟩
abbrev main_c_6 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_cst_7 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_call1_cst : Ref sig .tc := ⟨.hbm, 98, rfl⟩
abbrev main_call1_v0 : Ref sig .tc := ⟨.hbm, 99, rfl⟩
abbrev main_v64 : Ref sig .tc := ⟨.hbm, 100, rfl⟩
abbrev main_v65 : Ref sig .tc := ⟨.hbm, 101, rfl⟩
abbrev main_c_8 : Ref sig .tc := ⟨.hbm, 102, rfl⟩
abbrev main_v66 : Ref sig .tc := ⟨.hbm, 103, rfl⟩
abbrev main_v67 : Ref sig .tc := ⟨.hbm, 104, rfl⟩
abbrev main_c_9 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_cst_10 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_call2_cst : Ref sig .tc := ⟨.hbm, 121, rfl⟩
abbrev main_call2_v0 : Ref sig .tc := ⟨.hbm, 122, rfl⟩
abbrev main_v82 : Ref sig .tc := ⟨.hbm, 123, rfl⟩
abbrev main_v83 : Ref sig .tc := ⟨.hbm, 124, rfl⟩
abbrev main_c_11 : Ref sig .tc := ⟨.hbm, 125, rfl⟩
abbrev main_v84 : Ref sig .tc := ⟨.hbm, 126, rfl⟩
abbrev main_v85 : Ref sig .tc := ⟨.hbm, 127, rfl⟩
abbrev main_c_12 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_cst_13 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_call3_cst : Ref sig .tc := ⟨.hbm, 144, rfl⟩
abbrev main_call3_v0 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_cst_14 : Ref sig .tc := ⟨.hbm, 154, rfl⟩
abbrev main_v108 : Ref sig .tc := ⟨.hbm, 155, rfl⟩
abbrev main_v109 : Ref sig .tc := ⟨.hbm, 156, rfl⟩
abbrev main_cst_15 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_cst_16 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_call4_cst : Ref sig .tc := ⟨.hbm, 172, rfl⟩
abbrev main_call4_v0 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_v128 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  concatenates_S1200000_S100000_S1300000_d0 : Shape.Concatenates [S1200000, S100000] S1300000 0
  slices_S2x1200000_S1x1200000_1_0 : S2x1200000.Slices ![1, 0] S1x1200000
  bcast_S_S1300000 : S_.BroadcastsInDim S1300000 (![] : Fin 0 → Fin S1300000.rank)
  bcast_S_S100000 : S_.BroadcastsInDim S100000 (![] : Fin 0 → Fin S100000.rank)
  bcast_S1300000_S1300000x1_0 : S1300000.BroadcastsInDim S1300000x1 (![0] : Fin 1 → Fin S1300000x1.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S64 : S_.BroadcastsInDim S64 (![] : Fin 0 → Fin S64.rank)
  bcast_S_S100000x64 : S_.BroadcastsInDim S100000x64 (![] : Fin 0 → Fin S100000x64.rank)
  bcast_S1300000x1_S1300000x64_0_1 : S1300000x1.BroadcastsInDim S1300000x64 (![0, 1] : Fin 2 → Fin S1300000x64.rank)
  concatenates_S100000x64_S100000x64_S100000x128_d1 : Shape.Concatenates [S100000x64, S100000x64] S100000x128 1
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  shapeCasts_S100000x1_S100000 : S100000x1.ShapeCasts S100000
  scatter_S100000_S1300000x1_S1300000_n_0_0_1_wf : ScatterDims.WF S100000 S1300000x1 S1300000 [] [0] [0] 1
  gather_S100000_S1300000x1_S1300000_n_0_n_n_0_1_1_wf : GatherDims.WF S100000 S1300000x1 S1300000 [] [0] [] [0] [] 1 ![1]
  dot_S100000x128_S128x64_S100000x64_1_0_0_1_n_n_wf : DotDims.WF S100000x128 S128x64 S100000x64 [1] [0] [0] [1] [] []
  gather_S100000x64_S1300000x1_S1300000x64_1_0_n_n_0_1_164_wf : GatherDims.WF S100000x64 S1300000x1 S1300000x64 [1] [0] [] [0] [] 1 ![1, 64]
  scatter_S100000x64_S1300000x1_S1300000x64_1_0_0_1_wf : ScatterDims.WF S100000x64 S1300000x1 S1300000x64 [1] [0] [0] 1
  dot_S100000x64_S64x64_S100000x64_1_0_0_1_n_n_wf : DotDims.WF S100000x64 S64x64 S100000x64 [1] [0] [0] [1] [] []
  dot_S100000x128_S128x1_S100000x1_1_0_0_1_n_n_wf : DotDims.WF S100000x128 S128x1 S100000x1 [1] [0] [0] [1] [] []
  dot_S100000x64_S64x32_S100000x32_1_0_0_1_n_n_wf : DotDims.WF S100000x64 S64x32 S100000x32 [1] [0] [0] [1] [] []
  dot_S100000x64_S64x1_S100000x1_1_0_0_1_n_n_wf : DotDims.WF S100000x64 S64x1 S100000x1 [1] [0] [0] [1] [] []

variable [Facts₀]

def scatter_S100000_S1300000x1_S1300000_n_0_0_1 : ScatterDims S100000 S1300000x1 S1300000 where
  updateWindowDims := []
  insertedWindowDims := [0]
  scatterDimsToOperandDims := [0]
  indexVectorDim := 1
  wf := scatter_S100000_S1300000x1_S1300000_n_0_0_1_wf
def gather_S100000_S1300000x1_S1300000_n_0_n_n_0_1_1 : GatherDims S100000 S1300000x1 S1300000 where
  offsetDims := []
  collapsedSliceDims := [0]
  operandBatchingDims := []
  startIndicesBatchingDims := []
  startIndexMap := [0]
  indexVectorDim := 1
  sliceSizes := ![1]
  wf := gather_S100000_S1300000x1_S1300000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1300000x1_S1300000x64_1_0_n_n_0_1_164 : GatherDims S100000x64 S1300000x1 S1300000x64 where
  offsetDims := [1]
  collapsedSliceDims := [0]
  operandBatchingDims := []
  startIndicesBatchingDims := []
  startIndexMap := [0]
  indexVectorDim := 1
  sliceSizes := ![1, 64]
  wf := gather_S100000x64_S1300000x1_S1300000x64_1_0_n_n_0_1_164_wf
def scatter_S100000x64_S1300000x1_S1300000x64_1_0_0_1 : ScatterDims S100000x64 S1300000x1 S1300000x64 where
  updateWindowDims := [1]
  insertedWindowDims := [0]
  scatterDimsToOperandDims := [0]
  indexVectorDim := 1
  wf := scatter_S100000x64_S1300000x1_S1300000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf

class Facts : Prop extends Facts₀ where

variable [Facts]
-- ==== Proof.KernelRun.lean ====
/-
  The idealized kernel's run with its result arrays kept. The program is five pipelined regions among stretches of
  host operations; run from any memory with zero counters, every weakly fair execution terminates without a fault,
  and every unscoped buffer of every core ends at the last boundary's contents: the launch memory folded through the
  host stretches and the regions' write-backs in program order. The two results are two of those buffers.
-/
import proofs.«135266_j45973329936474_1_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, and in the final state every unscoped
    buffer of every core holds the contents of the last segment boundary. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W10 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c => h c)

end Cert.KernelIdeal.RunValue

end
-- ==== Proof.Carry.lean ====
/-
  Which buffers the later segments leave alone. Between two boundaries of the program a buffer that no host operation
  of the stretch writes, and that is no window's array of the region, holds what it held before. Read backwards from
  the last boundary this carries each weight, bias and index array to the boundary where it was produced: the launch
  memory for an argument, the end of the first host stretch for what that stretch computes, the first region's exit
  for its two outputs.
-/
import proofs.«135266_j45973329936474_1_alg».proof.Proof.Gen.KernelIdeal.Frame

set_option maxRecDepth 16384

noncomputable section

namespace Cert.KernelIdeal.Carry

open Idealize.ShloMosaic Idealize.ShloMosaic.TcCoe Idealize.ShloMosaic.Tactic Idealize.SL.Sem
open Cert.KernelIdeal Cert.KernelIdeal.Gen

variable {F : FTy → Type} [FloatOps F]
variable (m : (ℓ : Loc nD τ sig) → Buf (Elt F) ℓ) (ρ : Dev nD → PrngReg)

/-- The references the first host stretch writes. -/
def written0 : List (Ref sig .tc) := [main_v0, main_v1, main_v2, main_v3, main_v4, main_v5, main_v6, main_cst, main_v7, main_cst_0, main_v8, main_v9, main_v10, main_v11, main_c, main_v12, main_v13, main_c_1, main_v14, main_v15, main_v16, main_v17, main_v18, main_c_2, main_v19, main_v20, main_c_3, main_v21, main_v22, main_v23, main_v24, main_v25, main_v26, main_cst_4, main_v27, main_v28, main_v29, main_v30, main_v31, main_v32, main_v33, main_v34, main_v35, main_v36, main_v37, main_v38, main_v39, main_v40, main_v41, main_v42, main_v43, main_v44]

set_option maxHeartbeats 4000000 in
/-- A buffer that is none of them holds after the stretch what it held before it. -/
theorem keep0 (c : Dev nD) (b : Ref sig .tc) (hb : ∀ r ∈ written0, b ≠ r) :
    W1 m ρ c (Proc.devRef .tc b) = W0 m ρ c (Proc.devRef .tc b) :=
  StableHlo.after_of_forall_not_mem (b := Proc.devRef .tc b) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (hb _ (by decide))))

/-- The references the second host stretch writes. -/
def written1 : List (Ref sig .tc) := [main_c_5, main_v46, main_v47, main_c_6, main_v48, main_v49, main_v50, main_v51, main_v52, main_v53, main_v54, main_v55, main_cst_7, main_v56, main_v57, main_v58]

set_option maxHeartbeats 4000000 in
/-- A buffer that is none of them holds after the stretch what it held before it. -/
theorem keep1 (c : Dev nD) (b : Ref sig .tc) (hb : ∀ r ∈ written1, b ≠ r) :
    W3 m ρ c (Proc.devRef .tc b) = W2 m ρ c (Proc.devRef .tc b) :=
  StableHlo.after_of_forall_not_mem (b := Proc.devRef .tc b) _ _ (List.forall_iff_forall_mem.mp (by
    simp only [hostOps1, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (hb _ (by decide))))

/-- The references the third host stretch writes. -/
def written2 : List (Ref sig .tc) := [main_c_8, main_v60, main_v61, main_c_9, main_v62, main_v63, main_v64, main_v65, main_v66, main_v67, main_v68, main_v69, main_cst_10, main_v70, main_v71, main_v72]

set_option maxHeartbeats 4000000 in
/-- A buffer that is none of them holds after the stretch what it held before it. -/
theorem keep2 (c : Dev nD) (b : Ref sig .tc) (hb : ∀ r ∈ written2, b ≠ r) :
    W5 m ρ c (Proc.devRef .tc b) = W4 m ρ c (Proc.devRef .tc b) :=
  StableHlo.after_of_forall_not_mem (b := Proc.devRef .tc b) _ _ (List.forall_iff_forall_mem.mp (by
    simp only [hostOps2, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (hb _ (by decide))))

/-- The references the fourth host stretch writes. -/
def written3 : List (Ref sig .tc) := [main_c_11, main_v74, main_v75, main_c_12, main_v76, main_v77, main_v78, main_v79, main_v80, main_v81, main_v82, main_v83, main_cst_13, main_v84, main_v85, main_v86]

set_option maxHeartbeats 4000000 in
/-- A buffer that is none of them holds after the stretch what it held before it. -/
theorem keep3 (c : Dev nD) (b : Ref sig .tc) (hb : ∀ r ∈ written3, b ≠ r) :
    W7 m ρ c (Proc.devRef .tc b) = W6 m ρ c (Proc.devRef .tc b) :=
  StableHlo.after_of_forall_not_mem (b := Proc.devRef .tc b) _ _ (List.forall_iff_forall_mem.mp (by
    simp only [hostOps3, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (hb _ (by decide))))

/-- The references the last host stretch writes. -/
def written5 : List (Ref sig .tc) := [main_v89]

set_option maxHeartbeats 4000000 in
/-- A buffer that is none of them holds after the stretch what it held before it. -/
theorem keep5 (c : Dev nD) (b : Ref sig .tc) (hb : ∀ r ∈ written5, b ≠ r) :
    W10 m ρ c (Proc.devRef .tc b) = W9 m ρ c (Proc.devRef .tc b) :=
  StableHlo.after_of_forall_not_mem (b := Proc.devRef .tc b) _ _ (List.forall_iff_forall_mem.mp (by
    simp only [hostOps5, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (hb _ (by decide))))

set_option maxHeartbeats 1000000

theorem arg16_W8_W0 (c : Dev nD) : W8 m ρ c (Proc.devRef .tc main_arg16) = m ((c : Thread nD τ).loc main_arg16) :=
  ((W8_of_ne m ρ c main_arg16 (by decide)).trans ((keep3 m ρ c main_arg16 (by decide)).trans ((W6_of_ne m ρ c main_arg16 (by decide)).trans ((keep2 m ρ c main_arg16 (by decide)).trans ((W4_of_ne m ρ c main_arg16 (by decide)).trans ((keep1 m ρ c main_arg16 (by decide)).trans ((W2_of_ne m ρ c main_arg16 (by decide)).trans (keep0 m ρ c main_arg16 (by decide)))))))))
theorem v40_W8_W1 (c : Dev nD) : W8 m ρ c (Proc.devRef .tc main_v40) = W1 m ρ c (Proc.devRef .tc main_v40) :=
  ((W8_of_ne m ρ c main_v40 (by decide)).trans ((keep3 m ρ c main_v40 (by decide)).trans ((W6_of_ne m ρ c main_v40 (by decide)).trans ((keep2 m ρ c main_v40 (by decide)).trans ((W4_of_ne m ρ c main_v40 (by decide)).trans ((keep1 m ρ c main_v40 (by decide)).trans (W2_of_ne m ρ c main_v40 (by decide))))))))
theorem arg18_W8_W0 (c : Dev nD) : W8 m ρ c (Proc.devRef .tc main_arg18) = m ((c : Thread nD τ).loc main_arg18) :=
  ((W8_of_ne m ρ c main_arg18 (by decide)).trans ((keep3 m ρ c main_arg18 (by decide)).trans ((W6_of_ne m ρ c main_arg18 (by decide)).trans ((keep2 m ρ c main_arg18 (by decide)).trans ((W4_of_ne m ρ c main_arg18 (by decide)).trans ((keep1 m ρ c main_arg18 (by decide)).trans ((W2_of_ne m ρ c main_arg18 (by decide)).trans (keep0 m ρ c main_arg18 (by decide)))))))))
theorem v41_W8_W1 (c : Dev nD) : W8 m ρ c (Proc.devRef .tc main_v41) = W1 m ρ c (Proc.devRef .tc main_v41) :=
  ((W8_of_ne m ρ c main_v41 (by decide)).trans ((keep3 m ρ c main_v41 (by decide)).trans ((W6_of_ne m ρ c main_v41 (by decide)).trans ((keep2 m ρ c main_v41 (by decide)).trans ((W4_of_ne m ρ c main_v41 (by decide)).trans ((keep1 m ρ c main_v41 (by decide)).trans (W2_of_ne m ρ c main_v41 (by decide))))))))
theorem arg20_W8_W0 (c : Dev nD) : W8 m ρ c (Proc.devRef .tc main_arg20) = m ((c : Thread nD τ).loc main_arg20) :=
  ((W8_of_ne m ρ c main_arg20 (by decide)).trans ((keep3 m ρ c main_arg20 (by decide)).trans ((W6_of_ne m ρ c main_arg20 (by decide)).trans ((keep2 m ρ c main_arg20 (by decide)).trans ((W4_of_ne m ρ c main_arg20 (by decide)).trans ((keep1 m ρ c main_arg20 (by decide)).trans ((W2_of_ne m ρ c main_arg20 (by decide)).trans (keep0 m ρ c main_arg20 (by decide)))))))))
theorem v42_W8_W1 (c : Dev nD) : W8 m ρ c (Proc.devRef .tc main_v42) = W1 m ρ c (Proc.devRef .tc main_v42) :=
  ((W8_of_ne m ρ c main_v42 (by decide)).trans ((keep3 m ρ c main_v42 (by decide)).trans ((W6_of_ne m ρ c main_v42 (by decide)).trans ((keep2 m ρ c main_v42 (by decide)).trans ((W4_of_ne m ρ c main_v42 (by decide)).trans ((keep1 m ρ c main_v42 (by decide)).trans (W2_of_ne m ρ c main_v42 (by decide))))))))
theorem v38_W7_W1 (c : Dev nD) : W7 m ρ c (Proc.devRef .tc main_v38) = W1 m ρ c (Proc.devRef .tc main_v38) :=
  ((keep3 m ρ c main_v38 (by decide)).trans ((W6_of_ne m ρ c main_v38 (by decide)).trans ((keep2 m ρ c main_v38 (by decide)).trans ((W4_of_ne m ρ c main_v38 (by decide)).trans ((keep1 m ρ c main_v38 (by decide)).trans (W2_of_ne m ρ c main_v38 (by decide)))))))
theorem v45_0_W7_W2 (c : Dev nD) : W7 m ρ c (Proc.devRef .tc main_v45_0) = W2 m ρ c (Proc.devRef .tc main_v45_0) :=
  ((keep3 m ρ c main_v45_0 (by decide)).trans ((W6_of_ne m ρ c main_v45_0 (by decide)).trans ((keep2 m ρ c main_v45_0 (by decide)).trans ((W4_of_ne m ρ c main_v45_0 (by decide)).trans (keep1 m ρ c main_v45_0 (by decide))))))
theorem v43_W7_W1 (c : Dev nD) : W7 m ρ c (Proc.devRef .tc main_v43) = W1 m ρ c (Proc.devRef .tc main_v43) :=
  ((keep3 m ρ c main_v43 (by decide)).trans ((W6_of_ne m ρ c main_v43 (by decide)).trans ((keep2 m ρ c main_v43 (by decide)).trans ((W4_of_ne m ρ c main_v43 (by decide)).trans ((keep1 m ρ c main_v43 (by decide)).trans (W2_of_ne m ρ c main_v43 (by decide)))))))
theorem v44_W7_W1 (c : Dev nD) : W7 m ρ c (Proc.devRef .tc main_v44) = W1 m ρ c (Proc.devRef .tc main_v44) :=
  ((keep3 m ρ c main_v44 (by decide)).trans ((W6_of_ne m ρ c main_v44 (by decide)).trans ((keep2 m ρ c main_v44 (by decide)).trans ((W4_of_ne m ρ c main_v44 (by decide)).trans ((keep1 m ρ c main_v44 (by decide)).trans (W2_of_ne m ρ c main_v44 (by decide)))))))
theorem v39_W7_W1 (c : Dev nD) : W7 m ρ c (Proc.devRef .tc main_v39) = W1 m ρ c (Proc.devRef .tc main_v39) :=
  ((keep3 m ρ c main_v39 (by decide)).trans ((W6_of_ne m ρ c main_v39 (by decide)).trans ((keep2 m ρ c main_v39 (by decide)).trans ((W4_of_ne m ρ c main_v39 (by decide)).trans ((keep1 m ρ c main_v39 (by decide)).trans (W2_of_ne m ρ c main_v39 (by decide)))))))
theorem v3_W6_W1 (c : Dev nD) : W6 m ρ c (Proc.devRef .tc main_v3) = W1 m ρ c (Proc.devRef .tc main_v3) :=
  ((W6_of_ne m ρ c main_v3 (by decide)).trans ((keep2 m ρ c main_v3 (by decide)).trans ((W4_of_ne m ρ c main_v3 (by decide)).trans ((keep1 m ρ c main_v3 (by decide)).trans (W2_of_ne m ρ c main_v3 (by decide))))))
theorem v6_W6_W1 (c : Dev nD) : W6 m ρ c (Proc.devRef .tc main_v6) = W1 m ρ c (Proc.devRef .tc main_v6) :=
  ((W6_of_ne m ρ c main_v6 (by decide)).trans ((keep2 m ρ c main_v6 (by decide)).trans ((W4_of_ne m ρ c main_v6 (by decide)).trans ((keep1 m ρ c main_v6 (by decide)).trans (W2_of_ne m ρ c main_v6 (by decide))))))
theorem v26_W6_W1 (c : Dev nD) : W6 m ρ c (Proc.devRef .tc main_v26) = W1 m ρ c (Proc.devRef .tc main_v26) :=
  ((W6_of_ne m ρ c main_v26 (by decide)).trans ((keep2 m ρ c main_v26 (by decide)).trans ((W4_of_ne m ρ c main_v26 (by decide)).trans ((keep1 m ρ c main_v26 (by decide)).trans (W2_of_ne m ρ c main_v26 (by decide))))))
theorem v37_W5_W1 (c : Dev nD) : W5 m ρ c (Proc.devRef .tc main_v37) = W1 m ρ c (Proc.devRef .tc main_v37) :=
  ((keep2 m ρ c main_v37 (by decide)).trans ((W4_of_ne m ρ c main_v37 (by decide)).trans ((keep1 m ρ c main_v37 (by decide)).trans (W2_of_ne m ρ c main_v37 (by decide)))))
theorem arg12_W5_W0 (c : Dev nD) : W5 m ρ c (Proc.devRef .tc main_arg12) = m ((c : Thread nD τ).loc main_arg12) :=
  ((keep2 m ρ c main_arg12 (by decide)).trans ((W4_of_ne m ρ c main_arg12 (by decide)).trans ((keep1 m ρ c main_arg12 (by decide)).trans ((W2_of_ne m ρ c main_arg12 (by decide)).trans (keep0 m ρ c main_arg12 (by decide))))))
theorem v3_W4_W1 (c : Dev nD) : W4 m ρ c (Proc.devRef .tc main_v3) = W1 m ρ c (Proc.devRef .tc main_v3) :=
  ((W4_of_ne m ρ c main_v3 (by decide)).trans ((keep1 m ρ c main_v3 (by decide)).trans (W2_of_ne m ρ c main_v3 (by decide))))
theorem v6_W4_W1 (c : Dev nD) : W4 m ρ c (Proc.devRef .tc main_v6) = W1 m ρ c (Proc.devRef .tc main_v6) :=
  ((W4_of_ne m ρ c main_v6 (by decide)).trans ((keep1 m ρ c main_v6 (by decide)).trans (W2_of_ne m ρ c main_v6 (by decide))))
theorem v26_W4_W1 (c : Dev nD) : W4 m ρ c (Proc.devRef .tc main_v26) = W1 m ρ c (Proc.devRef .tc main_v26) :=
  ((W4_of_ne m ρ c main_v26 (by decide)).trans ((keep1 m ρ c main_v26 (by decide)).trans (W2_of_ne m ρ c main_v26 (by decide))))
theorem v36_W3_W1 (c : Dev nD) : W3 m ρ c (Proc.devRef .tc main_v36) = W1 m ρ c (Proc.devRef .tc main_v36) :=
  ((keep1 m ρ c main_v36 (by decide)).trans (W2_of_ne m ρ c main_v36 (by decide)))
theorem arg10_W3_W0 (c : Dev nD) : W3 m ρ c (Proc.devRef .tc main_arg10) = m ((c : Thread nD τ).loc main_arg10) :=
  ((keep1 m ρ c main_arg10 (by decide)).trans ((W2_of_ne m ρ c main_arg10 (by decide)).trans (keep0 m ρ c main_arg10 (by decide))))
theorem v3_W2_W1 (c : Dev nD) : W2 m ρ c (Proc.devRef .tc main_v3) = W1 m ρ c (Proc.devRef .tc main_v3) :=
  (W2_of_ne m ρ c main_v3 (by decide))
theorem v6_W2_W1 (c : Dev nD) : W2 m ρ c (Proc.devRef .tc main_v6) = W1 m ρ c (Proc.devRef .tc main_v6) :=
  (W2_of_ne m ρ c main_v6 (by decide))
theorem v26_W2_W1 (c : Dev nD) : W2 m ρ c (Proc.devRef .tc main_v26) = W1 m ρ c (Proc.devRef .tc main_v26) :=
  (W2_of_ne m ρ c main_v26 (by decide))
theorem arg0_W1_W0 (c : Dev nD) : W1 m ρ c (Proc.devRef .tc main_arg0) = m ((c : Thread nD τ).loc main_arg0) :=
  (keep0 m ρ c main_arg0 (by decide))
theorem arg2_W1_W0 (c : Dev nD) : W1 m ρ c (Proc.devRef .tc main_arg2) = m ((c : Thread nD τ).loc main_arg2) :=
  (keep0 m ρ c main_arg2 (by decide))
theorem arg8_W1_W0 (c : Dev nD) : W1 m ρ c (Proc.devRef .tc main_arg8) = m ((c : Thread nD τ).loc main_arg8) :=
  (keep0 m ρ c main_arg8 (by decide))
theorem v88_0_W10_W9 (c : Dev nD) : W10 m ρ c (Proc.devRef .tc main_v88_0) = W9 m ρ c (Proc.devRef .tc main_v88_0) :=
  (keep5 m ρ c main_v88_0 (by decide))

end Cert.KernelIdeal.Carry

end
-- ==== Proof.GraphAggregate.lean ====
/-
  The graph convolution's aggregation, as the one host computation both programs apply to a layer's transformed
  features hw: every edge (s, d) of the graph with self-loops carries the message hw[s] · norm(s, d), and node d
  receives the sum of the messages of the edges that end in it. Negative indices count from the end (an index below
  zero is shifted by the number of nodes), as array indexing does. Here it is a single function of the source and
  destination index arrays, the per-edge normalisation and the features, never opened: the two programs apply it to
  equal arguments.
-/
import proofs.«135266_j45973329936474_1_alg».proof.KernelIdeal

noncomputable section

namespace Cert.KernelIdeal.Graph

open Idealize.ShloMosaic Cert.KernelIdeal
open Cert.KernelIdeal.Facts₀ Cert.KernelIdeal.Facts

variable {F : FTy → Type} [FloatOps F] [Cert.KernelIdeal.Facts]

/-- An index array with its negative entries shifted by the number of nodes. -/
def wrap (idx : IVec S1300000 32) : IVec S1300000 32 :=
  select (cmpi CmpIPredicate.slt idx (broadcastInDim S1300000 ![] bcast_S_S1300000 (constantI S_ 32 0#32)))
    (addi idx (broadcastInDim S1300000 ![] bcast_S_S1300000 (constantI S_ 32 100000#32))) idx

/-- Node d's sum, over the edges (s, d), of hw[s] · norm(s, d). -/
def aggregate (src dst : IVec S1300000 32) (norm : FVec F S1300000 .f32) (hw : FVec F S100000x64 .f32) :
    FVec F S100000x64 .f32 :=
  Host.scatterAdd scatter_S100000x64_S1300000x1_S1300000x64_1_0_0_1
    (broadcastInDim S100000x64 ![] bcast_S_S100000x64 (constant S_ .f32 0x00000000#32))
    (broadcastInDim S1300000x1 ![0] bcast_S1300000_S1300000x1_0 dst)
    (mulf
      (Host.gather gather_S100000x64_S1300000x1_S1300000x64_1_0_n_n_0_1_164 hw
        (broadcastInDim S1300000x1 ![0] bcast_S1300000_S1300000x1_0 (wrap src)))
      (broadcastInDim S1300000x64 ![0, 1] bcast_S1300000x1_S1300000x64_0_1
        (broadcastInDim S1300000x1 ![0] bcast_S1300000_S1300000x1_0 norm)))

end Cert.KernelIdeal.Graph

end
-- ==== Proof.InitialValue.lean ====
/- Region 0 of the program (the feature-MLP branch and the first graph layer's linear map) read as two whole arrays.

   The region walks 20 row tiles of 5000 rows. On the tile at point t it stores, for every row p of the tile and every
   column q,
     hmlp[5000 t + p, q] = max (((∑ k, x[5000 t + p, k] · W1[k, q]) + b1[0, q]) · scale[0, q] + shift[0, q]) 0
     hw0 [5000 t + p, q] = ∑ k, x[5000 t + p, k] · gW0[k, q]
   (at the ideal values a change of float format is the identity and a product into a zero accumulator is the plain sum).
   A row r of the result depends only on row r of x, and r lies in exactly the tile r / 5000, so the tiles' write-backs
   assemble the two whole arrays `hmlpOf` and `hw0Of` below, whatever the buffers held when the region was entered. -/
import proofs.«135266_j45973329936474_1_alg».proof.Proof.Gen.KernelIdeal.Frame
import Idealize.ShloMosaic.Lib.ValueIdx
import Idealize.ShloMosaic.PureOps.Ideal.Laws
import Idealize.ShloMosaic.Lib.Pipeline.Value

noncomputable section

open scoped BigOperators
open Idealize.ShloMosaic Idealize.ShloMosaic.TcCoe Idealize.SL.Sem Idealize.ShloMosaic.ValueIdx
open Idealize.ShloMosaic.Pipeline (Dat)

namespace Cert.KernelIdeal.InitialValue

open Cert.KernelIdeal Cert.KernelIdeal.Gen

/-! ## The two results as whole-array functions of the region's whole input arrays -/

/-- relu((x · W1 + b1) * scale + shift), entry by entry. -/
def hmlpOf (x : S100000x128.Idx → EReal) (W1 : S128x64.Idx → EReal) (b1 scale shift : S1x64.Idx → EReal) :
    S100000x64.Idx → EReal := fun i =>
  max (((∑ k : Fin 128, x (ix2 (i 0) k) * W1 (ix2 k (i 1))) + b1 (ix2 (0 : Fin 1) (i 1))) * scale (ix2 (0 : Fin 1) (i 1))
        + shift (ix2 (0 : Fin 1) (i 1))) 0

/-- x · gW0, entry by entry. -/
def hw0Of (x : S100000x128.Idx → EReal) (gW0 : S128x64.Idx → EReal) : S100000x64.Idx → EReal := fun i =>
  ∑ k : Fin 128, x (ix2 (i 0) k) * gW0 (ix2 k (i 1))

/-! ## The row-tile product read at one entry -/

theorem lhsRow (j : S5000x64.Idx) (u : dot_S5000x128_S128x64_S5000x64_1_0_0_1_n_n.contr.Idx) :
    (dot_S5000x128_S128x64_S5000x64_1_0_0_1_n_n.lhsIdx j u 0).val = (j 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhsCol (j : S5000x64.Idx) (u : dot_S5000x128_S128x64_S5000x64_1_0_0_1_n_n.contr.Idx) :
    (dot_S5000x128_S128x64_S5000x64_1_0_0_1_n_n.lhsIdx j u 1).val = (u ⟨0, by decide⟩).val :=
  dot_S5000x128_S128x64_S5000x64_1_0_0_1_n_n.lhsIdx_val_of_single rfl j u
theorem rhsRow (j : S5000x64.Idx) (u : dot_S5000x128_S128x64_S5000x64_1_0_0_1_n_n.contr.Idx) :
    (dot_S5000x128_S128x64_S5000x64_1_0_0_1_n_n.rhsIdx j u 0).val = (u ⟨0, by decide⟩).val :=
  dot_S5000x128_S128x64_S5000x64_1_0_0_1_n_n.rhsIdx_val_of_single rfl j u
theorem rhsCol (j : S5000x64.Idx) (u : dot_S5000x128_S128x64_S5000x64_1_0_0_1_n_n.contr.Idx) :
    (dot_S5000x128_S128x64_S5000x64_1_0_0_1_n_n.rhsIdx j u 1).val = (j 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The product of a [5000,128] tile with a [128,64] matrix into a zero accumulator, at entry (p, q): the sum over the
    128 shared coordinates of the tile's row p times the matrix's column q. -/
theorem tileProduct_apply (l : FVec Ideal S5000x128 .bf16) (r : FVec Ideal S128x64 .bf16) (p : Fin 5000) (q : Fin 64) :
    matmul dot_S5000x128_S128x64_S5000x64_1_0_0_1_n_n none l r (constant S5000x64 .f32 0x00000000#32) (ix2 p q)
      = ∑ k : Fin 128, l (ix2 p k) * r (ix2 k q) := by
  simp only [matmul]
  rw [Ideal.matmul_constant_zero_apply, ← Equiv.sum_comp (contrEquiv1 dot_S5000x128_S128x64_S5000x64_1_0_0_1_n_n 128 rfl rfl).symm]
  refine Finset.sum_congr rfl fun k _ => ?_
  have hk := contrEquiv1_symm_val dot_S5000x128_S128x64_S5000x64_1_0_0_1_n_n 128 rfl rfl k
  have el : dot_S5000x128_S128x64_S5000x64_1_0_0_1_n_n.lhsIdx (ix2 p q) ((contrEquiv1 dot_S5000x128_S128x64_S5000x64_1_0_0_1_n_n 128 rfl rfl).symm k) = ix2 p k := funext fun a => Fin.ext (by
    match a with
    | ⟨0, _⟩ => exact lhsRow _ _
    | ⟨1, _⟩ => exact (lhsCol _ _).trans hk)
  have er : dot_S5000x128_S128x64_S5000x64_1_0_0_1_n_n.rhsIdx (ix2 p q) ((contrEquiv1 dot_S5000x128_S128x64_S5000x64_1_0_0_1_n_n 128 rfl rfl).symm k) = ix2 k q := funext fun a => Fin.ext (by
    match a with
    | ⟨0, _⟩ => exact (rhsRow _ _).trans hk
    | ⟨1, _⟩ => exact rhsCol _ _)
  rw [el, er]

/-- A [1,64] row broadcast down 5000 rows reads, at (p, q), the row's entry q. -/
theorem rowBroadcast_apply (v : FVec Ideal S1x64 .f32) (p : Fin 5000) (q : Fin 64) :
    broadcastTo S5000x64 v broadcasts_S1x64_S5000x64 (ix2 p q) = v (ix2 (0 : Fin 1) q) :=
  broadcastTo_apply v broadcasts_S1x64_S5000x64 (ix2 p q) (ix2 (0 : Fin 1) q) (fun a => by
    match a with
    | ⟨0, _⟩ => rfl
    | ⟨1, _⟩ => rfl)

/-- The first stored value at entry (p, q) of a tile. -/
theorem hmlpTile_apply (x0 : Vec Ideal S5000x128 .f32) (x2 : Vec Ideal S128x64 .f32) (x5 x9 x13 : Vec Ideal S1x64 .f32)
    (p : Fin 5000) (q : Fin 64) :
    k0_pay2 x0 x2 x5 x9 x13 (ix2 p q)
      = max (((∑ k : Fin 128, x0 (ix2 p k) * x2 (ix2 k q)) + x5 (ix2 (0 : Fin 1) q)) * x9 (ix2 (0 : Fin 1) q) + x13 (ix2 (0 : Fin 1) q)) 0 := by
  unfold k0_pay2 k0_pay1
  simp only [maximumf_apply, addf_apply, mulf_apply, broadcast_apply, shapeCast_self, rowBroadcast_apply, tileProduct_apply,
    truncf_apply]
  rw [show (Scalar.ofBits (F := Ideal) .f32 0x00000000#32) = 0 from Ideal.ofBits_zero_f32]

/-- The second stored value at entry (p, q) of a tile. -/
theorem hw0Tile_apply (x0 : Vec Ideal S5000x128 .f32) (x20 : Vec Ideal S128x64 .f32) (p : Fin 5000) (q : Fin 64) :
    k0_pay3 x0 x20 (ix2 p q) = ∑ k : Fin 128, x0 (ix2 p k) * x20 (ix2 k q) := by
  unfold k0_pay3 k0_pay1
  simp only [tileProduct_apply, truncf_apply]

/-! ## A tile of the results is a tile of the whole-array functions -/

/-- If a [5000,128] tile holds rows 5000 n … 5000 n + 4999 of x and the other loaded blocks are the whole arrays, the
    first stored value at an entry of the tile is `hmlpOf` at the corresponding entry of the array. -/
theorem hmlpTile_eq (X : S100000x128.Idx → EReal) (W : S128x64.Idx → EReal) (b s sh : S1x64.Idx → EReal)
    (x0 : Vec Ideal S5000x128 .f32) (x2 : Vec Ideal S128x64 .f32) (x5 x9 x13 : Vec Ideal S1x64 .f32) (n : Nat)
    (hx : ∀ (y : S5000x128.Idx) (i : S100000x128.Idx), (i 0).val = n * 5000 + (y 0).val → (i 1).val = (y 1).val → x0 y = X i)
    (h2 : x2 = W) (h5 : x5 = b) (h9 : x9 = s) (h13 : x13 = sh)
    (j : S5000x64.Idx) (i : S100000x64.Idx) (h0 : (i 0).val = n * 5000 + (j 0).val) (h1 : (i 1).val = (j 1).val) :
    k0_pay2 x0 x2 x5 x9 x13 j = hmlpOf X W b s sh i := by
  subst h2 h5 h9 h13
  obtain ⟨p, q, rfl⟩ : ∃ (p : Fin 5000) (q : Fin 64), j = ix2 p q := ⟨j 0, j 1, eq_ix2 j⟩
  obtain ⟨r, q', rfl⟩ : ∃ (r : Fin 100000) (q' : Fin 64), i = ix2 r q' := ⟨i 0, i 1, eq_ix2 i⟩
  obtain rfl : q' = q := Fin.ext h1
  rw [hmlpTile_apply]
  have hx' : ∀ k : Fin 128, x0 (ix2 p k) = X (ix2 r k) := fun k => hx (ix2 p k) (ix2 r k) h0 rfl
  simp only [hx']
  rfl

/-- The same for the second stored value and `hw0Of`. -/
theorem hw0Tile_eq (X : S100000x128.Idx → EReal) (G : S128x64.Idx → EReal)
    (x0 : Vec Ideal S5000x128 .f32) (x20 : Vec Ideal S128x64 .f32) (n : Nat)
    (hx : ∀ (y : S5000x128.Idx) (i : S100000x128.Idx), (i 0).val = n * 5000 + (y 0).val → (i 1).val = (y 1).val → x0 y = X i)
    (h20 : x20 = G)
    (j : S5000x64.Idx) (i : S100000x64.Idx) (h0 : (i 0).val = n * 5000 + (j 0).val) (h1 : (i 1).val = (j 1).val) :
    k0_pay3 x0 x20 j = hw0Of X G i := by
  subst h20
  obtain ⟨p, q, rfl⟩ : ∃ (p : Fin 5000) (q : Fin 64), j = ix2 p q := ⟨j 0, j 1, eq_ix2 j⟩
  obtain ⟨r, q', rfl⟩ : ∃ (r : Fin 100000) (q' : Fin 64), i = ix2 r q' := ⟨i 0, i 1, eq_ix2 i⟩
  obtain rfl : q' = q := Fin.ext h1
  rw [hw0Tile_apply]
  have hx' : ∀ k : Fin 128, x0 (ix2 p k) = X (ix2 r k) := fun k => hx (ix2 p k) (ix2 r k) h0 rfl
  simp only [hx']
  rfl

/-! ## From tiles to the arrays -/

section Blocks

variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

/-! The block index of every window at every point, decided over the 20 points: the three row-tiled windows (x and
    the two results) are at block (t, 0), the five whole-array windows at block (0, 0). -/

theorem idx0 : ∀ t : Fin cfg0.N, win0_0.index t (0 : Fin 2) = t.val ∧ win0_0.index t (1 : Fin 2) = 0 :=
  (by decide +kernel : ∀ t : Fin grid0.N, _)
theorem idx6 : ∀ t : Fin cfg0.N, win0_6.index t (0 : Fin 2) = t.val ∧ win0_6.index t (1 : Fin 2) = 0 :=
  (by decide +kernel : ∀ t : Fin grid0.N, _)
theorem idx7 : ∀ t : Fin cfg0.N, win0_7.index t (0 : Fin 2) = t.val ∧ win0_7.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)

/-- The tile of x at point t holds rows 5000 t … 5000 t + 4999 of x. -/
theorem xTile_apply (c : Dev nD) (t : Fin cfg0.N) (y : S5000x128.Idx) (i : S100000x128.Idx)
    (h0 : (i 0).val = t.val * 5000 + (y 0).val) (h1 : (i 1).val = (y 1).val) :
    (iblk0 V c 0 t : Vec F S5000x128 .f32) y = (V c (Pipeline.arrRef spec0 0) : S100000x128.Idx → Elt F .f32) i := by
  unfold iblk0
  show (V c (Pipeline.arrRef spec0 0) : S100000x128.Idx → Elt F .f32) (((cfg0.win 0).blk t).view.emb y) = _
  refine congrArg _ (funext fun a => Fin.ext ?_)
  match a with
  | ⟨0, _⟩ => show win0_0.index t (0 : Fin 2) * 5000 + 1 * (y 0).val = (i 0).val; rw [(idx0 t).1, h0]; omega
  | ⟨1, _⟩ => show win0_0.index t (1 : Fin 2) * 128 + 1 * (y 1).val = (i 1).val; rw [(idx0 t).2, h1]; omega

/-- The W1 window's block at every point is the whole array. -/
theorem whole1_eq (c : Dev nD) (t : Fin cfg0.N) :
    (iblk0 V c 1 t : Vec F S128x64 .f32) = (V c (Pipeline.arrRef spec0 1) : S128x64.Idx → Elt F .f32) := by
  funext y
  unfold iblk0
  show (V c (Pipeline.arrRef spec0 1) : S128x64.Idx → Elt F .f32) (((cfg0.win 1).blk t).view.emb y) = _
  refine congrArg _ (funext fun a => Fin.ext ?_)
  match a with
  | ⟨0, _⟩ => show win0_1.index t (0 : Fin 2) * 128 + 1 * (y 0).val = (y 0).val; rw [(idx1 t).1]; omega
  | ⟨1, _⟩ => show win0_1.index t (1 : Fin 2) * 64 + 1 * (y 1).val = (y 1).val; rw [(idx1 t).2]; omega

/-- The b1 window's block at every point is the whole array. -/
theorem whole2_eq (c : Dev nD) (t : Fin cfg0.N) :
    (iblk0 V c 2 t : Vec F S1x64 .f32) = (V c (Pipeline.arrRef spec0 2) : S1x64.Idx → Elt F .f32) := by
  funext y
  unfold iblk0
  show (V c (Pipeline.arrRef spec0 2) : S1x64.Idx → Elt F .f32) (((cfg0.win 2).blk t).view.emb y) = _
  refine congrArg _ (funext fun a => Fin.ext ?_)
  match a with
  | ⟨0, _⟩ => show win0_2.index t (0 : Fin 2) * 1 + 1 * (y 0).val = (y 0).val; rw [(idx2 t).1]; omega
  | ⟨1, _⟩ => show win0_2.index t (1 : Fin 2) * 64 + 1 * (y 1).val = (y 1).val; rw [(idx2 t).2]; omega

/-- The scale window's block at every point is the whole array. -/
theorem whole3_eq (c : Dev nD) (t : Fin cfg0.N) :
    (iblk0 V c 3 t : Vec F S1x64 .f32) = (V c (Pipeline.arrRef spec0 3) : S1x64.Idx → Elt F .f32) := by
  funext y
  unfold iblk0
  show (V c (Pipeline.arrRef spec0 3) : S1x64.Idx → Elt F .f32) (((cfg0.win 3).blk t).view.emb y) = _
  refine congrArg _ (funext fun a => Fin.ext ?_)
  match a with
  | ⟨0, _⟩ => show win0_3.index t (0 : Fin 2) * 1 + 1 * (y 0).val = (y 0).val; rw [(idx3 t).1]; omega
  | ⟨1, _⟩ => show win0_3.index t (1 : Fin 2) * 64 + 1 * (y 1).val = (y 1).val; rw [(idx3 t).2]; omega

/-- The shift window's block at every point is the whole array. -/
theorem whole4_eq (c : Dev nD) (t : Fin cfg0.N) :
    (iblk0 V c 4 t : Vec F S1x64 .f32) = (V c (Pipeline.arrRef spec0 4) : S1x64.Idx → Elt F .f32) := by
  funext y
  unfold iblk0
  show (V c (Pipeline.arrRef spec0 4) : S1x64.Idx → Elt F .f32) (((cfg0.win 4).blk t).view.emb y) = _
  refine congrArg _ (funext fun a => Fin.ext ?_)
  match a with
  | ⟨0, _⟩ => show win0_4.index t (0 : Fin 2) * 1 + 1 * (y 0).val = (y 0).val; rw [(idx4 t).1]; omega
  | ⟨1, _⟩ => show win0_4.index t (1 : Fin 2) * 64 + 1 * (y 1).val = (y 1).val; rw [(idx4 t).2]; omega

/-- The gW0 window's block at every point is the whole array. -/
theorem whole5_eq (c : Dev nD) (t : Fin cfg0.N) :
    (iblk0 V c 5 t : Vec F S128x64 .f32) = (V c (Pipeline.arrRef spec0 5) : S128x64.Idx → Elt F .f32) := by
  funext y
  unfold iblk0
  show (V c (Pipeline.arrRef spec0 5) : S128x64.Idx → Elt F .f32) (((cfg0.win 5).blk t).view.emb y) = _
  refine congrArg _ (funext fun a => Fin.ext ?_)
  match a with
  | ⟨0, _⟩ => show win0_5.index t (0 : Fin 2) * 128 + 1 * (y 0).val = (y 0).val; rw [(idx5 t).1]; omega
  | ⟨1, _⟩ => show win0_5.index t (1 : Fin 2) * 64 + 1 * (y 1).val = (y 1).val; rw [(idx5 t).2]; omega

/-- An index of the result array is in point t's tile iff each coordinate is in the tile's range on its axis. -/
theorem mem_tile6 (t : Fin cfg0.N) (i : S100000x64.Idx) :
    i ∈ ((cfg0.win 6).blk t).view.set ↔ ∀ a : Fin 2, win0_6.index t a * S5000x64.size a ≤ (i a).val ∧ (i a).val < win0_6.index t a * S5000x64.size a + S5000x64.size a := by
  show i ∈ ((View.whole main_v45_0).slice (win0_6.rect t)).set ↔ _
  rw [View.set_slice_whole, Rect.mem_set_unit]
  exact Iff.rfl

/-- Row r is in the tile of point r / 5000. -/
theorem cover6 (i : S100000x64.Idx) : ∃ t : Fin cfg0.N, (cfg0.win 6).flush t = true ∧ i ∈ ((cfg0.win 6).blk t).view.set := by
  have hi0 : (i 0).val < 100000 := (i 0).isLt
  have hi1 : (i 1).val < 64 := (i 1).isLt
  have ht : (i 0).val / 5000 < cfg0.N := by rw [show cfg0.N = 20 from N_0]; omega
  have e0 : win0_6.index ⟨(i 0).val / 5000, ht⟩ (0 : Fin 2) = (i 0).val / 5000 := (idx6 ⟨(i 0).val / 5000, ht⟩).1
  have e1 : win0_6.index ⟨(i 0).val / 5000, ht⟩ (1 : Fin 2) = 0 := (idx6 ⟨(i 0).val / 5000, ht⟩).2
  refine ⟨⟨(i 0).val / 5000, ht⟩, flush0_6 _, ?_⟩
  rw [mem_tile6]
  intro a
  match a with
  | ⟨0, _⟩ => show win0_6.index ⟨(i 0).val / 5000, ht⟩ (0 : Fin 2) * 5000 ≤ (i 0).val ∧ (i 0).val < win0_6.index ⟨(i 0).val / 5000, ht⟩ (0 : Fin 2) * 5000 + 5000; rw [e0]; omega
  | ⟨1, _⟩ => show win0_6.index ⟨(i 0).val / 5000, ht⟩ (1 : Fin 2) * 64 ≤ (i 1).val ∧ (i 1).val < win0_6.index ⟨(i 0).val / 5000, ht⟩ (1 : Fin 2) * 64 + 64; rw [e1]; omega

/-- An index of the result array is in point t's tile iff each coordinate is in the tile's range on its axis. -/
theorem mem_tile7 (t : Fin cfg0.N) (i : S100000x64.Idx) :
    i ∈ ((cfg0.win 7).blk t).view.set ↔ ∀ a : Fin 2, win0_7.index t a * S5000x64.size a ≤ (i a).val ∧ (i a).val < win0_7.index t a * S5000x64.size a + S5000x64.size a := by
  show i ∈ ((View.whole main_v45_1).slice (win0_7.rect t)).set ↔ _
  rw [View.set_slice_whole, Rect.mem_set_unit]
  exact Iff.rfl

/-- Row r is in the tile of point r / 5000. -/
theorem cover7 (i : S100000x64.Idx) : ∃ t : Fin cfg0.N, (cfg0.win 7).flush t = true ∧ i ∈ ((cfg0.win 7).blk t).view.set := by
  have hi0 : (i 0).val < 100000 := (i 0).isLt
  have hi1 : (i 1).val < 64 := (i 1).isLt
  have ht : (i 0).val / 5000 < cfg0.N := by rw [show cfg0.N = 20 from N_0]; omega
  have e0 : win0_7.index ⟨(i 0).val / 5000, ht⟩ (0 : Fin 2) = (i 0).val / 5000 := (idx7 ⟨(i 0).val / 5000, ht⟩).1
  have e1 : win0_7.index ⟨(i 0).val / 5000, ht⟩ (1 : Fin 2) = 0 := (idx7 ⟨(i 0).val / 5000, ht⟩).2
  refine ⟨⟨(i 0).val / 5000, ht⟩, flush0_7 _, ?_⟩
  rw [mem_tile7]
  intro a
  match a with
  | ⟨0, _⟩ => show win0_7.index ⟨(i 0).val / 5000, ht⟩ (0 : Fin 2) * 5000 ≤ (i 0).val ∧ (i 0).val < win0_7.index ⟨(i 0).val / 5000, ht⟩ (0 : Fin 2) * 5000 + 5000; rw [e0]; omega
  | ⟨1, _⟩ => show win0_7.index ⟨(i 0).val / 5000, ht⟩ (1 : Fin 2) * 64 ≤ (i 1).val ∧ (i 1).val < win0_7.index ⟨(i 0).val / 5000, ht⟩ (1 : Fin 2) * 64 + 64; rw [e1]; omega

end Blocks

/-! ## What each point writes back, and the two arrays after the region -/

section AtIdeal

variable (V : (c : Dev nD) → (b : Ref sig .tc) → Buf (Elt Ideal) ((c : Thread nD τ).loc b))

/-- Point t writes back tile t of `hmlpOf` of the region's input arrays. -/
theorem flushed6_eq (c : Dev nD) (t : Fin cfg0.N) :
    (dat0 (F := Ideal) V c).flushed 6 t = ((cfg0.win 6).blk t).view.read (Elt Ideal)
      (hmlpOf (V c (Pipeline.arrRef spec0 0)) (V c (Pipeline.arrRef spec0 1)) (V c (Pipeline.arrRef spec0 2)) (V c (Pipeline.arrRef spec0 3)) (V c (Pipeline.arrRef spec0 4))) := by
  show (cfg0.win 6).cut (grid0.coords t) ((dat0 V c).after 6 t) = _
  rw [after0_6]
  unfold out0_6
  rw [View.canon_unit_zero hz]
  simp only [View.ld_unit_zero (S := S5000x128) hz, View.ld_unit_zero (S := S128x64) hz, View.ld_unit_zero (S := S1x64) hz]
  funext j
  show _ = hmlpOf _ _ _ _ _ (((cfg0.win 6).blk t).view.emb j)
  exact hmlpTile_eq (V c (Pipeline.arrRef spec0 0)) (V c (Pipeline.arrRef spec0 1)) (V c (Pipeline.arrRef spec0 2)) (V c (Pipeline.arrRef spec0 3)) (V c (Pipeline.arrRef spec0 4)) (iblk0 V c 0 t) (iblk0 V c 1 t) (iblk0 V c 2 t) (iblk0 V c 3 t) (iblk0 V c 4 t) t.val
    (xTile_apply V c t) (whole1_eq V c t) (whole2_eq V c t) (whole3_eq V c t) (whole4_eq V c t) j _
    (by show win0_6.index t (0 : Fin 2) * 5000 + 1 * (j 0).val = _; rw [(idx6 t).1]; omega)
    (by show win0_6.index t (1 : Fin 2) * 64 + 1 * (j 1).val = _; rw [(idx6 t).2]; omega)

/-- Point t writes back tile t of `hw0Of` of the region's input arrays. -/
theorem flushed7_eq (c : Dev nD) (t : Fin cfg0.N) :
    (dat0 (F := Ideal) V c).flushed 7 t = ((cfg0.win 7).blk t).view.read (Elt Ideal)
      (hw0Of (V c (Pipeline.arrRef spec0 0)) (V c (Pipeline.arrRef spec0 5))) := by
  show (cfg0.win 7).cut (grid0.coords t) ((dat0 V c).after 7 t) = _
  rw [after0_7]
  unfold out0_7
  rw [View.canon_unit_zero hz]
  simp only [View.ld_unit_zero (S := S5000x128) hz, View.ld_unit_zero (S := S128x64) hz]
  funext j
  show _ = hw0Of _ _ (((cfg0.win 7).blk t).view.emb j)
  exact hw0Tile_eq (V c (Pipeline.arrRef spec0 0)) (V c (Pipeline.arrRef spec0 5)) (iblk0 V c 0 t) (iblk0 V c 5 t) t.val
    (xTile_apply V c t) (whole5_eq V c t) j _
    (by show win0_7.index t (0 : Fin 2) * 5000 + 1 * (j 0).val = _; rw [(idx7 t).1]; omega)
    (by show win0_7.index t (1 : Fin 2) * 64 + 1 * (j 1).val = _; rw [(idx7 t).2]; omega)

/-- THE FIRST RESULT ARRAY after the region: `hmlpOf` of the region's input arrays as the region found them. -/
theorem hmlp_final (c : Dev nD) :
    (dat0 (F := Ideal) V c).arrAt 6 cfg0.N = hmlpOf (V c (Pipeline.arrRef spec0 0)) (V c (Pipeline.arrRef spec0 1)) (V c (Pipeline.arrRef spec0 2)) (V c (Pipeline.arrRef spec0 3)) (V c (Pipeline.arrRef spec0 4)) :=
  (dat0 (F := Ideal) V c).arrAt_eq_of_cover 6 _ (fun t _ => flushed6_eq V c t) cover6

/-- THE SECOND RESULT ARRAY after the region: `hw0Of` of the region's input arrays as the region found them. -/
theorem hw0_final (c : Dev nD) :
    (dat0 (F := Ideal) V c).arrAt 7 cfg0.N = hw0Of (V c (Pipeline.arrRef spec0 0)) (V c (Pipeline.arrRef spec0 5)) :=
  (dat0 (F := Ideal) V c).arrAt_eq_of_cover 7 _ (fun t _ => flushed7_eq V c t) cover7

end AtIdeal

end Cert.KernelIdeal.InitialValue

end
-- ==== Proof.GateValue.lean ====
/- Region 3 of the program (the last graph layer's bias and relu, the sigmoid gate and the blend) read as one whole array.

   The region walks 20 row tiles of 5000 rows. On the tile at point t it stores, for every row p of the tile and every
   column q, with r = 5000 t + p,
     hg[r, q]  = max (agg2[r, q] + gb2[0, q]) 0
     gate[r]   = logistic ((∑ k, hmlp[r, k] · gw1[k, 0]) + (∑ k, hg[r, k] · gw2[k, 0]) + gateb[0, 0])
     out[r, q] = gate[r] · hg[r, q] + (1 − gate[r]) · hmlp[r, q]
   (at the ideal values a change of float format is the identity and a product into a zero accumulator is the plain sum;
   the logistic stays the ideal instance's own operation). Row r of the result depends only on row r of agg2 and of hmlp,
   and r lies in exactly the tile r / 5000, so the tiles' write-backs assemble the whole array `fusedOf` below, whatever
   the buffers held when the region was entered. -/
import proofs.«135266_j45973329936474_1_alg».proof.Proof.Gen.KernelIdeal.Frame
import Idealize.ShloMosaic.Lib.ValueIdx
import Idealize.ShloMosaic.PureOps.Ideal.Laws
import Idealize.ShloMosaic.Lib.Pipeline.Value

noncomputable section

open scoped BigOperators
open Idealize.ShloMosaic Idealize.ShloMosaic.TcCoe Idealize.SL.Sem Idealize.ShloMosaic.ValueIdx
open Idealize.ShloMosaic.Pipeline (Dat)

namespace Cert.KernelIdeal.GateValue

open Cert.KernelIdeal Cert.KernelIdeal.Gen

/-! ## The result as a whole-array function of the region's whole input arrays -/

/-- hg = relu(agg2 + gb2) at row r, column q. -/
def hgAt (agg2 : S100000x64.Idx → EReal) (gb2 : S1x64.Idx → EReal) (r : Fin 100000) (q : Fin 64) : EReal :=
  max (agg2 (ix2 r q) + gb2 (ix2 (0 : Fin 1) q)) 0

/-- The gate of row r: the logistic of hmlp[r, ·] · gw1 + hg[r, ·] · gw2 + gateb. -/
def gateAt (agg2 : S100000x64.Idx → EReal) (gb2 : S1x64.Idx → EReal) (hmlp : S100000x64.Idx → EReal)
    (gw1 gw2 : S64x1.Idx → EReal) (gateb : S1x1.Idx → EReal) (r : Fin 100000) : EReal :=
  Ideal.logistic ((∑ k : Fin 64, hmlp (ix2 r k) * gw1 (ix2 k (0 : Fin 1)))
    + (∑ k : Fin 64, hgAt agg2 gb2 r k * gw2 (ix2 k (0 : Fin 1)))
    + gateb (ix2 (0 : Fin 1) (0 : Fin 1)))

/-- gate * hg + (1 - gate) * hmlp, entry by entry (the literal 1.0 kept as its word). -/
def fusedOf (agg2 : S100000x64.Idx → EReal) (gb2 : S1x64.Idx → EReal) (hmlp : S100000x64.Idx → EReal)
    (gw1 gw2 : S64x1.Idx → EReal) (gateb : S1x1.Idx → EReal) : S100000x64.Idx → EReal := fun i =>
  gateAt agg2 gb2 hmlp gw1 gw2 gateb (i 0) * hgAt agg2 gb2 (i 0) (i 1)
    + (Ideal.ofBits .f32 0x3F800000#32 - gateAt agg2 gb2 hmlp gw1 gw2 gateb (i 0)) * hmlp (ix2 (i 0) (i 1))

/-! ## The row-tile product with a one-column matrix read at one entry -/

theorem lhsRow (j : S5000x1.Idx) (u : dot_S5000x64_S64x1_S5000x1_1_0_0_1_n_n.contr.Idx) :
    (dot_S5000x64_S64x1_S5000x1_1_0_0_1_n_n.lhsIdx j u 0).val = (j 0).val := by
  unfold DotDims.lhsIdx
  rw [dif_neg (show ¬(0 : Fin S5000x64.rank) ∈ dot_S5000x64_S64x1_S5000x1_1_0_0_1_n_n.lhsBatch by decide), dif_pos (show (0 : Fin S5000x64.rank) ∈ dot_S5000x64_S64x1_S5000x1_1_0_0_1_n_n.lhsNonContracting by decide)]
  rfl
theorem lhsCol (j : S5000x1.Idx) (u : dot_S5000x64_S64x1_S5000x1_1_0_0_1_n_n.contr.Idx) :
    (dot_S5000x64_S64x1_S5000x1_1_0_0_1_n_n.lhsIdx j u 1).val = (u ⟨0, by decide⟩).val :=
  dot_S5000x64_S64x1_S5000x1_1_0_0_1_n_n.lhsIdx_val_of_single rfl j u
theorem rhsRow (j : S5000x1.Idx) (u : dot_S5000x64_S64x1_S5000x1_1_0_0_1_n_n.contr.Idx) :
    (dot_S5000x64_S64x1_S5000x1_1_0_0_1_n_n.rhsIdx j u 0).val = (u ⟨0, by decide⟩).val :=
  dot_S5000x64_S64x1_S5000x1_1_0_0_1_n_n.rhsIdx_val_of_single rfl j u
theorem rhsCol (j : S5000x1.Idx) (u : dot_S5000x64_S64x1_S5000x1_1_0_0_1_n_n.contr.Idx) :
    (dot_S5000x64_S64x1_S5000x1_1_0_0_1_n_n.rhsIdx j u 1).val = (j 1).val := by
  unfold DotDims.rhsIdx
  rw [dif_neg (show ¬(1 : Fin S64x1.rank) ∈ dot_S5000x64_S64x1_S5000x1_1_0_0_1_n_n.rhsBatch by decide), dif_pos (show (1 : Fin S64x1.rank) ∈ dot_S5000x64_S64x1_S5000x1_1_0_0_1_n_n.rhsNonContracting by decide)]
  rfl

/-- The product of a [5000,64] tile with a [64,1] column into a zero accumulator, at row p: the sum over the 64 shared
    coordinates of the tile's row p times the column. -/
theorem tileColumn_apply (l : FVec Ideal S5000x64 .bf16) (r : FVec Ideal S64x1 .bf16) (p : Fin 5000) :
    matmul dot_S5000x64_S64x1_S5000x1_1_0_0_1_n_n none l r (constant S5000x1 .f32 0x00000000#32) (ix2 p (0 : Fin 1))
      = ∑ k : Fin 64, l (ix2 p k) * r (ix2 k (0 : Fin 1)) := by
  simp only [matmul]
  rw [Ideal.matmul_constant_zero_apply, ← Equiv.sum_comp (contrEquiv1 dot_S5000x64_S64x1_S5000x1_1_0_0_1_n_n 64 rfl rfl).symm]
  refine Finset.sum_congr rfl fun k _ => ?_
  have hk := contrEquiv1_symm_val dot_S5000x64_S64x1_S5000x1_1_0_0_1_n_n 64 rfl rfl k
  have el : dot_S5000x64_S64x1_S5000x1_1_0_0_1_n_n.lhsIdx (ix2 p (0 : Fin 1)) ((contrEquiv1 dot_S5000x64_S64x1_S5000x1_1_0_0_1_n_n 64 rfl rfl).symm k) = ix2 p k := funext fun a => Fin.ext (by
    match a with
    | ⟨0, _⟩ => exact lhsRow _ _
    | ⟨1, _⟩ => exact (lhsCol _ _).trans hk)
  have er : dot_S5000x64_S64x1_S5000x1_1_0_0_1_n_n.rhsIdx (ix2 p (0 : Fin 1)) ((contrEquiv1 dot_S5000x64_S64x1_S5000x1_1_0_0_1_n_n 64 rfl rfl).symm k) = ix2 k (0 : Fin 1) := funext fun a => Fin.ext (by
    match a with
    | ⟨0, _⟩ => exact (rhsRow _ _).trans hk
    | ⟨1, _⟩ => exact rhsCol _ _)
  rw [el, er]

/-- A [1,64] row broadcast down 5000 rows reads, at (p, q), the row's entry q. -/
theorem rowBroadcast_apply (v : FVec Ideal S1x64 .f32) (p : Fin 5000) (q : Fin 64) :
    broadcastTo S5000x64 v broadcasts_S1x64_S5000x64 (ix2 p q) = v (ix2 (0 : Fin 1) q) :=
  broadcastTo_apply v broadcasts_S1x64_S5000x64 (ix2 p q) (ix2 (0 : Fin 1) q) (fun a => by
    match a with
    | ⟨0, _⟩ => rfl
    | ⟨1, _⟩ => rfl)

/-- A [5000,1] column broadcast across 64 columns reads, at (p, q), the column's entry p. -/
theorem colBroadcast_apply (v : FVec Ideal S5000x1 .f32) (p : Fin 5000) (q : Fin 64) :
    broadcastTo S5000x64 v broadcasts_S5000x1_S5000x64 (ix2 p q) = v (ix2 p (0 : Fin 1)) :=
  broadcastTo_apply v broadcasts_S5000x1_S5000x64 (ix2 p q) (ix2 p (0 : Fin 1)) (fun a => by
    match a with
    | ⟨0, _⟩ => rfl
    | ⟨1, _⟩ => rfl)

/-- A [1,1] scalar broadcast down 5000 rows reads its one entry. -/
theorem oneBroadcast_apply (v : FVec Ideal S1x1 .f32) (p : Fin 5000) :
    broadcastTo S5000x1 v broadcasts_S1x1_S5000x1 (ix2 p (0 : Fin 1)) = v (ix2 (0 : Fin 1) (0 : Fin 1)) :=
  broadcastTo_apply v broadcasts_S1x1_S5000x1 (ix2 p (0 : Fin 1)) (ix2 (0 : Fin 1) (0 : Fin 1)) (fun a => by
    match a with
    | ⟨0, _⟩ => rfl
    | ⟨1, _⟩ => rfl)

theorem logistic_apply (v : FVec Ideal S5000x1 .f32) (i : S5000x1.Idx) : logistic v i = Ideal.logistic (v i) := rfl

/-- The stored value at entry (p, q) of a tile: with hg = relu(agg + bias) and the gate the logistic of the row's
    logit, the blend gate * hg + (1 - gate) * hmlp. -/
theorem gateTile_apply (v0 : Vec Ideal S5000x64 .f32) (v2 : Vec Ideal S1x64 .f32) (v8 : Vec Ideal S5000x64 .f32)
    (v12 v15 : Vec Ideal S64x1 .f32) (v21 : Vec Ideal S1x1 .f32) (p : Fin 5000) (q : Fin 64) :
    k3_pay1 v0 v2 v8 v12 v15 v21 (ix2 p q)
      = Ideal.logistic ((∑ k : Fin 64, v8 (ix2 p k) * v12 (ix2 k (0 : Fin 1)))
            + (∑ k : Fin 64, max (v0 (ix2 p k) + v2 (ix2 (0 : Fin 1) k)) 0 * v15 (ix2 k (0 : Fin 1)))
            + v21 (ix2 (0 : Fin 1) (0 : Fin 1)))
          * max (v0 (ix2 p q) + v2 (ix2 (0 : Fin 1) q)) 0
        + (Ideal.ofBits .f32 0x3F800000#32
            - Ideal.logistic ((∑ k : Fin 64, v8 (ix2 p k) * v12 (ix2 k (0 : Fin 1)))
              + (∑ k : Fin 64, max (v0 (ix2 p k) + v2 (ix2 (0 : Fin 1) k)) 0 * v15 (ix2 k (0 : Fin 1)))
              + v21 (ix2 (0 : Fin 1) (0 : Fin 1))))
          * v8 (ix2 p q) := by
  unfold k3_pay1
  simp only [maximumf_apply, addf_apply, mulf_apply, subf_apply, broadcast_apply, shapeCast_self, rowBroadcast_apply,
    colBroadcast_apply, oneBroadcast_apply, logistic_apply, tileColumn_apply, truncf_apply]
  rw [show (Scalar.ofBits (F := Ideal) .f32 0x00000000#32) = 0 from Ideal.ofBits_zero_f32]
  rfl

/-! ## A tile of the result is a tile of the whole-array function -/

/-- If the two [5000,64] tiles hold rows 5000 n … 5000 n + 4999 of agg2 and of hmlp and the other loaded blocks are the
    whole arrays, the stored value at an entry of the tile is `fusedOf` at the corresponding entry of the array. -/
theorem gateTile_eq (A : S100000x64.Idx → EReal) (B : S1x64.Idx → EReal) (H : S100000x64.Idx → EReal)
    (G1 G2 : S64x1.Idx → EReal) (Gb : S1x1.Idx → EReal)
    (v0 : Vec Ideal S5000x64 .f32) (v2 : Vec Ideal S1x64 .f32) (v8 : Vec Ideal S5000x64 .f32)
    (v12 v15 : Vec Ideal S64x1 .f32) (v21 : Vec Ideal S1x1 .f32) (n : Nat)
    (ha : ∀ (y : S5000x64.Idx) (i : S100000x64.Idx), (i 0).val = n * 5000 + (y 0).val → (i 1).val = (y 1).val → v0 y = A i)
    (hh : ∀ (y : S5000x64.Idx) (i : S100000x64.Idx), (i 0).val = n * 5000 + (y 0).val → (i 1).val = (y 1).val → v8 y = H i)
    (h2 : v2 = B) (h12 : v12 = G1) (h15 : v15 = G2) (h21 : v21 = Gb)
    (j : S5000x64.Idx) (i : S100000x64.Idx) (h0 : (i 0).val = n * 5000 + (j 0).val) (h1 : (i 1).val = (j 1).val) :
    k3_pay1 v0 v2 v8 v12 v15 v21 j = fusedOf A B H G1 G2 Gb i := by
  subst h2 h12 h15 h21
  obtain ⟨p, q, rfl⟩ : ∃ (p : Fin 5000) (q : Fin 64), j = ix2 p q := ⟨j 0, j 1, eq_ix2 j⟩
  obtain ⟨r, q', rfl⟩ : ∃ (r : Fin 100000) (q' : Fin 64), i = ix2 r q' := ⟨i 0, i 1, eq_ix2 i⟩
  obtain rfl : q' = q := Fin.ext h1
  rw [gateTile_apply]
  have ha' : ∀ k : Fin 64, v0 (ix2 p k) = A (ix2 r k) := fun k => ha (ix2 p k) (ix2 r k) h0 rfl
  have hh' : ∀ k : Fin 64, v8 (ix2 p k) = H (ix2 r k) := fun k => hh (ix2 p k) (ix2 r k) h0 rfl
  simp only [ha', hh']
  rfl

/-! ## From tiles to the array -/

section Blocks

variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

/-! The block index of every window at every point, decided over the 20 points: the three row-tiled windows (agg2,
    hmlp and the result) are at block (t, 0), the four whole-array windows at block (0, 0). -/

theorem idx0 : ∀ t : Fin cfg3.N, win3_0.index t (0 : Fin 2) = t.val ∧ win3_0.index t (1 : Fin 2) = 0 :=
  (by decide +kernel : ∀ t : Fin grid3.N, _)
theorem idx2 : ∀ t : Fin cfg3.N, win3_2.index t (0 : Fin 2) = t.val ∧ win3_2.index t (1 : Fin 2) = 0 :=
  (by decide +kernel : ∀ t : Fin grid3.N, _)
theorem idx6 : ∀ t : Fin cfg3.N, win3_6.index t (0 : Fin 2) = t.val ∧ win3_6.index t (1 : Fin 2) = 0 :=
  (by decide +kernel : ∀ t : Fin grid3.N, _)
theorem idx1 : ∀ t : Fin cfg3.N, win3_1.index t (0 : Fin 2) = 0 ∧ win3_1.index t (1 : Fin 2) = 0 :=
  (by decide +kernel : ∀ t : Fin grid3.N, _)
theorem idx3 : ∀ t : Fin cfg3.N, win3_3.index t (0 : Fin 2) = 0 ∧ win3_3.index t (1 : Fin 2) = 0 :=
  (by decide +kernel : ∀ t : Fin grid3.N, _)
theorem idx4 : ∀ t : Fin cfg3.N, win3_4.index t (0 : Fin 2) = 0 ∧ win3_4.index t (1 : Fin 2) = 0 :=
  (by decide +kernel : ∀ t : Fin grid3.N, _)
theorem idx5 : ∀ t : Fin cfg3.N, win3_5.index t (0 : Fin 2) = 0 ∧ win3_5.index t (1 : Fin 2) = 0 :=
  (by decide +kernel : ∀ t : Fin grid3.N, _)

/-- The tile of agg2 at point t holds rows 5000 t … 5000 t + 4999 of agg2. -/
theorem aggTile_apply (c : Dev nD) (t : Fin cfg3.N) (y : S5000x64.Idx) (i : S100000x64.Idx)
    (h0 : (i 0).val = t.val * 5000 + (y 0).val) (h1 : (i 1).val = (y 1).val) :
    (iblk3 V c 0 t : Vec F S5000x64 .f32) y = (V c (Pipeline.arrRef spec3 0) : S100000x64.Idx → Elt F .f32) i := by
  unfold iblk3
  show (V c (Pipeline.arrRef spec3 0) : S100000x64.Idx → Elt F .f32) (((cfg3.win 0).blk t).view.emb y) = _
  refine congrArg _ (funext fun a => Fin.ext ?_)
  match a with
  | ⟨0, _⟩ => show win3_0.index t (0 : Fin 2) * 5000 + 1 * (y 0).val = (i 0).val; rw [(idx0 t).1, h0]; omega
  | ⟨1, _⟩ => show win3_0.index t (1 : Fin 2) * 64 + 1 * (y 1).val = (i 1).val; rw [(idx0 t).2, h1]; omega

/-- The tile of hmlp at point t holds rows 5000 t … 5000 t + 4999 of hmlp. -/
theorem hmlpTile_apply (c : Dev nD) (t : Fin cfg3.N) (y : S5000x64.Idx) (i : S100000x64.Idx)
    (h0 : (i 0).val = t.val * 5000 + (y 0).val) (h1 : (i 1).val = (y 1).val) :
    (iblk3 V c 2 t : Vec F S5000x64 .f32) y = (V c (Pipeline.arrRef spec3 2) : S100000x64.Idx → Elt F .f32) i := by
  unfold iblk3
  show (V c (Pipeline.arrRef spec3 2) : S100000x64.Idx → Elt F .f32) (((cfg3.win 2).blk t).view.emb y) = _
  refine congrArg _ (funext fun a => Fin.ext ?_)
  match a with
  | ⟨0, _⟩ => show win3_2.index t (0 : Fin 2) * 5000 + 1 * (y 0).val = (i 0).val; rw [(idx2 t).1, h0]; omega
  | ⟨1, _⟩ => show win3_2.index t (1 : Fin 2) * 64 + 1 * (y 1).val = (i 1).val; rw [(idx2 t).2, h1]; omega

/-- The gb2 window's block at every point is the whole array. -/
theorem whole1_eq (c : Dev nD) (t : Fin cfg3.N) :
    (iblk3 V c 1 t : Vec F S1x64 .f32) = (V c (Pipeline.arrRef spec3 1) : S1x64.Idx → Elt F .f32) := by
  funext y
  unfold iblk3
  show (V c (Pipeline.arrRef spec3 1) : S1x64.Idx → Elt F .f32) (((cfg3.win 1).blk t).view.emb y) = _
  refine congrArg _ (funext fun a => Fin.ext ?_)
  match a with
  | ⟨0, _⟩ => show win3_1.index t (0 : Fin 2) * 1 + 1 * (y 0).val = (y 0).val; rw [(idx1 t).1]; omega
  | ⟨1, _⟩ => show win3_1.index t (1 : Fin 2) * 64 + 1 * (y 1).val = (y 1).val; rw [(idx1 t).2]; omega

/-- The gw1 window's block at every point is the whole array. -/
theorem whole3_eq (c : Dev nD) (t : Fin cfg3.N) :
    (iblk3 V c 3 t : Vec F S64x1 .f32) = (V c (Pipeline.arrRef spec3 3) : S64x1.Idx → Elt F .f32) := by
  funext y
  unfold iblk3
  show (V c (Pipeline.arrRef spec3 3) : S64x1.Idx → Elt F .f32) (((cfg3.win 3).blk t).view.emb y) = _
  refine congrArg _ (funext fun a => Fin.ext ?_)
  match a with
  | ⟨0, _⟩ => show win3_3.index t (0 : Fin 2) * 64 + 1 * (y 0).val = (y 0).val; rw [(idx3 t).1]; omega
  | ⟨1, _⟩ => show win3_3.index t (1 : Fin 2) * 1 + 1 * (y 1).val = (y 1).val; rw [(idx3 t).2]; omega

/-- The gw2 window's block at every point is the whole array. -/
theorem whole4_eq (c : Dev nD) (t : Fin cfg3.N) :
    (iblk3 V c 4 t : Vec F S64x1 .f32) = (V c (Pipeline.arrRef spec3 4) : S64x1.Idx → Elt F .f32) := by
  funext y
  unfold iblk3
  show (V c (Pipeline.arrRef spec3 4) : S64x1.Idx → Elt F .f32) (((cfg3.win 4).blk t).view.emb y) = _
  refine congrArg _ (funext fun a => Fin.ext ?_)
  match a with
  | ⟨0, _⟩ => show win3_4.index t (0 : Fin 2) * 64 + 1 * (y 0).val = (y 0).val; rw [(idx4 t).1]; omega
  | ⟨1, _⟩ => show win3_4.index t (1 : Fin 2) * 1 + 1 * (y 1).val = (y 1).val; rw [(idx4 t).2]; omega

/-- The gateb window's block at every point is the whole array. -/
theorem whole5_eq (c : Dev nD) (t : Fin cfg3.N) :
    (iblk3 V c 5 t : Vec F S1x1 .f32) = (V c (Pipeline.arrRef spec3 5) : S1x1.Idx → Elt F .f32) := by
  funext y
  unfold iblk3
  show (V c (Pipeline.arrRef spec3 5) : S1x1.Idx → Elt F .f32) (((cfg3.win 5).blk t).view.emb y) = _
  refine congrArg _ (funext fun a => Fin.ext ?_)
  match a with
  | ⟨0, _⟩ => show win3_5.index t (0 : Fin 2) * 1 + 1 * (y 0).val = (y 0).val; rw [(idx5 t).1]; omega
  | ⟨1, _⟩ => show win3_5.index t (1 : Fin 2) * 1 + 1 * (y 1).val = (y 1).val; rw [(idx5 t).2]; omega

/-- An index of the result array is in point t's tile iff each coordinate is in the tile's range on its axis. -/
theorem mem_tile6 (t : Fin cfg3.N) (i : S100000x64.Idx) :
    i ∈ ((cfg3.win 6).blk t).view.set ↔ ∀ a : Fin 2, win3_6.index t a * S5000x64.size a ≤ (i a).val ∧ (i a).val < win3_6.index t a * S5000x64.size a + S5000x64.size a := by
  show i ∈ ((View.whole main_v87).slice (win3_6.rect t)).set ↔ _
  rw [View.set_slice_whole, Rect.mem_set_unit]
  exact Iff.rfl

/-- Row r is in the tile of point r / 5000. -/
theorem cover6 (i : S100000x64.Idx) : ∃ t : Fin cfg3.N, (cfg3.win 6).flush t = true ∧ i ∈ ((cfg3.win 6).blk t).view.set := by
  have hi0 : (i 0).val < 100000 := (i 0).isLt
  have hi1 : (i 1).val < 64 := (i 1).isLt
  have ht : (i 0).val / 5000 < cfg3.N := by rw [show cfg3.N = 20 from N_3]; omega
  have e0 : win3_6.index ⟨(i 0).val / 5000, ht⟩ (0 : Fin 2) = (i 0).val / 5000 := (idx6 ⟨(i 0).val / 5000, ht⟩).1
  have e1 : win3_6.index ⟨(i 0).val / 5000, ht⟩ (1 : Fin 2) = 0 := (idx6 ⟨(i 0).val / 5000, ht⟩).2
  refine ⟨⟨(i 0).val / 5000, ht⟩, flush3_6 _, ?_⟩
  rw [mem_tile6]
  intro a
  match a with
  | ⟨0, _⟩ => show win3_6.index ⟨(i 0).val / 5000, ht⟩ (0 : Fin 2) * 5000 ≤ (i 0).val ∧ (i 0).val < win3_6.index ⟨(i 0).val / 5000, ht⟩ (0 : Fin 2) * 5000 + 5000; rw [e0]; omega
  | ⟨1, _⟩ => show win3_6.index ⟨(i 0).val / 5000, ht⟩ (1 : Fin 2) * 64 ≤ (i 1).val ∧ (i 1).val < win3_6.index ⟨(i 0).val / 5000, ht⟩ (1 : Fin 2) * 64 + 64; rw [e1]; omega

end Blocks

/-! ## What each point writes back, and the array after the region -/

section AtIdeal

variable (V : (c : Dev nD) → (b : Ref sig .tc) → Buf (Elt Ideal) ((c : Thread nD τ).loc b))

/-- Point t writes back tile t of `fusedOf` of the region's input arrays. -/
theorem flushed6_eq (c : Dev nD) (t : Fin cfg3.N) :
    (dat3 (F := Ideal) V c).flushed 6 t = ((cfg3.win 6).blk t).view.read (Elt Ideal)
      (fusedOf (V c (Pipeline.arrRef spec3 0)) (V c (Pipeline.arrRef spec3 1)) (V c (Pipeline.arrRef spec3 2)) (V c (Pipeline.arrRef spec3 3)) (V c (Pipeline.arrRef spec3 4)) (V c (Pipeline.arrRef spec3 5))) := by
  show (cfg3.win 6).cut (grid3.coords t) ((dat3 V c).after 6 t) = _
  rw [after3_6]
  unfold out3_6
  rw [View.canon_unit_zero hz]
  simp only [View.ld_unit_zero (S := S5000x64) hz, View.ld_unit_zero (S := S1x64) hz, View.ld_unit_zero (S := S64x1) hz,
    View.ld_unit_zero (S := S1x1) hz]
  funext j
  show _ = fusedOf _ _ _ _ _ _ (((cfg3.win 6).blk t).view.emb j)
  exact gateTile_eq (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (iblk3 V c 0 t) (iblk3 V c 1 t) (iblk3 V c 2 t) (iblk3 V c 3 t) (iblk3 V c 4 t) (iblk3 V c 5 t) t.val
    (aggTile_apply V c t) (hmlpTile_apply V c t) (whole1_eq V c t) (whole3_eq V c t) (whole4_eq V c t) (whole5_eq V c t) j _
    (by show win3_6.index t (0 : Fin 2) * 5000 + 1 * (j 0).val = _; rw [(idx6 t).1]; omega)
    (by show win3_6.index t (1 : Fin 2) * 64 + 1 * (j 1).val = _; rw [(idx6 t).2]; omega)

/-- THE RESULT ARRAY after the region: `fusedOf` of the region's input arrays as the region found them. -/
theorem fused_final (c : Dev nD) :
    (dat3 (F := Ideal) V c).arrAt 6 cfg3.N = fusedOf (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) :=
  (dat3 (F := Ideal) V c).arrAt_eq_of_cover 6 _ (fun t _ => flushed6_eq V c t) cover6

end AtIdeal

end Cert.KernelIdeal.GateValue

end
-- ==== Proof.GcnLayerValue1.lean ====
/- The first fused graph-convolution layer, read as one function of its whole input arrays.
   The region walks 20 row tiles of 5000 of the 100000 rows. On a tile it adds the bias row to the aggregated
   features, clips below at zero and multiplies by the 64 x 64 weight matrix. Entry (r, j) of that product uses only
   row r of the features, so the tiled result is the product over the whole arrays: row r is written by tile
   r / 5000, and the 20 tiles cover every row. Nothing here depends on what the buffers held on entry. -/
import proofs.«135266_j45973329936474_1_alg».proof.Proof.Gen.KernelIdeal.Frame
import Idealize.ShloMosaic.Lib.Pipeline.Value
import Idealize.ShloMosaic.Lib.ValueIdx
import Idealize.ShloMosaic.Lib.Tactic
import Idealize.ShloMosaic.PureOps.Ideal.Laws

noncomputable section

open Idealize.ShloMosaic Idealize.ShloMosaic.TcCoe Idealize.SL.Sem
open Idealize.ShloMosaic.Pipeline (Dat)
open Idealize.ShloMosaic.ValueIdx

namespace Cert.KernelIdeal.GcnLayer1

open Cert.KernelIdeal Cert.KernelIdeal.Gen

theorem dotHH_lhs0 (i : S5000x64.Idx) (q : (dot_S5000x64_S64x64_S5000x64_1_0_0_1_n_n).contr.Idx) :
    ((dot_S5000x64_S64x64_S5000x64_1_0_0_1_n_n).lhsIdx i q 0).val = (i 0).val := by
  unfold DotDims.lhsIdx
  rw [dif_neg (show ¬(0 : Fin S5000x64.rank) ∈ (dot_S5000x64_S64x64_S5000x64_1_0_0_1_n_n).lhsBatch by decide),
    dif_pos (show (0 : Fin S5000x64.rank) ∈ (dot_S5000x64_S64x64_S5000x64_1_0_0_1_n_n).lhsNonContracting by decide)]
  rfl

theorem dotHH_rhs1 (i : S5000x64.Idx) (q : (dot_S5000x64_S64x64_S5000x64_1_0_0_1_n_n).contr.Idx) :
    ((dot_S5000x64_S64x64_S5000x64_1_0_0_1_n_n).rhsIdx i q 1).val = (i 1).val := by
  unfold DotDims.rhsIdx
  rw [dif_neg (show ¬(1 : Fin S64x64.rank) ∈ (dot_S5000x64_S64x64_S5000x64_1_0_0_1_n_n).rhsBatch by decide),
    dif_pos (show (1 : Fin S64x64.rank) ∈ (dot_S5000x64_S64x64_S5000x64_1_0_0_1_n_n).rhsNonContracting by decide)]
  rfl

/-- The block product read at an index: row p of the left factor against column q of the right one. -/
theorem matmulHH_apply (a : FVec Ideal S5000x64 .bf16) (w : FVec Ideal S64x64 .bf16) (p : Fin 5000) (q : Fin 64) :
    matmul dot_S5000x64_S64x64_S5000x64_1_0_0_1_n_n none a w (constant S5000x64 .f32 0x00000000#32) (ix2 p q)
      = ∑ k : Fin 64, a (ix2 p k) * w (ix2 k q) := by
  simp only [matmul]
  rw [Ideal.matmul_constant_zero_apply,
    ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : (dot_S5000x64_S64x64_S5000x64_1_0_0_1_n_n).lhsIdx (ix2 p q) ((contrEquiv1 dot_S5000x64_S64x64_S5000x64_1_0_0_1_n_n 64 rfl rfl).symm k) = ix2 p k :=
    funext fun a => Fin.ext (by
      match a with
      | ⟨0, _⟩ => exact dotHH_lhs0 _ _
      | ⟨1, _⟩ => exact ((dot_S5000x64_S64x64_S5000x64_1_0_0_1_n_n).lhsIdx_val_of_single rfl _ _).trans hk)
  have er : (dot_S5000x64_S64x64_S5000x64_1_0_0_1_n_n).rhsIdx (ix2 p q) ((contrEquiv1 dot_S5000x64_S64x64_S5000x64_1_0_0_1_n_n 64 rfl rfl).symm k) = ix2 k q :=
    funext fun a => Fin.ext (by
      match a with
      | ⟨0, _⟩ => exact ((dot_S5000x64_S64x64_S5000x64_1_0_0_1_n_n).rhsIdx_val_of_single rfl _ _).trans hk
      | ⟨1, _⟩ => exact dotHH_rhs1 _ _)
  rw [el, er]

/-- A bias row laid along every row of the block, read at an index. -/
theorem biasRow_apply (b : Vec Ideal S1x64 .f32) (p : Fin 5000) (k : Fin 64) :
    broadcastTo S5000x64 (shapeCast S1x64 b shapeCasts_S1x64_S1x64) broadcasts_S1x64_S5000x64 (ix2 p k) = b (ix2 (0 : Fin 1) k) := by
  rw [shapeCast_self]
  refine broadcastTo_apply b _ (ix2 p k) (ix2 (0 : Fin 1) k) fun a => ?_
  match a with
  | ⟨0, _⟩ => rfl
  | ⟨1, _⟩ => rfl

/-- The body's one store at an index of the block. -/
theorem pay1_apply (x0 : Vec Ideal S5000x64 .f32) (x1 : Vec Ideal S1x64 .f32) (x2 : Vec Ideal S64x64 .f32) (p : Fin 5000) (q : Fin 64) :
    k1_pay1 (F := Ideal) x0 x1 x2 (ix2 p q)
      = ∑ k : Fin 64, max (x0 (ix2 p k) + x1 (ix2 (0 : Fin 1) k)) 0 * x2 (ix2 k q) := by
  unfold k1_pay1
  rw [matmulHH_apply]
  refine Finset.sum_congr rfl fun k _ => ?_
  rw [truncf_apply, truncf_apply, maximumf_apply, addf_apply, shapeCast_self, biasRow_apply, broadcast_apply]
  show max (x0 (ix2 p k) + x1 (ix2 (0 : Fin 1) k)) (Ideal.ofBits .f32 0x00000000#32) * x2 (ix2 k q) = _
  rw [Ideal.ofBits_zero_f32]

/-- One graph-convolution layer's dense half: the aggregated features plus the bias row, clipped below at zero,
    times the weight matrix — entry (r, j) is the sum over k of max (agg[r,k] + b[0,k]) 0 * W[k,j]. -/
def gcnDense (agg : S100000x64.Idx → EReal) (b : S1x64.Idx → EReal) (W : S64x64.Idx → EReal) : S100000x64.Idx → EReal :=
  fun i => ∑ k : Fin 64, max (agg (ix2 (i 0) k) + b (ix2 (0 : Fin 1) k)) 0 * W (ix2 k (i 1))

theorem hz : (![0, 0] : Fin 2 → Nat) = fun _ => 0 := funext fun a => by fin_cases a <;> rfl

/-- The body stores once, over the whole block: what it leaves in the output buffer is that one stored value. -/
theorem out1_3_eq (x0 : Vec Ideal S5000x64 .f32) (x1 : Vec Ideal S1x64 .f32) (x2 : Vec Ideal S64x64 .f32) :
    out1_3 x0 x1 x2 = k1_pay1 x0 x1 x2 := by
  unfold out1_3
  rw [View.canon_unit_zero hz]
  simp only [View.ld_unit_zero (S := S5000x64) hz, View.ld_unit_zero (S := S1x64) hz, View.ld_unit_zero (S := S64x64) hz]

variable (V : (c : Dev nD) → (b : Ref sig .tc) → Buf (Elt Ideal) ((c : Thread nD τ).loc b))

/-- The index maps over the 20 row tiles: the feature window and the output window sit on tile t, the bias row and the
    weight matrix on their one block. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Tile t's block of the features is rows 5000 t … 5000 t + 4999 of the feature array. -/
theorem blk1_0_apply (c : Dev nD) (t : Fin cfg1.N) (p : Fin 5000) (k : Fin 64) (i : S100000x64.Idx)
    (hi0 : (i 0).val = t.val * 5000 + p.val) (hi1 : (i 1).val = k.val) :
    (iblk1 V c 0 t : Vec Ideal S5000x64 .f32) (ix2 p k) = (V c (Pipeline.arrRef spec1 0) : S100000x64.Idx → EReal) i := by
  obtain ⟨e00, e01, -⟩ := idx_facts1 t
  show (V c (Pipeline.arrRef spec1 0) : S100000x64.Idx → EReal) (((cfg1.win 0).blk t).view.emb (ix2 p k)) = _
  refine congrArg _ (funext fun a => Fin.ext ?_)
  match a with
  | ⟨0, _⟩ => show win1_0.index t (0 : Fin 2) * 5000 + 1 * p.val = (i 0).val; omega
  | ⟨1, _⟩ => show win1_0.index t (1 : Fin 2) * 64 + 1 * k.val = (i 1).val; omega

/-- Every tile's block of the bias row is the bias row. -/
theorem blk1_1_apply (c : Dev nD) (t : Fin cfg1.N) (k : Fin 64) :
    (iblk1 V c 1 t : Vec Ideal S1x64 .f32) (ix2 (0 : Fin 1) k)
      = (V c (Pipeline.arrRef spec1 1) : S1x64.Idx → EReal) (ix2 (0 : Fin 1) k) := by
  obtain ⟨-, -, e10, e11, -⟩ := idx_facts1 t
  show (V c (Pipeline.arrRef spec1 1) : S1x64.Idx → EReal) (((cfg1.win 1).blk t).view.emb (ix2 (0 : Fin 1) k)) = _
  refine congrArg _ (funext fun a => Fin.ext ?_)
  match a with
  | ⟨0, _⟩ => show win1_1.index t (0 : Fin 2) * 1 + 1 * 0 = 0; omega
  | ⟨1, _⟩ => show win1_1.index t (1 : Fin 2) * 64 + 1 * k.val = k.val; omega

/-- Every tile's block of the weight matrix is the weight matrix. -/
theorem blk1_2_apply (c : Dev nD) (t : Fin cfg1.N) (k : Fin 64) (q : Fin 64) (i : S64x64.Idx)
    (hi0 : (i 0).val = k.val) (hi1 : (i 1).val = q.val) :
    (iblk1 V c 2 t : Vec Ideal S64x64 .f32) (ix2 k q) = (V c (Pipeline.arrRef spec1 2) : S64x64.Idx → EReal) i := by
  obtain ⟨-, -, -, -, e20, e21, -⟩ := idx_facts1 t
  show (V c (Pipeline.arrRef spec1 2) : S64x64.Idx → EReal) (((cfg1.win 2).blk t).view.emb (ix2 k q)) = _
  refine congrArg _ (funext fun a => Fin.ext ?_)
  match a with
  | ⟨0, _⟩ => show win1_2.index t (0 : Fin 2) * 64 + 1 * k.val = (i 0).val; omega
  | ⟨1, _⟩ => show win1_2.index t (1 : Fin 2) * 64 + 1 * q.val = (i 1).val; omega

/-- Entry (p, q) of tile t's output block is entry (5000 t + p, q) of the output array. -/
theorem emb1_3 (t : Fin cfg1.N) (p : Fin 5000) (q : Fin 64) :
    ((((cfg1.win 3).blk t).view.emb (ix2 p q)) 0).val = t.val * 5000 + p.val
      ∧ ((((cfg1.win 3).blk t).view.emb (ix2 p q)) 1).val = q.val := by
  obtain ⟨-, -, -, -, -, -, e30, e31⟩ := idx_facts1 t
  constructor
  · show win1_3.index t (0 : Fin 2) * 5000 + 1 * p.val = _
    omega
  · show win1_3.index t (1 : Fin 2) * 64 + 1 * q.val = _
    omega

/-- What tile t writes back is tile t's block of the dense half applied to the whole input arrays. -/
theorem flushed1_eq (c : Dev nD) (t : Fin cfg1.N) :
    (dat1 V c).flushed 3 t = ((cfg1.win 3).blk t).view.read (Elt Ideal)
      (gcnDense (V c (Pipeline.arrRef spec1 0)) (V c (Pipeline.arrRef spec1 1)) (V c (Pipeline.arrRef spec1 2))) := by
  show (cfg1.win 3).cut (grid1.coords t) ((dat1 V c).after 3 t) = _
  rw [after1_3, out1_3_eq (iblk1 V c 0 t) (iblk1 V c 1 t) (iblk1 V c 2 t)]
  funext j
  show k1_pay1 (F := Ideal) (iblk1 V c 0 t) (iblk1 V c 1 t) (iblk1 V c 2 t) j
      = gcnDense (V c (Pipeline.arrRef spec1 0)) (V c (Pipeline.arrRef spec1 1)) (V c (Pipeline.arrRef spec1 2))
          (((cfg1.win 3).blk t).view.emb j)
  obtain ⟨p, q, rfl⟩ : ∃ (p : Fin 5000) (q : Fin 64), j = ix2 p q := ⟨j 0, j 1, eq_ix2 j⟩
  obtain ⟨r0, r1⟩ := emb1_3 t p q
  refine (pay1_apply (iblk1 V c 0 t) (iblk1 V c 1 t) (iblk1 V c 2 t) p q).trans ?_
  unfold gcnDense
  refine Finset.sum_congr rfl fun k _ => ?_
  rw [blk1_0_apply V c t p k (ix2 ((((cfg1.win 3).blk t).view.emb (ix2 p q)) 0) k) r0 rfl,
    blk1_1_apply V c t k,
    blk1_2_apply V c t k q (ix2 k ((((cfg1.win 3).blk t).view.emb (ix2 p q)) 1)) rfl r1]
/-- An index of the output array is in tile t's block iff each coordinate is in the block's range on its axis. -/
theorem mem_blk1 (t : Fin cfg1.N) (i : S100000x64.Idx) :
    i ∈ ((cfg1.win 3).blk t).view.set ↔ ∀ a : Fin 2, win1_3.index t a * S5000x64.size a ≤ (i a).val
      ∧ (i a).val < win1_3.index t a * S5000x64.size a + S5000x64.size a := by
  show i ∈ ((View.whole main_v59).slice (win1_3.rect t)).set ↔ _
  rw [View.set_slice_whole, Rect.mem_set_unit]
  exact Iff.rfl

/-- Row r of the output lies in the block of tile r / 5000, which is written back. -/
theorem cover1 (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  have hN : cfg1.N = 20 := N_1
  have ht : (i 0).val / 5000 < cfg1.N := by rw [hN]; omega
  refine ⟨⟨(i 0).val / 5000, ht⟩, flush1_3 _, ?_⟩
  rw [mem_blk1]
  obtain ⟨-, -, -, -, -, -, e30, e31⟩ := idx_facts1 ⟨(i 0).val / 5000, ht⟩
  intro a
  match a with
  | ⟨0, _⟩ =>
    show win1_3.index ⟨(i 0).val / 5000, ht⟩ (0 : Fin 2) * 5000 ≤ (i 0).val
      ∧ (i 0).val < win1_3.index ⟨(i 0).val / 5000, ht⟩ (0 : Fin 2) * 5000 + 5000
    rw [e30]
    show (i 0).val / 5000 * 5000 ≤ (i 0).val ∧ (i 0).val < (i 0).val / 5000 * 5000 + 5000
    omega
  | ⟨1, _⟩ =>
    show win1_3.index ⟨(i 0).val / 5000, ht⟩ (1 : Fin 2) * 64 ≤ (i 1).val
      ∧ (i 1).val < win1_3.index ⟨(i 0).val / 5000, ht⟩ (1 : Fin 2) * 64 + 64
    rw [e31]
    omega

/-- The first fused layer's output array after its region, whatever the buffers held on entry: the dense half of one
    graph-convolution layer applied to the region's three input arrays as it found them. -/
theorem gcnLayer1_value (c : Dev nD) :
    (dat1 V c).arrAt 3 cfg1.N
      = gcnDense (V c (Pipeline.arrRef spec1 0)) (V c (Pipeline.arrRef spec1 1)) (V c (Pipeline.arrRef spec1 2)) :=
  (dat1 V c).arrAt_eq_of_cover 3 _ (fun t _ => flushed1_eq V c t) cover1

end Cert.KernelIdeal.GcnLayer1

end
-- ==== Proof.GcnLayerValue2.lean ====
/- The second fused graph-convolution layer, read as one function of its whole input arrays.
   The region walks 20 row tiles of 5000 of the 100000 rows. On a tile it adds the bias row to the aggregated
   features, clips below at zero and multiplies by the 64 x 64 weight matrix. Entry (r, j) of that product uses only
   row r of the features, so the tiled result is the product over the whole arrays: row r is written by tile
   r / 5000, and the 20 tiles cover every row. Nothing here depends on what the buffers held on entry. -/
import proofs.«135266_j45973329936474_1_alg».proof.Proof.Gen.KernelIdeal.Frame
import Idealize.ShloMosaic.Lib.Pipeline.Value
import Idealize.ShloMosaic.Lib.ValueIdx
import Idealize.ShloMosaic.Lib.Tactic
import Idealize.ShloMosaic.PureOps.Ideal.Laws

noncomputable section

open Idealize.ShloMosaic Idealize.ShloMosaic.TcCoe Idealize.SL.Sem
open Idealize.ShloMosaic.Pipeline (Dat)
open Idealize.ShloMosaic.ValueIdx

namespace Cert.KernelIdeal.GcnLayer2

open Cert.KernelIdeal Cert.KernelIdeal.Gen

theorem dotHH_lhs0 (i : S5000x64.Idx) (q : (dot_S5000x64_S64x64_S5000x64_1_0_0_1_n_n).contr.Idx) :
    ((dot_S5000x64_S64x64_S5000x64_1_0_0_1_n_n).lhsIdx i q 0).val = (i 0).val := by
  unfold DotDims.lhsIdx
  rw [dif_neg (show ¬(0 : Fin S5000x64.rank) ∈ (dot_S5000x64_S64x64_S5000x64_1_0_0_1_n_n).lhsBatch by decide),
    dif_pos (show (0 : Fin S5000x64.rank) ∈ (dot_S5000x64_S64x64_S5000x64_1_0_0_1_n_n).lhsNonContracting by decide)]
  rfl

theorem dotHH_rhs1 (i : S5000x64.Idx) (q : (dot_S5000x64_S64x64_S5000x64_1_0_0_1_n_n).contr.Idx) :
    ((dot_S5000x64_S64x64_S5000x64_1_0_0_1_n_n).rhsIdx i q 1).val = (i 1).val := by
  unfold DotDims.rhsIdx
  rw [dif_neg (show ¬(1 : Fin S64x64.rank) ∈ (dot_S5000x64_S64x64_S5000x64_1_0_0_1_n_n).rhsBatch by decide),
    dif_pos (show (1 : Fin S64x64.rank) ∈ (dot_S5000x64_S64x64_S5000x64_1_0_0_1_n_n).rhsNonContracting by decide)]
  rfl

/-- The block product read at an index: row p of the left factor against column q of the right one. -/
theorem matmulHH_apply (a : FVec Ideal S5000x64 .bf16) (w : FVec Ideal S64x64 .bf16) (p : Fin 5000) (q : Fin 64) :
    matmul dot_S5000x64_S64x64_S5000x64_1_0_0_1_n_n none a w (constant S5000x64 .f32 0x00000000#32) (ix2 p q)
      = ∑ k : Fin 64, a (ix2 p k) * w (ix2 k q) := by
  simp only [matmul]
  rw [Ideal.matmul_constant_zero_apply,
    ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : (dot_S5000x64_S64x64_S5000x64_1_0_0_1_n_n).lhsIdx (ix2 p q) ((contrEquiv1 dot_S5000x64_S64x64_S5000x64_1_0_0_1_n_n 64 rfl rfl).symm k) = ix2 p k :=
    funext fun a => Fin.ext (by
      match a with
      | ⟨0, _⟩ => exact dotHH_lhs0 _ _
      | ⟨1, _⟩ => exact ((dot_S5000x64_S64x64_S5000x64_1_0_0_1_n_n).lhsIdx_val_of_single rfl _ _).trans hk)
  have er : (dot_S5000x64_S64x64_S5000x64_1_0_0_1_n_n).rhsIdx (ix2 p q) ((contrEquiv1 dot_S5000x64_S64x64_S5000x64_1_0_0_1_n_n 64 rfl rfl).symm k) = ix2 k q :=
    funext fun a => Fin.ext (by
      match a with
      | ⟨0, _⟩ => exact ((dot_S5000x64_S64x64_S5000x64_1_0_0_1_n_n).rhsIdx_val_of_single rfl _ _).trans hk
      | ⟨1, _⟩ => exact dotHH_rhs1 _ _)
  rw [el, er]

/-- A bias row laid along every row of the block, read at an index. -/
theorem biasRow_apply (b : Vec Ideal S1x64 .f32) (p : Fin 5000) (k : Fin 64) :
    broadcastTo S5000x64 (shapeCast S1x64 b shapeCasts_S1x64_S1x64) broadcasts_S1x64_S5000x64 (ix2 p k) = b (ix2 (0 : Fin 1) k) := by
  rw [shapeCast_self]
  refine broadcastTo_apply b _ (ix2 p k) (ix2 (0 : Fin 1) k) fun a => ?_
  match a with
  | ⟨0, _⟩ => rfl
  | ⟨1, _⟩ => rfl

/-- The body's one store at an index of the block. -/
theorem pay2_apply (x0 : Vec Ideal S5000x64 .f32) (x1 : Vec Ideal S1x64 .f32) (x2 : Vec Ideal S64x64 .f32) (p : Fin 5000) (q : Fin 64) :
    k2_pay1 (F := Ideal) x0 x1 x2 (ix2 p q)
      = ∑ k : Fin 64, max (x0 (ix2 p k) + x1 (ix2 (0 : Fin 1) k)) 0 * x2 (ix2 k q) := by
  unfold k2_pay1
  rw [matmulHH_apply]
  refine Finset.sum_congr rfl fun k _ => ?_
  rw [truncf_apply, truncf_apply, maximumf_apply, addf_apply, shapeCast_self, biasRow_apply, broadcast_apply]
  show max (x0 (ix2 p k) + x1 (ix2 (0 : Fin 1) k)) (Ideal.ofBits .f32 0x00000000#32) * x2 (ix2 k q) = _
  rw [Ideal.ofBits_zero_f32]

/-- One graph-convolution layer's dense half: the aggregated features plus the bias row, clipped below at zero,
    times the weight matrix — entry (r, j) is the sum over k of max (agg[r,k] + b[0,k]) 0 * W[k,j]. -/
def gcnDense (agg : S100000x64.Idx → EReal) (b : S1x64.Idx → EReal) (W : S64x64.Idx → EReal) : S100000x64.Idx → EReal :=
  fun i => ∑ k : Fin 64, max (agg (ix2 (i 0) k) + b (ix2 (0 : Fin 1) k)) 0 * W (ix2 k (i 1))

theorem hz : (![0, 0] : Fin 2 → Nat) = fun _ => 0 := funext fun a => by fin_cases a <;> rfl

/-- The body stores once, over the whole block: what it leaves in the output buffer is that one stored value. -/
theorem out2_3_eq (x0 : Vec Ideal S5000x64 .f32) (x1 : Vec Ideal S1x64 .f32) (x2 : Vec Ideal S64x64 .f32) :
    out2_3 x0 x1 x2 = k2_pay1 x0 x1 x2 := by
  unfold out2_3
  rw [View.canon_unit_zero hz]
  simp only [View.ld_unit_zero (S := S5000x64) hz, View.ld_unit_zero (S := S1x64) hz, View.ld_unit_zero (S := S64x64) hz]

variable (V : (c : Dev nD) → (b : Ref sig .tc) → Buf (Elt Ideal) ((c : Thread nD τ).loc b))

/-- The index maps over the 20 row tiles: the feature window and the output window sit on tile t, the bias row and the
    weight matrix on their one block. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Tile t's block of the features is rows 5000 t … 5000 t + 4999 of the feature array. -/
theorem blk2_0_apply (c : Dev nD) (t : Fin cfg2.N) (p : Fin 5000) (k : Fin 64) (i : S100000x64.Idx)
    (hi0 : (i 0).val = t.val * 5000 + p.val) (hi1 : (i 1).val = k.val) :
    (iblk2 V c 0 t : Vec Ideal S5000x64 .f32) (ix2 p k) = (V c (Pipeline.arrRef spec2 0) : S100000x64.Idx → EReal) i := by
  obtain ⟨e00, e01, -⟩ := idx_facts2 t
  show (V c (Pipeline.arrRef spec2 0) : S100000x64.Idx → EReal) (((cfg2.win 0).blk t).view.emb (ix2 p k)) = _
  refine congrArg _ (funext fun a => Fin.ext ?_)
  match a with
  | ⟨0, _⟩ => show win2_0.index t (0 : Fin 2) * 5000 + 1 * p.val = (i 0).val; omega
  | ⟨1, _⟩ => show win2_0.index t (1 : Fin 2) * 64 + 1 * k.val = (i 1).val; omega

/-- Every tile's block of the bias row is the bias row. -/
theorem blk2_1_apply (c : Dev nD) (t : Fin cfg2.N) (k : Fin 64) :
    (iblk2 V c 1 t : Vec Ideal S1x64 .f32) (ix2 (0 : Fin 1) k)
      = (V c (Pipeline.arrRef spec2 1) : S1x64.Idx → EReal) (ix2 (0 : Fin 1) k) := by
  obtain ⟨-, -, e10, e11, -⟩ := idx_facts2 t
  show (V c (Pipeline.arrRef spec2 1) : S1x64.Idx → EReal) (((cfg2.win 1).blk t).view.emb (ix2 (0 : Fin 1) k)) = _
  refine congrArg _ (funext fun a => Fin.ext ?_)
  match a with
  | ⟨0, _⟩ => show win2_1.index t (0 : Fin 2) * 1 + 1 * 0 = 0; omega
  | ⟨1, _⟩ => show win2_1.index t (1 : Fin 2) * 64 + 1 * k.val = k.val; omega

/-- Every tile's block of the weight matrix is the weight matrix. -/
theorem blk2_2_apply (c : Dev nD) (t : Fin cfg2.N) (k : Fin 64) (q : Fin 64) (i : S64x64.Idx)
    (hi0 : (i 0).val = k.val) (hi1 : (i 1).val = q.val) :
    (iblk2 V c 2 t : Vec Ideal S64x64 .f32) (ix2 k q) = (V c (Pipeline.arrRef spec2 2) : S64x64.Idx → EReal) i := by
  obtain ⟨-, -, -, -, e20, e21, -⟩ := idx_facts2 t
  show (V c (Pipeline.arrRef spec2 2) : S64x64.Idx → EReal) (((cfg2.win 2).blk t).view.emb (ix2 k q)) = _
  refine congrArg _ (funext fun a => Fin.ext ?_)
  match a with
  | ⟨0, _⟩ => show win2_2.index t (0 : Fin 2) * 64 + 1 * k.val = (i 0).val; omega
  | ⟨1, _⟩ => show win2_2.index t (1 : Fin 2) * 64 + 1 * q.val = (i 1).val; omega

/-- Entry (p, q) of tile t's output block is entry (5000 t + p, q) of the output array. -/
theorem emb2_3 (t : Fin cfg2.N) (p : Fin 5000) (q : Fin 64) :
    ((((cfg2.win 3).blk t).view.emb (ix2 p q)) 0).val = t.val * 5000 + p.val
      ∧ ((((cfg2.win 3).blk t).view.emb (ix2 p q)) 1).val = q.val := by
  obtain ⟨-, -, -, -, -, -, e30, e31⟩ := idx_facts2 t
  constructor
  · show win2_3.index t (0 : Fin 2) * 5000 + 1 * p.val = _
    omega
  · show win2_3.index t (1 : Fin 2) * 64 + 1 * q.val = _
    omega

/-- What tile t writes back is tile t's block of the dense half applied to the whole input arrays. -/
theorem flushed2_eq (c : Dev nD) (t : Fin cfg2.N) :
    (dat2 V c).flushed 3 t = ((cfg2.win 3).blk t).view.read (Elt Ideal)
      (gcnDense (V c (Pipeline.arrRef spec2 0)) (V c (Pipeline.arrRef spec2 1)) (V c (Pipeline.arrRef spec2 2))) := by
  show (cfg2.win 3).cut (grid2.coords t) ((dat2 V c).after 3 t) = _
  rw [after2_3, out2_3_eq (iblk2 V c 0 t) (iblk2 V c 1 t) (iblk2 V c 2 t)]
  funext j
  show k2_pay1 (F := Ideal) (iblk2 V c 0 t) (iblk2 V c 1 t) (iblk2 V c 2 t) j
      = gcnDense (V c (Pipeline.arrRef spec2 0)) (V c (Pipeline.arrRef spec2 1)) (V c (Pipeline.arrRef spec2 2))
          (((cfg2.win 3).blk t).view.emb j)
  obtain ⟨p, q, rfl⟩ : ∃ (p : Fin 5000) (q : Fin 64), j = ix2 p q := ⟨j 0, j 1, eq_ix2 j⟩
  obtain ⟨r0, r1⟩ := emb2_3 t p q
  refine (pay2_apply (iblk2 V c 0 t) (iblk2 V c 1 t) (iblk2 V c 2 t) p q).trans ?_
  unfold gcnDense
  refine Finset.sum_congr rfl fun k _ => ?_
  rw [blk2_0_apply V c t p k (ix2 ((((cfg2.win 3).blk t).view.emb (ix2 p q)) 0) k) r0 rfl,
    blk2_1_apply V c t k,
    blk2_2_apply V c t k q (ix2 k ((((cfg2.win 3).blk t).view.emb (ix2 p q)) 1)) rfl r1]
/-- An index of the output array is in tile t's block iff each coordinate is in the block's range on its axis. -/
theorem mem_blk2 (t : Fin cfg2.N) (i : S100000x64.Idx) :
    i ∈ ((cfg2.win 3).blk t).view.set ↔ ∀ a : Fin 2, win2_3.index t a * S5000x64.size a ≤ (i a).val
      ∧ (i a).val < win2_3.index t a * S5000x64.size a + S5000x64.size a := by
  show i ∈ ((View.whole main_v73).slice (win2_3.rect t)).set ↔ _
  rw [View.set_slice_whole, Rect.mem_set_unit]
  exact Iff.rfl

/-- Row r of the output lies in the block of tile r / 5000, which is written back. -/
theorem cover2 (i : S100000x64.Idx) :
    ∃ t : Fin cfg2.N, (cfg2.win 3).flush t = true ∧ i ∈ ((cfg2.win 3).blk t).view.set := by
  have hi0 : (i 0).val < 100000 := (i 0).isLt
  have hi1 : (i 1).val < 64 := (i 1).isLt
  have hN : cfg2.N = 20 := N_2
  have ht : (i 0).val / 5000 < cfg2.N := by rw [hN]; omega
  refine ⟨⟨(i 0).val / 5000, ht⟩, flush2_3 _, ?_⟩
  rw [mem_blk2]
  obtain ⟨-, -, -, -, -, -, e30, e31⟩ := idx_facts2 ⟨(i 0).val / 5000, ht⟩
  intro a
  match a with
  | ⟨0, _⟩ =>
    show win2_3.index ⟨(i 0).val / 5000, ht⟩ (0 : Fin 2) * 5000 ≤ (i 0).val
      ∧ (i 0).val < win2_3.index ⟨(i 0).val / 5000, ht⟩ (0 : Fin 2) * 5000 + 5000
    rw [e30]
    show (i 0).val / 5000 * 5000 ≤ (i 0).val ∧ (i 0).val < (i 0).val / 5000 * 5000 + 5000
    omega
  | ⟨1, _⟩ =>
    show win2_3.index ⟨(i 0).val / 5000, ht⟩ (1 : Fin 2) * 64 ≤ (i 1).val
      ∧ (i 1).val < win2_3.index ⟨(i 0).val / 5000, ht⟩ (1 : Fin 2) * 64 + 64
    rw [e31]
    omega

/-- The second fused layer's output array after its region, whatever the buffers held on entry: the dense half of one
    graph-convolution layer applied to the region's three input arrays as it found them. -/
theorem gcnLayer2_value (c : Dev nD) :
    (dat2 V c).arrAt 3 cfg2.N
      = gcnDense (V c (Pipeline.arrRef spec2 0)) (V c (Pipeline.arrRef spec2 1)) (V c (Pipeline.arrRef spec2 2)) :=
  (dat2 V c).arrAt_eq_of_cover 3 _ (fun t _ => flushed2_eq V c t) cover2

end Cert.KernelIdeal.GcnLayer2

end
-- ==== Proof.HeadValue.lean ====
/- The projection head's output, read as one function of its whole input arrays.
   The region walks 20 row tiles of 5000 of the 100000 rows. On a tile it multiplies the fused features by the first
   projection matrix, adds its bias row, clips below at zero, multiplies by the second projection matrix and adds its
   bias row. Entry (r, j) of the result uses only row r of the features, so the tiled result is the same expression over
   the whole arrays: row r is written by tile r / 5000, and the 20 tiles cover every row. Nothing here depends on
   what the buffers held on entry. -/
import proofs.«135266_j45973329936474_1_alg».proof.Proof.Gen.KernelIdeal.Frame
import Idealize.ShloMosaic.Lib.Pipeline.Value
import Idealize.ShloMosaic.Lib.ValueIdx
import Idealize.ShloMosaic.Lib.Tactic
import Idealize.ShloMosaic.PureOps.Ideal.Laws

noncomputable section

open Idealize.ShloMosaic Idealize.ShloMosaic.TcCoe Idealize.SL.Sem
open Idealize.ShloMosaic.Pipeline (Dat)
open Idealize.ShloMosaic.ValueIdx

namespace Cert.KernelIdeal.HeadProj

open Cert.KernelIdeal Cert.KernelIdeal.Gen

theorem mmHH_lhs0 (i : S5000x64.Idx) (q : (dot_S5000x64_S64x64_S5000x64_1_0_0_1_n_n).contr.Idx) :
    ((dot_S5000x64_S64x64_S5000x64_1_0_0_1_n_n).lhsIdx i q 0).val = (i 0).val := by
  unfold DotDims.lhsIdx
  rw [dif_neg (show ¬(0 : Fin S5000x64.rank) ∈ (dot_S5000x64_S64x64_S5000x64_1_0_0_1_n_n).lhsBatch by decide),
    dif_pos (show (0 : Fin S5000x64.rank) ∈ (dot_S5000x64_S64x64_S5000x64_1_0_0_1_n_n).lhsNonContracting by decide)]
  rfl

theorem mmHH_rhs1 (i : S5000x64.Idx) (q : (dot_S5000x64_S64x64_S5000x64_1_0_0_1_n_n).contr.Idx) :
    ((dot_S5000x64_S64x64_S5000x64_1_0_0_1_n_n).rhsIdx i q 1).val = (i 1).val := by
  unfold DotDims.rhsIdx
  rw [dif_neg (show ¬(1 : Fin S64x64.rank) ∈ (dot_S5000x64_S64x64_S5000x64_1_0_0_1_n_n).rhsBatch by decide),
    dif_pos (show (1 : Fin S64x64.rank) ∈ (dot_S5000x64_S64x64_S5000x64_1_0_0_1_n_n).rhsNonContracting by decide)]
  rfl

/-- A block product into a zero accumulator, read at an index: row p of the left factor against column q of the right one. -/
theorem mmHH_apply (a : FVec Ideal S5000x64 .bf16) (w : FVec Ideal S64x64 .bf16) (p : Fin 5000) (q : Fin 64) :
    matmul dot_S5000x64_S64x64_S5000x64_1_0_0_1_n_n none a w (constant S5000x64 .f32 0x00000000#32) (ix2 p q)
      = ∑ k : Fin 64, a (ix2 p k) * w (ix2 k q) := by
  simp only [matmul]
  rw [Ideal.matmul_constant_zero_apply,
    ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : (dot_S5000x64_S64x64_S5000x64_1_0_0_1_n_n).lhsIdx (ix2 p q) ((contrEquiv1 dot_S5000x64_S64x64_S5000x64_1_0_0_1_n_n 64 rfl rfl).symm k) = ix2 p k :=
    funext fun a => Fin.ext (by
      match a with
      | ⟨0, _⟩ => exact mmHH_lhs0 _ _
      | ⟨1, _⟩ => exact ((dot_S5000x64_S64x64_S5000x64_1_0_0_1_n_n).lhsIdx_val_of_single rfl _ _).trans hk)
  have er : (dot_S5000x64_S64x64_S5000x64_1_0_0_1_n_n).rhsIdx (ix2 p q) ((contrEquiv1 dot_S5000x64_S64x64_S5000x64_1_0_0_1_n_n 64 rfl rfl).symm k) = ix2 k q :=
    funext fun a => Fin.ext (by
      match a with
      | ⟨0, _⟩ => exact ((dot_S5000x64_S64x64_S5000x64_1_0_0_1_n_n).rhsIdx_val_of_single rfl _ _).trans hk
      | ⟨1, _⟩ => exact mmHH_rhs1 _ _)
  rw [el, er]

theorem mmHP_lhs0 (i : S5000x32.Idx) (q : (dot_S5000x64_S64x32_S5000x32_1_0_0_1_n_n).contr.Idx) :
    ((dot_S5000x64_S64x32_S5000x32_1_0_0_1_n_n).lhsIdx i q 0).val = (i 0).val := by
  unfold DotDims.lhsIdx
  rw [dif_neg (show ¬(0 : Fin S5000x64.rank) ∈ (dot_S5000x64_S64x32_S5000x32_1_0_0_1_n_n).lhsBatch by decide),
    dif_pos (show (0 : Fin S5000x64.rank) ∈ (dot_S5000x64_S64x32_S5000x32_1_0_0_1_n_n).lhsNonContracting by decide)]
  rfl

theorem mmHP_rhs1 (i : S5000x32.Idx) (q : (dot_S5000x64_S64x32_S5000x32_1_0_0_1_n_n).contr.Idx) :
    ((dot_S5000x64_S64x32_S5000x32_1_0_0_1_n_n).rhsIdx i q 1).val = (i 1).val := by
  unfold DotDims.rhsIdx
  rw [dif_neg (show ¬(1 : Fin S64x32.rank) ∈ (dot_S5000x64_S64x32_S5000x32_1_0_0_1_n_n).rhsBatch by decide),
    dif_pos (show (1 : Fin S64x32.rank) ∈ (dot_S5000x64_S64x32_S5000x32_1_0_0_1_n_n).rhsNonContracting by decide)]
  rfl

/-- A block product into a zero accumulator, read at an index: row p of the left factor against column q of the right one. -/
theorem mmHP_apply (a : FVec Ideal S5000x64 .bf16) (w : FVec Ideal S64x32 .bf16) (p : Fin 5000) (q : Fin 32) :
    matmul dot_S5000x64_S64x32_S5000x32_1_0_0_1_n_n none a w (constant S5000x32 .f32 0x00000000#32) (ix2 p q)
      = ∑ k : Fin 64, a (ix2 p k) * w (ix2 k q) := by
  simp only [matmul]
  rw [Ideal.matmul_constant_zero_apply,
    ← Equiv.sum_comp (contrEquiv1 dot_S5000x64_S64x32_S5000x32_1_0_0_1_n_n 64 rfl rfl).symm]
  refine Finset.sum_congr rfl fun k _ => ?_
  have hk := contrEquiv1_symm_val dot_S5000x64_S64x32_S5000x32_1_0_0_1_n_n 64 rfl rfl k
  have el : (dot_S5000x64_S64x32_S5000x32_1_0_0_1_n_n).lhsIdx (ix2 p q) ((contrEquiv1 dot_S5000x64_S64x32_S5000x32_1_0_0_1_n_n 64 rfl rfl).symm k) = ix2 p k :=
    funext fun a => Fin.ext (by
      match a with
      | ⟨0, _⟩ => exact mmHP_lhs0 _ _
      | ⟨1, _⟩ => exact ((dot_S5000x64_S64x32_S5000x32_1_0_0_1_n_n).lhsIdx_val_of_single rfl _ _).trans hk)
  have er : (dot_S5000x64_S64x32_S5000x32_1_0_0_1_n_n).rhsIdx (ix2 p q) ((contrEquiv1 dot_S5000x64_S64x32_S5000x32_1_0_0_1_n_n 64 rfl rfl).symm k) = ix2 k q :=
    funext fun a => Fin.ext (by
      match a with
      | ⟨0, _⟩ => exact ((dot_S5000x64_S64x32_S5000x32_1_0_0_1_n_n).rhsIdx_val_of_single rfl _ _).trans hk
      | ⟨1, _⟩ => exact mmHP_rhs1 _ _)
  rw [el, er]

/-- A bias row laid along every row of the block, read at an index. -/
theorem bias64_apply (b : Vec Ideal S1x64 .f32) (p : Fin 5000) (k : Fin 64) :
    broadcastTo S5000x64 (shapeCast S1x64 b shapeCasts_S1x64_S1x64) broadcasts_S1x64_S5000x64 (ix2 p k) = b (ix2 (0 : Fin 1) k) := by
  rw [shapeCast_self]
  refine broadcastTo_apply b _ (ix2 p k) (ix2 (0 : Fin 1) k) fun a => ?_
  match a with
  | ⟨0, _⟩ => rfl
  | ⟨1, _⟩ => rfl

/-- A bias row laid along every row of the block, read at an index. -/
theorem bias32_apply (b : Vec Ideal S1x32 .f32) (p : Fin 5000) (k : Fin 32) :
    broadcastTo S5000x32 (shapeCast S1x32 b shapeCasts_S1x32_S1x32) broadcasts_S1x32_S5000x32 (ix2 p k) = b (ix2 (0 : Fin 1) k) := by
  rw [shapeCast_self]
  refine broadcastTo_apply b _ (ix2 p k) (ix2 (0 : Fin 1) k) fun a => ?_
  match a with
  | ⟨0, _⟩ => rfl
  | ⟨1, _⟩ => rfl

/-- The shared left factor: the tile's features, unchanged by the change of format. -/
theorem pay4_1_apply (x0 : Vec Ideal S5000x64 .f32) (i : S5000x64.Idx) : k4_pay1 (F := Ideal) x0 i = x0 i := by
  unfold k4_pay1
  rw [truncf_apply, shapeCast_self]

/-- The projection head's store at an index of the block. -/
theorem pay4_2_apply (x0 : Vec Ideal S5000x64 .f32) (x1 : Vec Ideal S64x64 .f32) (x2 : Vec Ideal S1x64 .f32)
    (x3 : Vec Ideal S64x32 .f32) (x4 : Vec Ideal S1x32 .f32) (p : Fin 5000) (q : Fin 32) :
    k4_pay2 (F := Ideal) x0 x1 x2 x3 x4 (ix2 p q)
      = (∑ k : Fin 64, max ((∑ l : Fin 64, x0 (ix2 p l) * x1 (ix2 l k)) + x2 (ix2 (0 : Fin 1) k)) 0 * x3 (ix2 k q))
        + x4 (ix2 (0 : Fin 1) q) := by
  unfold k4_pay2
  rw [addf_apply, mmHP_apply, bias32_apply]
  refine congrArg (fun z => z + x4 (ix2 (0 : Fin 1) q)) (Finset.sum_congr rfl fun k _ => ?_)
  rw [truncf_apply, truncf_apply, maximumf_apply, addf_apply, mmHH_apply, bias64_apply, broadcast_apply]
  have inner : ∑ l : Fin 64, k4_pay1 (F := Ideal) x0 (ix2 p l) * (truncf .bf16 x1 bitsLt_bf16_f32 : FVec Ideal S64x64 .bf16) (ix2 l k)
      = ∑ l : Fin 64, x0 (ix2 p l) * x1 (ix2 l k) :=
    Finset.sum_congr rfl fun l _ => by rw [pay4_1_apply, truncf_apply]
  rw [inner]
  show max (∑ l : Fin 64, x0 (ix2 p l) * x1 (ix2 l k) + x2 (ix2 (0 : Fin 1) k)) (Ideal.ofBits .f32 0x00000000#32) * x3 (ix2 k q) = _
  rw [Ideal.ofBits_zero_f32]

/-- The projection head: a 64-wide hidden layer with bias, clipped below at zero, then a 64 x 32 matrix with bias —
    entry (r, j) is the sum over k of max ((sum over l of hf[r,l] * pW1[l,k]) + pb1[0,k]) 0 * pW2[k,j], plus pb2[0,j]. -/
def projHead (hf : S100000x64.Idx → EReal) (pW1 : S64x64.Idx → EReal) (pb1 : S1x64.Idx → EReal)
    (pW2 : S64x32.Idx → EReal) (pb2 : S1x32.Idx → EReal) : S100000x32.Idx → EReal :=
  fun i => (∑ k : Fin 64, max ((∑ l : Fin 64, hf (ix2 (i 0) l) * pW1 (ix2 l k)) + pb1 (ix2 (0 : Fin 1) k)) 0 * pW2 (ix2 k (i 1)))
    + pb2 (ix2 (0 : Fin 1) (i 1))

theorem hz : (![0, 0] : Fin 2 → Nat) = fun _ => 0 := funext fun a => by fin_cases a <;> rfl

/-- The output is stored once, over its whole block: what the body leaves in its buffer is that one stored value. -/
theorem out4_7_eq (x0 : Vec Ideal S5000x64 .f32) (x1 : Vec Ideal S64x64 .f32) (x2 : Vec Ideal S1x64 .f32) (x3 : Vec Ideal S64x32 .f32)
    (x4 : Vec Ideal S1x32 .f32) (x5 : Vec Ideal S64x1 .f32) (x6 : Vec Ideal S1x1 .f32) :
    out4_7 x0 x1 x2 x3 x4 x5 x6 = k4_pay2 x0 x1 x2 x3 x4 := by
  unfold out4_7
  rw [View.canon_unit_zero hz]
  simp only [View.ld_unit_zero (S := S5000x64) hz, View.ld_unit_zero (S := S64x64) hz, View.ld_unit_zero (S := S1x64) hz,
    View.ld_unit_zero (S := S64x32) hz, View.ld_unit_zero (S := S1x32) hz]

variable (V : (c : Dev nD) → (b : Ref sig .tc) → Buf (Elt Ideal) ((c : Thread nD τ).loc b))

/-! The index maps over the 20 row tiles: the feature window and the output window sit on tile t, every weight and bias window on its one block. -/

theorem idx4_0 : ∀ t : Fin cfg4.N, win4_0.index t (0 : Fin 2) = t.val ∧ win4_0.index t (1 : Fin 2) = 0 :=
  (by decide +kernel : ∀ t : Fin grid4.N, _)
theorem idx4_1 : ∀ t : Fin cfg4.N, win4_1.index t (0 : Fin 2) = 0 ∧ win4_1.index t (1 : Fin 2) = 0 :=
  (by decide +kernel : ∀ t : Fin grid4.N, _)
theorem idx4_2 : ∀ t : Fin cfg4.N, win4_2.index t (0 : Fin 2) = 0 ∧ win4_2.index t (1 : Fin 2) = 0 :=
  (by decide +kernel : ∀ t : Fin grid4.N, _)
theorem idx4_3 : ∀ t : Fin cfg4.N, win4_3.index t (0 : Fin 2) = 0 ∧ win4_3.index t (1 : Fin 2) = 0 :=
  (by decide +kernel : ∀ t : Fin grid4.N, _)
theorem idx4_4 : ∀ t : Fin cfg4.N, win4_4.index t (0 : Fin 2) = 0 ∧ win4_4.index t (1 : Fin 2) = 0 :=
  (by decide +kernel : ∀ t : Fin grid4.N, _)
theorem idx4_7 : ∀ t : Fin cfg4.N, win4_7.index t (0 : Fin 2) = t.val ∧ win4_7.index t (1 : Fin 2) = 0 :=
  (by decide +kernel : ∀ t : Fin grid4.N, _)

/-- Tile t's block of the features is rows 5000 t … 5000 t + 4999 of the feature array. -/
theorem blk4_0_apply (c : Dev nD) (t : Fin cfg4.N) (p : Fin 5000) (k : Fin 64) (i : S100000x64.Idx)
    (hi0 : (i 0).val = t.val * 5000 + p.val) (hi1 : (i 1).val = k.val) :
    (iblk4 V c 0 t : Vec Ideal S5000x64 .f32) (ix2 p k) = (V c (Pipeline.arrRef spec4 0) : S100000x64.Idx → EReal) i := by
  obtain ⟨e0, e1⟩ := idx4_0 t
  show (V c (Pipeline.arrRef spec4 0) : S100000x64.Idx → EReal) (((cfg4.win 0).blk t).view.emb (ix2 p k)) = _
  refine congrArg _ (funext fun d => Fin.ext ?_)
  match d with
  | ⟨0, _⟩ => show win4_0.index t (0 : Fin 2) * 5000 + 1 * p.val = (i 0).val; omega
  | ⟨1, _⟩ => show win4_0.index t (1 : Fin 2) * 64 + 1 * k.val = (i 1).val; omega

/-- Every tile's block of the first projection matrix is the whole of it. -/
theorem blk4_1_apply (c : Dev nD) (t : Fin cfg4.N) (a : Fin 64) (b : Fin 64) (i : S64x64.Idx)
    (hi0 : (i 0).val = a.val) (hi1 : (i 1).val = b.val) :
    (iblk4 V c 1 t : Vec Ideal S64x64 .f32) (ix2 a b) = (V c (Pipeline.arrRef spec4 1) : S64x64.Idx → EReal) i := by
  obtain ⟨e0, e1⟩ := idx4_1 t
  show (V c (Pipeline.arrRef spec4 1) : S64x64.Idx → EReal) (((cfg4.win 1).blk t).view.emb (ix2 a b)) = _
  refine congrArg _ (funext fun d => Fin.ext ?_)
  match d with
  | ⟨0, _⟩ => show win4_1.index t (0 : Fin 2) * 64 + 1 * a.val = (i 0).val; omega
  | ⟨1, _⟩ => show win4_1.index t (1 : Fin 2) * 64 + 1 * b.val = (i 1).val; omega

/-- Every tile's block of the first projection bias row is the whole of it. -/
theorem blk4_2_apply (c : Dev nD) (t : Fin cfg4.N) (a : Fin 1) (b : Fin 64) (i : S1x64.Idx)
    (hi0 : (i 0).val = a.val) (hi1 : (i 1).val = b.val) :
    (iblk4 V c 2 t : Vec Ideal S1x64 .f32) (ix2 a b) = (V c (Pipeline.arrRef spec4 2) : S1x64.Idx → EReal) i := by
  obtain ⟨e0, e1⟩ := idx4_2 t
  show (V c (Pipeline.arrRef spec4 2) : S1x64.Idx → EReal) (((cfg4.win 2).blk t).view.emb (ix2 a b)) = _
  refine congrArg _ (funext fun d => Fin.ext ?_)
  match d with
  | ⟨0, _⟩ => show win4_2.index t (0 : Fin 2) * 1 + 1 * a.val = (i 0).val; omega
  | ⟨1, _⟩ => show win4_2.index t (1 : Fin 2) * 64 + 1 * b.val = (i 1).val; omega

/-- Every tile's block of the second projection matrix is the whole of it. -/
theorem blk4_3_apply (c : Dev nD) (t : Fin cfg4.N) (a : Fin 64) (b : Fin 32) (i : S64x32.Idx)
    (hi0 : (i 0).val = a.val) (hi1 : (i 1).val = b.val) :
    (iblk4 V c 3 t : Vec Ideal S64x32 .f32) (ix2 a b) = (V c (Pipeline.arrRef spec4 3) : S64x32.Idx → EReal) i := by
  obtain ⟨e0, e1⟩ := idx4_3 t
  show (V c (Pipeline.arrRef spec4 3) : S64x32.Idx → EReal) (((cfg4.win 3).blk t).view.emb (ix2 a b)) = _
  refine congrArg _ (funext fun d => Fin.ext ?_)
  match d with
  | ⟨0, _⟩ => show win4_3.index t (0 : Fin 2) * 64 + 1 * a.val = (i 0).val; omega
  | ⟨1, _⟩ => show win4_3.index t (1 : Fin 2) * 32 + 1 * b.val = (i 1).val; omega

/-- Every tile's block of the second projection bias row is the whole of it. -/
theorem blk4_4_apply (c : Dev nD) (t : Fin cfg4.N) (a : Fin 1) (b : Fin 32) (i : S1x32.Idx)
    (hi0 : (i 0).val = a.val) (hi1 : (i 1).val = b.val) :
    (iblk4 V c 4 t : Vec Ideal S1x32 .f32) (ix2 a b) = (V c (Pipeline.arrRef spec4 4) : S1x32.Idx → EReal) i := by
  obtain ⟨e0, e1⟩ := idx4_4 t
  show (V c (Pipeline.arrRef spec4 4) : S1x32.Idx → EReal) (((cfg4.win 4).blk t).view.emb (ix2 a b)) = _
  refine congrArg _ (funext fun d => Fin.ext ?_)
  match d with
  | ⟨0, _⟩ => show win4_4.index t (0 : Fin 2) * 1 + 1 * a.val = (i 0).val; omega
  | ⟨1, _⟩ => show win4_4.index t (1 : Fin 2) * 32 + 1 * b.val = (i 1).val; omega

/-- Entry (p, q) of tile t's block of this output is entry (5000 t + p, q) of the output array. -/
theorem emb4_7 (t : Fin cfg4.N) (p : Fin 5000) (q : Fin 32) :
    ((((cfg4.win 7).blk t).view.emb (ix2 p q)) 0).val = t.val * 5000 + p.val
      ∧ ((((cfg4.win 7).blk t).view.emb (ix2 p q)) 1).val = q.val := by
  obtain ⟨e0, e1⟩ := idx4_7 t
  constructor
  · show win4_7.index t (0 : Fin 2) * 5000 + 1 * p.val = _
    omega
  · show win4_7.index t (1 : Fin 2) * 32 + 1 * q.val = _
    omega

/-- An index of this output array is in tile t's block iff each coordinate is in the block's range on its axis. -/
theorem mem_blk4_7 (t : Fin cfg4.N) (i : S100000x32.Idx) :
    i ∈ ((cfg4.win 7).blk t).view.set ↔ ∀ a : Fin 2, win4_7.index t a * S5000x32.size a ≤ (i a).val
      ∧ (i a).val < win4_7.index t a * S5000x32.size a + S5000x32.size a := by
  show i ∈ ((View.whole main_v88_0).slice (win4_7.rect t)).set ↔ _
  rw [View.set_slice_whole, Rect.mem_set_unit]
  exact Iff.rfl

/-- Row r of this output lies in the block of tile r / 5000, which is written back. -/
theorem tiles4_7 (i : S100000x32.Idx) :
    ∃ t : Fin cfg4.N, (cfg4.win 7).flush t = true ∧ i ∈ ((cfg4.win 7).blk t).view.set := by
  have hi0 : (i 0).val < 100000 := (i 0).isLt
  have hi1 : (i 1).val < 32 := (i 1).isLt
  have hN : cfg4.N = 20 := N_4
  have ht : (i 0).val / 5000 < cfg4.N := by rw [hN]; omega
  refine ⟨⟨(i 0).val / 5000, ht⟩, flush4_7 _, ?_⟩
  rw [mem_blk4_7]
  obtain ⟨e0, e1⟩ := idx4_7 ⟨(i 0).val / 5000, ht⟩
  intro a
  match a with
  | ⟨0, _⟩ =>
    show win4_7.index ⟨(i 0).val / 5000, ht⟩ (0 : Fin 2) * 5000 ≤ (i 0).val
      ∧ (i 0).val < win4_7.index ⟨(i 0).val / 5000, ht⟩ (0 : Fin 2) * 5000 + 5000
    rw [e0]
    show (i 0).val / 5000 * 5000 ≤ (i 0).val ∧ (i 0).val < (i 0).val / 5000 * 5000 + 5000
    omega
  | ⟨1, _⟩ =>
    show win4_7.index ⟨(i 0).val / 5000, ht⟩ (1 : Fin 2) * 32 ≤ (i 1).val
      ∧ (i 1).val < win4_7.index ⟨(i 0).val / 5000, ht⟩ (1 : Fin 2) * 32 + 32
    rw [e1]
    omega

/-- Over tile t's blocks the projection store at (p, q) is the projection head of the whole arrays at row 5000 t + p,
    column q. -/
theorem proj_at (c : Dev nD) (t : Fin cfg4.N) (p : Fin 5000) (q : Fin 32) (i : S100000x32.Idx)
    (hi0 : (i 0).val = t.val * 5000 + p.val) (hi1 : (i 1).val = q.val) :
    k4_pay2 (F := Ideal) (iblk4 V c 0 t) (iblk4 V c 1 t) (iblk4 V c 2 t) (iblk4 V c 3 t) (iblk4 V c 4 t) (ix2 p q)
      = projHead (V c (Pipeline.arrRef spec4 0)) (V c (Pipeline.arrRef spec4 1)) (V c (Pipeline.arrRef spec4 2)) (V c (Pipeline.arrRef spec4 3)) (V c (Pipeline.arrRef spec4 4)) i := by
  refine (pay4_2_apply (iblk4 V c 0 t) (iblk4 V c 1 t) (iblk4 V c 2 t) (iblk4 V c 3 t) (iblk4 V c 4 t) p q).trans ?_
  unfold projHead
  rw [blk4_4_apply V c t (0 : Fin 1) q (ix2 (0 : Fin 1) (i 1)) rfl hi1]
  refine congrArg (fun z => z + (V c (Pipeline.arrRef spec4 4) : S1x32.Idx → EReal) (ix2 (0 : Fin 1) (i 1)))
    (Finset.sum_congr rfl fun k _ => ?_)
  rw [blk4_2_apply V c t (0 : Fin 1) k (ix2 (0 : Fin 1) k) rfl rfl, blk4_3_apply V c t k q (ix2 k (i 1)) rfl hi1]
  refine congrArg (fun z : EReal => max (z + _) 0 * _) (Finset.sum_congr rfl fun l _ => ?_)
  rw [blk4_0_apply V c t p l (ix2 (i 0) l) hi0 rfl, blk4_1_apply V c t l k (ix2 l k) rfl rfl]

/-- What tile t writes back to the projection output is tile t's block of the projection head of the whole arrays. -/
theorem flushed4_7_eq (c : Dev nD) (t : Fin cfg4.N) :
    (dat4 V c).flushed 7 t = ((cfg4.win 7).blk t).view.read (Elt Ideal) (projHead (V c (Pipeline.arrRef spec4 0)) (V c (Pipeline.arrRef spec4 1)) (V c (Pipeline.arrRef spec4 2)) (V c (Pipeline.arrRef spec4 3)) (V c (Pipeline.arrRef spec4 4))) := by
  show (cfg4.win 7).cut (grid4.coords t) ((dat4 V c).after 7 t) = _
  rw [after4_7, out4_7_eq (iblk4 V c 0 t) (iblk4 V c 1 t) (iblk4 V c 2 t) (iblk4 V c 3 t) (iblk4 V c 4 t) (iblk4 V c 5 t) (iblk4 V c 6 t)]
  funext j
  show k4_pay2 (F := Ideal) (iblk4 V c 0 t) (iblk4 V c 1 t) (iblk4 V c 2 t) (iblk4 V c 3 t) (iblk4 V c 4 t) j
      = projHead (V c (Pipeline.arrRef spec4 0)) (V c (Pipeline.arrRef spec4 1)) (V c (Pipeline.arrRef spec4 2)) (V c (Pipeline.arrRef spec4 3)) (V c (Pipeline.arrRef spec4 4)) (((cfg4.win 7).blk t).view.emb j)
  obtain ⟨p, q, rfl⟩ : ∃ (p : Fin 5000) (q : Fin 32), j = ix2 p q := ⟨j 0, j 1, eq_ix2 j⟩
  obtain ⟨r0, r1⟩ := emb4_7 t p q
  exact proj_at V c t p q _ r0 r1

/-- The projection output array after the head's region, whatever the buffers held on entry. -/
theorem head_zproj_value (c : Dev nD) :
    (dat4 V c).arrAt 7 cfg4.N = projHead (V c (Pipeline.arrRef spec4 0)) (V c (Pipeline.arrRef spec4 1)) (V c (Pipeline.arrRef spec4 2)) (V c (Pipeline.arrRef spec4 3)) (V c (Pipeline.arrRef spec4 4)) :=
  (dat4 V c).arrAt_eq_of_cover 7 _ (fun t _ => flushed4_7_eq V c t) tiles4_7

end Cert.KernelIdeal.HeadProj

end
-- ==== Proof.HeadValueLogits.lean ====
/- The classifier's output, read as one function of its whole input arrays.
   The region walks 20 row tiles of 5000 of the 100000 rows. On a tile it multiplies the fused features by the
   classifier's weight column and adds its bias. Entry (r, 0) of the result uses only row r of the features, so the
   tiled result is the same expression over the whole arrays: row r is written by tile r / 5000, and the 20 tiles
   cover every row. Nothing here depends on what the buffers held on entry. -/
import proofs.«135266_j45973329936474_1_alg».proof.Proof.Gen.KernelIdeal.Frame
import Idealize.ShloMosaic.Lib.Pipeline.Value
import Idealize.ShloMosaic.Lib.ValueIdx
import Idealize.ShloMosaic.Lib.Tactic
import Idealize.ShloMosaic.PureOps.Ideal.Laws

noncomputable section

open Idealize.ShloMosaic Idealize.ShloMosaic.TcCoe Idealize.SL.Sem
open Idealize.ShloMosaic.Pipeline (Dat)
open Idealize.ShloMosaic.ValueIdx

namespace Cert.KernelIdeal.HeadLogits

open Cert.KernelIdeal Cert.KernelIdeal.Gen

theorem mmH1_lhs0 (i : S5000x1.Idx) (q : (dot_S5000x64_S64x1_S5000x1_1_0_0_1_n_n).contr.Idx) :
    ((dot_S5000x64_S64x1_S5000x1_1_0_0_1_n_n).lhsIdx i q 0).val = (i 0).val := by
  unfold DotDims.lhsIdx
  rw [dif_neg (show ¬(0 : Fin S5000x64.rank) ∈ (dot_S5000x64_S64x1_S5000x1_1_0_0_1_n_n).lhsBatch by decide),
    dif_pos (show (0 : Fin S5000x64.rank) ∈ (dot_S5000x64_S64x1_S5000x1_1_0_0_1_n_n).lhsNonContracting by decide)]
  rfl

theorem mmH1_rhs1 (i : S5000x1.Idx) (q : (dot_S5000x64_S64x1_S5000x1_1_0_0_1_n_n).contr.Idx) :
    ((dot_S5000x64_S64x1_S5000x1_1_0_0_1_n_n).rhsIdx i q 1).val = (i 1).val := by
  unfold DotDims.rhsIdx
  rw [dif_neg (show ¬(1 : Fin S64x1.rank) ∈ (dot_S5000x64_S64x1_S5000x1_1_0_0_1_n_n).rhsBatch by decide),
    dif_pos (show (1 : Fin S64x1.rank) ∈ (dot_S5000x64_S64x1_S5000x1_1_0_0_1_n_n).rhsNonContracting by decide)]
  rfl

/-- A block product into a zero accumulator, read at an index: row p of the left factor against column q of the right one. -/
theorem mmH1_apply (a : FVec Ideal S5000x64 .bf16) (w : FVec Ideal S64x1 .bf16) (p : Fin 5000) (q : Fin 1) :
    matmul dot_S5000x64_S64x1_S5000x1_1_0_0_1_n_n none a w (constant S5000x1 .f32 0x00000000#32) (ix2 p q)
      = ∑ k : Fin 64, a (ix2 p k) * w (ix2 k q) := by
  simp only [matmul]
  rw [Ideal.matmul_constant_zero_apply,
    ← Equiv.sum_comp (contrEquiv1 dot_S5000x64_S64x1_S5000x1_1_0_0_1_n_n 64 rfl rfl).symm]
  refine Finset.sum_congr rfl fun k _ => ?_
  have hk := contrEquiv1_symm_val dot_S5000x64_S64x1_S5000x1_1_0_0_1_n_n 64 rfl rfl k
  have el : (dot_S5000x64_S64x1_S5000x1_1_0_0_1_n_n).lhsIdx (ix2 p q) ((contrEquiv1 dot_S5000x64_S64x1_S5000x1_1_0_0_1_n_n 64 rfl rfl).symm k) = ix2 p k :=
    funext fun a => Fin.ext (by
      match a with
      | ⟨0, _⟩ => exact mmH1_lhs0 _ _
      | ⟨1, _⟩ => exact ((dot_S5000x64_S64x1_S5000x1_1_0_0_1_n_n).lhsIdx_val_of_single rfl _ _).trans hk)
  have er : (dot_S5000x64_S64x1_S5000x1_1_0_0_1_n_n).rhsIdx (ix2 p q) ((contrEquiv1 dot_S5000x64_S64x1_S5000x1_1_0_0_1_n_n 64 rfl rfl).symm k) = ix2 k q :=
    funext fun a => Fin.ext (by
      match a with
      | ⟨0, _⟩ => exact ((dot_S5000x64_S64x1_S5000x1_1_0_0_1_n_n).rhsIdx_val_of_single rfl _ _).trans hk
      | ⟨1, _⟩ => exact mmH1_rhs1 _ _)
  rw [el, er]

/-- A bias row laid along every row of the block, read at an index. -/
theorem bias1_apply (b : Vec Ideal S1x1 .f32) (p : Fin 5000) (k : Fin 1) :
    broadcastTo S5000x1 (shapeCast S1x1 b shapeCasts_S1x1_S1x1) broadcasts_S1x1_S5000x1 (ix2 p k) = b (ix2 (0 : Fin 1) (0 : Fin 1)) := by
  rw [shapeCast_self]
  refine broadcastTo_apply b _ (ix2 p k) (ix2 (0 : Fin 1) (0 : Fin 1)) fun a => ?_
  match a with
  | ⟨0, _⟩ => rfl
  | ⟨1, _⟩ => rfl

/-- The shared left factor: the tile's features, unchanged by the change of format. -/
theorem pay4_1_apply (x0 : Vec Ideal S5000x64 .f32) (i : S5000x64.Idx) : k4_pay1 (F := Ideal) x0 i = x0 i := by
  unfold k4_pay1
  rw [truncf_apply, shapeCast_self]

/-- The classifier's store at an index of the block. -/
theorem pay4_3_apply (x0 : Vec Ideal S5000x64 .f32) (x5 : Vec Ideal S64x1 .f32) (x6 : Vec Ideal S1x1 .f32)
    (p : Fin 5000) (q : Fin 1) :
    k4_pay3 (F := Ideal) x0 x5 x6 (ix2 p q)
      = (∑ l : Fin 64, x0 (ix2 p l) * x5 (ix2 l q)) + x6 (ix2 (0 : Fin 1) (0 : Fin 1)) := by
  unfold k4_pay3
  rw [addf_apply, mmH1_apply, bias1_apply]
  refine congrArg (fun z => z + x6 (ix2 (0 : Fin 1) (0 : Fin 1))) (Finset.sum_congr rfl fun l _ => ?_)
  rw [pay4_1_apply, truncf_apply]

/-- The classifier: one weight column and one bias — entry (r, j) is the sum over l of hf[r,l] * cW[l,j], plus cb[0,0]. -/
def classHead (hf : S100000x64.Idx → EReal) (cW : S64x1.Idx → EReal) (cb : S1x1.Idx → EReal) : S100000x1.Idx → EReal :=
  fun i => (∑ l : Fin 64, hf (ix2 (i 0) l) * cW (ix2 l (i 1))) + cb (ix2 (0 : Fin 1) (0 : Fin 1))

theorem hz : (![0, 0] : Fin 2 → Nat) = fun _ => 0 := funext fun a => by fin_cases a <;> rfl

/-- The output is stored once, over its whole block: what the body leaves in its buffer is that one stored value. -/
theorem out4_8_eq (x0 : Vec Ideal S5000x64 .f32) (x1 : Vec Ideal S64x64 .f32) (x2 : Vec Ideal S1x64 .f32) (x3 : Vec Ideal S64x32 .f32)
    (x4 : Vec Ideal S1x32 .f32) (x5 : Vec Ideal S64x1 .f32) (x6 : Vec Ideal S1x1 .f32) :
    out4_8 x0 x1 x2 x3 x4 x5 x6 = k4_pay3 x0 x5 x6 := by
  unfold out4_8
  rw [View.canon_unit_zero hz]
  simp only [View.ld_unit_zero (S := S5000x64) hz, View.ld_unit_zero (S := S64x1) hz, View.ld_unit_zero (S := S1x1) hz]

variable (V : (c : Dev nD) → (b : Ref sig .tc) → Buf (Elt Ideal) ((c : Thread nD τ).loc b))

/-! The index maps over the 20 row tiles: the feature window and the output window sit on tile t, the weight column and the bias each on its one block. -/

theorem idx4_0 : ∀ t : Fin cfg4.N, win4_0.index t (0 : Fin 2) = t.val ∧ win4_0.index t (1 : Fin 2) = 0 :=
  (by decide +kernel : ∀ t : Fin grid4.N, _)
theorem idx4_5 : ∀ t : Fin cfg4.N, win4_5.index t (0 : Fin 2) = 0 ∧ win4_5.index t (1 : Fin 2) = 0 :=
  (by decide +kernel : ∀ t : Fin grid4.N, _)
theorem idx4_6 : ∀ t : Fin cfg4.N, win4_6.index t (0 : Fin 2) = 0 ∧ win4_6.index t (1 : Fin 2) = 0 :=
  (by decide +kernel : ∀ t : Fin grid4.N, _)
theorem idx4_8 : ∀ t : Fin cfg4.N, win4_8.index t (0 : Fin 2) = t.val ∧ win4_8.index t (1 : Fin 2) = 0 :=
  (by decide +kernel : ∀ t : Fin grid4.N, _)

/-- Tile t's block of the features is rows 5000 t … 5000 t + 4999 of the feature array. -/
theorem blk4_0_apply (c : Dev nD) (t : Fin cfg4.N) (p : Fin 5000) (k : Fin 64) (i : S100000x64.Idx)
    (hi0 : (i 0).val = t.val * 5000 + p.val) (hi1 : (i 1).val = k.val) :
    (iblk4 V c 0 t : Vec Ideal S5000x64 .f32) (ix2 p k) = (V c (Pipeline.arrRef spec4 0) : S100000x64.Idx → EReal) i := by
  obtain ⟨e0, e1⟩ := idx4_0 t
  show (V c (Pipeline.arrRef spec4 0) : S100000x64.Idx → EReal) (((cfg4.win 0).blk t).view.emb (ix2 p k)) = _
  refine congrArg _ (funext fun d => Fin.ext ?_)
  match d with
  | ⟨0, _⟩ => show win4_0.index t (0 : Fin 2) * 5000 + 1 * p.val = (i 0).val; omega
  | ⟨1, _⟩ => show win4_0.index t (1 : Fin 2) * 64 + 1 * k.val = (i 1).val; omega

/-- Every tile's block of the classifier's weight column is the whole of it. -/
theorem blk4_5_apply (c : Dev nD) (t : Fin cfg4.N) (a : Fin 64) (b : Fin 1) (i : S64x1.Idx)
    (hi0 : (i 0).val = a.val) (hi1 : (i 1).val = b.val) :
    (iblk4 V c 5 t : Vec Ideal S64x1 .f32) (ix2 a b) = (V c (Pipeline.arrRef spec4 5) : S64x1.Idx → EReal) i := by
  obtain ⟨e0, e1⟩ := idx4_5 t
  show (V c (Pipeline.arrRef spec4 5) : S64x1.Idx → EReal) (((cfg4.win 5).blk t).view.emb (ix2 a b)) = _
  refine congrArg _ (funext fun d => Fin.ext ?_)
  match d with
  | ⟨0, _⟩ => show win4_5.index t (0 : Fin 2) * 64 + 1 * a.val = (i 0).val; omega
  | ⟨1, _⟩ => show win4_5.index t (1 : Fin 2) * 1 + 1 * b.val = (i 1).val; omega

/-- Every tile's block of the classifier's bias is the whole of it. -/
theorem blk4_6_apply (c : Dev nD) (t : Fin cfg4.N) (a : Fin 1) (b : Fin 1) (i : S1x1.Idx)
    (hi0 : (i 0).val = a.val) (hi1 : (i 1).val = b.val) :
    (iblk4 V c 6 t : Vec Ideal S1x1 .f32) (ix2 a b) = (V c (Pipeline.arrRef spec4 6) : S1x1.Idx → EReal) i := by
  obtain ⟨e0, e1⟩ := idx4_6 t
  show (V c (Pipeline.arrRef spec4 6) : S1x1.Idx → EReal) (((cfg4.win 6).blk t).view.emb (ix2 a b)) = _
  refine congrArg _ (funext fun d => Fin.ext ?_)
  match d with
  | ⟨0, _⟩ => show win4_6.index t (0 : Fin 2) * 1 + 1 * a.val = (i 0).val; omega
  | ⟨1, _⟩ => show win4_6.index t (1 : Fin 2) * 1 + 1 * b.val = (i 1).val; omega

/-- Entry (p, q) of tile t's block of this output is entry (5000 t + p, q) of the output array. -/
theorem emb4_8 (t : Fin cfg4.N) (p : Fin 5000) (q : Fin 1) :
    ((((cfg4.win 8).blk t).view.emb (ix2 p q)) 0).val = t.val * 5000 + p.val
      ∧ ((((cfg4.win 8).blk t).view.emb (ix2 p q)) 1).val = q.val := by
  obtain ⟨e0, e1⟩ := idx4_8 t
  constructor
  · show win4_8.index t (0 : Fin 2) * 5000 + 1 * p.val = _
    omega
  · show win4_8.index t (1 : Fin 2) * 1 + 1 * q.val = _
    omega

/-- An index of this output array is in tile t's block iff each coordinate is in the block's range on its axis. -/
theorem mem_blk4_8 (t : Fin cfg4.N) (i : S100000x1.Idx) :
    i ∈ ((cfg4.win 8).blk t).view.set ↔ ∀ a : Fin 2, win4_8.index t a * S5000x1.size a ≤ (i a).val
      ∧ (i a).val < win4_8.index t a * S5000x1.size a + S5000x1.size a := by
  show i ∈ ((View.whole main_v88_1).slice (win4_8.rect t)).set ↔ _
  rw [View.set_slice_whole, Rect.mem_set_unit]
  exact Iff.rfl

/-- Row r of this output lies in the block of tile r / 5000, which is written back. -/
theorem tiles4_8 (i : S100000x1.Idx) :
    ∃ t : Fin cfg4.N, (cfg4.win 8).flush t = true ∧ i ∈ ((cfg4.win 8).blk t).view.set := by
  have hi0 : (i 0).val < 100000 := (i 0).isLt
  have hi1 : (i 1).val < 1 := (i 1).isLt
  have hN : cfg4.N = 20 := N_4
  have ht : (i 0).val / 5000 < cfg4.N := by rw [hN]; omega
  refine ⟨⟨(i 0).val / 5000, ht⟩, flush4_8 _, ?_⟩
  rw [mem_blk4_8]
  obtain ⟨e0, e1⟩ := idx4_8 ⟨(i 0).val / 5000, ht⟩
  intro a
  match a with
  | ⟨0, _⟩ =>
    show win4_8.index ⟨(i 0).val / 5000, ht⟩ (0 : Fin 2) * 5000 ≤ (i 0).val
      ∧ (i 0).val < win4_8.index ⟨(i 0).val / 5000, ht⟩ (0 : Fin 2) * 5000 + 5000
    rw [e0]
    show (i 0).val / 5000 * 5000 ≤ (i 0).val ∧ (i 0).val < (i 0).val / 5000 * 5000 + 5000
    omega
  | ⟨1, _⟩ =>
    show win4_8.index ⟨(i 0).val / 5000, ht⟩ (1 : Fin 2) * 1 ≤ (i 1).val
      ∧ (i 1).val < win4_8.index ⟨(i 0).val / 5000, ht⟩ (1 : Fin 2) * 1 + 1
    rw [e1]
    omega

/-- What tile t writes back to the classifier output is tile t's block of the classifier of the whole arrays. -/
theorem flushed4_8_eq (c : Dev nD) (t : Fin cfg4.N) :
    (dat4 V c).flushed 8 t = ((cfg4.win 8).blk t).view.read (Elt Ideal) (classHead (V c (Pipeline.arrRef spec4 0)) (V c (Pipeline.arrRef spec4 5)) (V c (Pipeline.arrRef spec4 6))) := by
  show (cfg4.win 8).cut (grid4.coords t) ((dat4 V c).after 8 t) = _
  rw [after4_8, out4_8_eq (iblk4 V c 0 t) (iblk4 V c 1 t) (iblk4 V c 2 t) (iblk4 V c 3 t) (iblk4 V c 4 t) (iblk4 V c 5 t) (iblk4 V c 6 t)]
  funext j
  show k4_pay3 (F := Ideal) (iblk4 V c 0 t) (iblk4 V c 5 t) (iblk4 V c 6 t) j
      = classHead (V c (Pipeline.arrRef spec4 0)) (V c (Pipeline.arrRef spec4 5)) (V c (Pipeline.arrRef spec4 6)) (((cfg4.win 8).blk t).view.emb j)
  obtain ⟨p, q, rfl⟩ : ∃ (p : Fin 5000) (q : Fin 1), j = ix2 p q := ⟨j 0, j 1, eq_ix2 j⟩
  obtain ⟨r0, r1⟩ := emb4_8 t p q
  refine (pay4_3_apply (iblk4 V c 0 t) (iblk4 V c 5 t) (iblk4 V c 6 t) p q).trans ?_
  unfold classHead
  rw [blk4_6_apply V c t (0 : Fin 1) (0 : Fin 1) (ix2 (0 : Fin 1) (0 : Fin 1)) rfl rfl]
  refine congrArg (fun z => z + (V c (Pipeline.arrRef spec4 6) : S1x1.Idx → EReal) (ix2 (0 : Fin 1) (0 : Fin 1)))
    (Finset.sum_congr rfl fun l _ => ?_)
  rw [blk4_0_apply V c t p l (ix2 ((((cfg4.win 8).blk t).view.emb (ix2 p q)) 0) l) r0 rfl, blk4_5_apply V c t l q (ix2 l ((((cfg4.win 8).blk t).view.emb (ix2 p q)) 1)) rfl r1]

/-- The classifier output array after the head's region, whatever the buffers held on entry. -/
theorem head_logits_value (c : Dev nD) :
    (dat4 V c).arrAt 8 cfg4.N = classHead (V c (Pipeline.arrRef spec4 0)) (V c (Pipeline.arrRef spec4 5)) (V c (Pipeline.arrRef spec4 6)) :=
  (dat4 V c).arrAt_eq_of_cover 8 _ (fun t _ => flushed4_8_eq V c t) tiles4_8

end Cert.KernelIdeal.HeadLogits

end
-- ==== Proof.KernelStages.lean ====
/-
  The idealized kernel's result arrays as one composition of its stages. Read from the launch memory forwards: the
  first host stretch prepares the graph's index arrays and normalisation and the folded batch-norm affine pair; the
  first region computes the feature branch and the first layer's linear map; each graph layer is the shared
  aggregation followed by a region computing relu(· + bias) times the next weight; the fourth region blends the two
  branches through the sigmoid gate; the last computes the projection head and the classifier, whose column the last
  host operation flattens. Each region's output array is the whole-array function proved for it, applied to the
  arrays the region found; each carried buffer is read back to where it was produced.
-/
import proofs.«135266_j45973329936474_1_alg».proof.Proof.Carry
import proofs.«135266_j45973329936474_1_alg».proof.Proof.GraphAggregate
import proofs.«135266_j45973329936474_1_alg».proof.Proof.InitialValue
import proofs.«135266_j45973329936474_1_alg».proof.Proof.GateValue
import proofs.«135266_j45973329936474_1_alg».proof.Proof.GcnLayerValue1
import proofs.«135266_j45973329936474_1_alg».proof.Proof.GcnLayerValue2
import proofs.«135266_j45973329936474_1_alg».proof.Proof.HeadValue
import proofs.«135266_j45973329936474_1_alg».proof.Proof.HeadValueLogits

set_option maxRecDepth 16384
set_option maxHeartbeats 4000000

noncomputable section

namespace Cert.KernelIdeal.Stages

open Idealize.ShloMosaic Idealize.ShloMosaic.TcCoe Idealize.ShloMosaic.Tactic Idealize.SL.Sem
open Idealize.ShloMosaic.StableHlo
open Cert.KernelIdeal Cert.KernelIdeal.Gen Cert.KernelIdeal.Carry

/-! ## Congruence of a function of several arrays -/

theorem congr2 {α β γ : Sort*} (f : α → β → γ) {a a' : α} {b b' : β} (ha : a = a') (hb : b = b') : f a b = f a' b' := by
  subst ha hb; rfl
theorem congr3 {α β γ δ : Sort*} (f : α → β → γ → δ) {a a' : α} {b b' : β} {c c' : γ} (ha : a = a') (hb : b = b') (hc : c = c') :
    f a b c = f a' b' c' := by subst ha hb hc; rfl
theorem congr4 {α β γ δ ε : Sort*} (f : α → β → γ → δ → ε) {a a' : α} {b b' : β} {c c' : γ} {d d' : δ}
    (ha : a = a') (hb : b = b') (hc : c = c') (hd : d = d') : f a b c d = f a' b' c' d' := by subst ha hb hc hd; rfl
theorem congr5 {α β γ δ ε ζ : Sort*} (f : α → β → γ → δ → ε → ζ) {a a' : α} {b b' : β} {c c' : γ} {d d' : δ} {e e' : ε}
    (ha : a = a') (hb : b = b') (hc : c = c') (hd : d = d') (he : e = e') : f a b c d e = f a' b' c' d' e' := by
  subst ha hb hc hd he; rfl
theorem congr6 {α β γ δ ε ζ η : Sort*} (f : α → β → γ → δ → ε → ζ → η) {a a' : α} {b b' : β} {c c' : γ} {d d' : δ} {e e' : ε}
    {g g' : ζ} (ha : a = a') (hb : b = b') (hc : c = c') (hd : d = d') (he : e = e') (hg : g = g') :
    f a b c d e g = f a' b' c' d' e' g' := by subst ha hb hc hd he hg; rfl

variable (m : (ℓ : Loc nD τ sig) → Buf (Elt Ideal) ℓ) (ρ : Dev nD → PrngReg)

/-! ## The stages, named -/

/-- The edges' source nodes, destination nodes and symmetric normalisation, as the first host stretch leaves them. -/
abbrev src (c : Dev nD) := W1 m ρ c (Proc.devRef .tc main_v3)
abbrev dst (c : Dev nD) := W1 m ρ c (Proc.devRef .tc main_v6)
abbrev nrm (c : Dev nD) := W1 m ρ c (Proc.devRef .tc main_v26)

/-- The first layer's linear map x · gW0. -/
def hw0K (c : Dev nD) := InitialValue.hw0Of (m ((c : Thread nD τ).loc main_arg0)) (m ((c : Thread nD τ).loc main_arg8))
/-- The feature branch relu((x · W1 + b1) · scale + shift), with the folded affine pair of the first host stretch. -/
def hmlpK (c : Dev nD) := InitialValue.hmlpOf (m ((c : Thread nD τ).loc main_arg0)) (m ((c : Thread nD τ).loc main_arg2))
  (W1 m ρ c (Proc.devRef .tc main_v33)) (W1 m ρ c (Proc.devRef .tc main_v34)) (W1 m ρ c (Proc.devRef .tc main_v35))
def agg0K (c : Dev nD) := Graph.aggregate (F := Ideal) (src m ρ c) (dst m ρ c) (nrm m ρ c) (hw0K m c)
def hw1K (c : Dev nD) := GcnLayer1.gcnDense (agg0K m ρ c) (W1 m ρ c (Proc.devRef .tc main_v36)) (m ((c : Thread nD τ).loc main_arg10))
def agg1K (c : Dev nD) := Graph.aggregate (F := Ideal) (src m ρ c) (dst m ρ c) (nrm m ρ c) (hw1K m ρ c)
def hw2K (c : Dev nD) := GcnLayer2.gcnDense (agg1K m ρ c) (W1 m ρ c (Proc.devRef .tc main_v37)) (m ((c : Thread nD τ).loc main_arg12))
def agg2K (c : Dev nD) := Graph.aggregate (F := Ideal) (src m ρ c) (dst m ρ c) (nrm m ρ c) (hw2K m ρ c)
/-- The gated blend of the graph branch relu(agg2 + gb2) and the feature branch. -/
def fusedK (c : Dev nD) := GateValue.fusedOf (agg2K m ρ c) (W1 m ρ c (Proc.devRef .tc main_v38)) (hmlpK m ρ c)
  (W1 m ρ c (Proc.devRef .tc main_v43)) (W1 m ρ c (Proc.devRef .tc main_v44)) (W1 m ρ c (Proc.devRef .tc main_v39))
def zprojK (c : Dev nD) := HeadProj.projHead (fusedK m ρ c) (m ((c : Thread nD τ).loc main_arg16)) (W1 m ρ c (Proc.devRef .tc main_v40))
  (m ((c : Thread nD τ).loc main_arg18)) (W1 m ρ c (Proc.devRef .tc main_v41))
def logitColK (c : Dev nD) := HeadLogits.classHead (fusedK m ρ c) (m ((c : Thread nD τ).loc main_arg20)) (W1 m ρ c (Proc.devRef .tc main_v42))

/-! ## Each boundary holds its stage -/

theorem hw0_eq (c : Dev nD) : W2 m ρ c (Proc.devRef .tc main_v45_1) = hw0K m c :=
  (W2_arr m ρ c 7).trans ((InitialValue.hw0_final (V1 m ρ) c).trans
    (congr2 InitialValue.hw0Of (arg0_W1_W0 m ρ c) (arg8_W1_W0 m ρ c)))

theorem hmlp_eq (c : Dev nD) : W2 m ρ c (Proc.devRef .tc main_v45_0) = hmlpK m ρ c :=
  (W2_arr m ρ c 6).trans ((InitialValue.hmlp_final (V1 m ρ) c).trans
    (congr5 InitialValue.hmlpOf (arg0_W1_W0 m ρ c) (arg2_W1_W0 m ρ c) rfl rfl rfl))

theorem agg0_raw (c : Dev nD) : W3 m ρ c (Proc.devRef .tc main_v58) =
    Graph.aggregate (F := Ideal) (W2 m ρ c (Proc.devRef .tc main_v3)) (W2 m ρ c (Proc.devRef .tc main_v6))
      (W2 m ρ c (Proc.devRef .tc main_v26)) (W2 m ρ c (Proc.devRef .tc main_v45_1)) := by
  dsimp only [W3]
  after_results_simp
  rfl

theorem agg0_eq (c : Dev nD) : W3 m ρ c (Proc.devRef .tc main_v58) = agg0K m ρ c :=
  (agg0_raw m ρ c).trans (congr4 (Graph.aggregate (F := Ideal)) (v3_W2_W1 m ρ c) (v6_W2_W1 m ρ c) (v26_W2_W1 m ρ c) (hw0_eq m ρ c))

theorem hw1_eq (c : Dev nD) : W4 m ρ c (Proc.devRef .tc main_v59) = hw1K m ρ c :=
  (W4_arr m ρ c 3).trans ((GcnLayer1.gcnLayer1_value (V3 m ρ) c).trans
    (congr3 GcnLayer1.gcnDense (agg0_eq m ρ c) (v36_W3_W1 m ρ c) (arg10_W3_W0 m ρ c)))

theorem agg1_raw (c : Dev nD) : W5 m ρ c (Proc.devRef .tc main_v72) =
    Graph.aggregate (F := Ideal) (W4 m ρ c (Proc.devRef .tc main_v3)) (W4 m ρ c (Proc.devRef .tc main_v6))
      (W4 m ρ c (Proc.devRef .tc main_v26)) (W4 m ρ c (Proc.devRef .tc main_v59)) := by
  dsimp only [W5]
  after_results_simp
  rfl

theorem agg1_eq (c : Dev nD) : W5 m ρ c (Proc.devRef .tc main_v72) = agg1K m ρ c :=
  (agg1_raw m ρ c).trans (congr4 (Graph.aggregate (F := Ideal)) (v3_W4_W1 m ρ c) (v6_W4_W1 m ρ c) (v26_W4_W1 m ρ c) (hw1_eq m ρ c))

theorem hw2_eq (c : Dev nD) : W6 m ρ c (Proc.devRef .tc main_v73) = hw2K m ρ c :=
  (W6_arr m ρ c 3).trans ((GcnLayer2.gcnLayer2_value (V5 m ρ) c).trans
    (congr3 GcnLayer2.gcnDense (agg1_eq m ρ c) (v37_W5_W1 m ρ c) (arg12_W5_W0 m ρ c)))

theorem agg2_raw (c : Dev nD) : W7 m ρ c (Proc.devRef .tc main_v86) =
    Graph.aggregate (F := Ideal) (W6 m ρ c (Proc.devRef .tc main_v3)) (W6 m ρ c (Proc.devRef .tc main_v6))
      (W6 m ρ c (Proc.devRef .tc main_v26)) (W6 m ρ c (Proc.devRef .tc main_v73)) := by
  dsimp only [W7]
  after_results_simp
  rfl

theorem agg2_eq (c : Dev nD) : W7 m ρ c (Proc.devRef .tc main_v86) = agg2K m ρ c :=
  (agg2_raw m ρ c).trans (congr4 (Graph.aggregate (F := Ideal)) (v3_W6_W1 m ρ c) (v6_W6_W1 m ρ c) (v26_W6_W1 m ρ c) (hw2_eq m ρ c))

theorem fused_eq (c : Dev nD) : W8 m ρ c (Proc.devRef .tc main_v87) = fusedK m ρ c :=
  (W8_arr m ρ c 6).trans ((GateValue.fused_final (V7 m ρ) c).trans
    (congr6 GateValue.fusedOf (agg2_eq m ρ c) (v38_W7_W1 m ρ c) ((v45_0_W7_W2 m ρ c).trans (hmlp_eq m ρ c))
      (v43_W7_W1 m ρ c) (v44_W7_W1 m ρ c) (v39_W7_W1 m ρ c)))

/-- The projection head's array at the end of the run. -/
theorem zproj_eq (c : Dev nD) : W10 m ρ c (Proc.devRef .tc main_v88_0) = zprojK m ρ c :=
  (v88_0_W10_W9 m ρ c).trans ((W9_arr m ρ c 7).trans ((HeadProj.head_zproj_value (V8 m ρ) c).trans
    (congr5 HeadProj.projHead (fused_eq m ρ c) (arg16_W8_W0 m ρ c) (v40_W8_W1 m ρ c) (arg18_W8_W0 m ρ c) (v41_W8_W1 m ρ c))))

/-- The classifier's column when the last region ends. -/
theorem logitCol_eq (c : Dev nD) : W9 m ρ c (Proc.devRef .tc main_v88_1) = logitColK m ρ c :=
  (W9_arr m ρ c 8).trans ((HeadLogits.head_logits_value (V8 m ρ) c).trans
    (congr3 HeadLogits.classHead (fused_eq m ρ c) (arg20_W8_W0 m ρ c) (v42_W8_W1 m ρ c)))

end Cert.KernelIdeal.Stages

end
-- ==== Proof.GraphBridge.lean ====
/-
  The graph parts of the two programs are one computation. Both build the edge list with self-loops from the same
  integer array, the degrees by summing ones into destinations, the symmetric normalisation from the reciprocal
  square roots of the degrees gathered at both ends of each edge; and both aggregate a layer's features with the
  same gather, scale and scatter-sum. The kernel does this in host operations between its regions, the reference in
  its one host program: the same operations, applied to the same array, so the results are equal with nothing opened.
-/
import proofs.«135266_j45973329936474_1_alg».proof.Proof.KernelStages
import proofs.«135266_j45973329936474_1_alg».proof.Proof.Gen.ReferenceIdeal.Read

set_option maxRecDepth 16384
set_option maxHeartbeats 4000000

noncomputable section

namespace Cert.GraphBridge

open Idealize.ShloMosaic Idealize.ShloMosaic.TcCoe Idealize.ShloMosaic.Tactic Idealize.SL.Sem
open Idealize.ShloMosaic.StableHlo
open Cert.KernelIdeal Cert.KernelIdeal.Gen
open Cert.ReferenceIdeal.Read (val_main_v3 val_main_v6 val_main_v26 val_main_v47 val_main_v60 val_main_v65 val_main_v78 val_main_v83 val_main_v96)

variable (m : (ℓ : Loc nD τ sig) → Buf (Elt Ideal) ℓ) (ρ : Dev nD → PrngReg)

/-- The kernel's source-node array is the reference's, of the same edge array. -/
theorem src_eq (c : Dev nD) : Stages.src m ρ c = val_main_v3 (F := Ideal) (m ((c : Thread nD τ).loc main_arg1)) := by
  dsimp only [Stages.src, W1]
  after_results_simp
  rfl

/-- The kernel's destination-node array is the reference's. -/
theorem dst_eq (c : Dev nD) : Stages.dst m ρ c = val_main_v6 (F := Ideal) (m ((c : Thread nD τ).loc main_arg1)) := by
  dsimp only [Stages.dst, W1]
  after_results_simp
  rfl

/-- The kernel's per-edge normalisation is the reference's. -/
theorem nrm_eq (c : Dev nD) : Stages.nrm m ρ c = val_main_v26 (F := Ideal) (m ((c : Thread nD τ).loc main_arg1)) := by
  dsimp only [Stages.nrm, W1]
  after_results_simp
  rfl

section Ref
variable (x0 : (⟨Cert.ReferenceIdeal.S100000x128, .f32⟩ : BufTy).Contents (Elt Ideal))
  (x1 : (⟨Cert.ReferenceIdeal.S2x1200000, .i32⟩ : BufTy).Contents (Elt Ideal))
  (x8 : (⟨Cert.ReferenceIdeal.S128x64, .f32⟩ : BufTy).Contents (Elt Ideal))
  (x9 x11 : (⟨Cert.ReferenceIdeal.S64, .f32⟩ : BufTy).Contents (Elt Ideal))
  (x10 x12 : (⟨Cert.ReferenceIdeal.S64x64, .f32⟩ : BufTy).Contents (Elt Ideal))

/-- The reference's first aggregation is the shared one of its first linear map. -/
theorem agg0_ref : val_main_v60 (F := Ideal) x0 x1 x8 =
    Graph.aggregate (F := Ideal) (val_main_v3 (F := Ideal) x1) (val_main_v6 (F := Ideal) x1) (val_main_v26 (F := Ideal) x1)
      (val_main_v47 (F := Ideal) x0 x8) := rfl

/-- The reference's second aggregation is the shared one of its second linear map. -/
theorem agg1_ref : val_main_v78 (F := Ideal) x0 x1 x8 x9 x10 =
    Graph.aggregate (F := Ideal) (val_main_v3 (F := Ideal) x1) (val_main_v6 (F := Ideal) x1) (val_main_v26 (F := Ideal) x1)
      (val_main_v65 (F := Ideal) x0 x1 x8 x9 x10) := rfl

/-- The reference's third aggregation is the shared one of its third linear map. -/
theorem agg2_ref : val_main_v96 (F := Ideal) x0 x1 x8 x9 x10 x11 x12 =
    Graph.aggregate (F := Ideal) (val_main_v3 (F := Ideal) x1) (val_main_v6 (F := Ideal) x1) (val_main_v26 (F := Ideal) x1)
      (val_main_v83 (F := Ideal) x0 x1 x8 x9 x10 x11 x12) := rfl
end Ref

end Cert.GraphBridge

end
-- ==== Proof.RefGate.lean ====
/- The reference's gate stage, read as one function of the two branches it blends.
   The two 64-column branches are set side by side into 128 columns and multiplied by the 128 x 1 gate weights; since a
   sum over the 128 columns is the sum over the first 64 plus the sum over the last 64, that product is the first branch
   against rows 0..63 of the weights plus the second against rows 64..127. The bias is added, the printed
   1 / (1 + exp (-x)) is the logistic function, and the result is one gate g per row; the stage's value at (r, j) is
   g r times the second branch plus (1 - g r) times the first. Besides that splitting of a sum (which holds in any
   commutative monoid, so no input needs to be finite) the proof uses how a concatenation is read at an index, and that
   the float word 0x3F800000 is the number one, which is what makes the printed expression the logistic function. -/
import proofs.«135266_j45973329936474_1_alg».proof.Proof.Gen.ReferenceIdeal.Read
import Idealize.ShloMosaic.Lib.Pipeline.Value
import Idealize.ShloMosaic.Lib.ValueIdx
import Idealize.ShloMosaic.Lib.IdealHost
import Idealize.ShloMosaic.PureOps.Ideal.Laws

noncomputable section

open scoped BigOperators

namespace Cert.ReferenceIdeal.RefGate

open Cert.ReferenceIdeal Cert.ReferenceIdeal.Gen Cert.ReferenceIdeal.Read Idealize.ShloMosaic Idealize.ShloMosaic.TcCoe Idealize.SL.Sem Idealize.ShloMosaic.StableHlo
open Idealize.ShloMosaic.ValueIdx

/-- A bias vector added along every row, then clipped below at zero. -/
def reluBias (agg : S100000x64.Idx → EReal) (b : S64.Idx → EReal) : S100000x64.Idx → EReal :=
  fun i => max (agg i + b (ix1 (i 1))) 0

/-- The gate of row r: the logistic function of the row of hm against rows 0..63 of the gate weights, plus the row of
    hg against rows 64..127, plus the gate bias. -/
def gateAt (hm hg : S100000x64.Idx → EReal) (gW : S128x1.Idx → EReal) (gb : S1.Idx → EReal) (r : Fin 100000) : EReal :=
  Ideal.logistic ((∑ k : Fin 64, hm (ix2 r k) * gW (ix2 (Fin.castAdd 64 k : Fin 128) (0 : Fin 1)))
    + (∑ k : Fin 64, hg (ix2 r k) * gW (ix2 (Fin.natAdd 64 k : Fin 128) (0 : Fin 1))) + gb (ix1 (0 : Fin 1)))

/-- The gated blend: gate * hg + (1 - gate) * hm, the gate one number per row. -/
def fused (hm hg : S100000x64.Idx → EReal) (gW : S128x1.Idx → EReal) (gb : S1.Idx → EReal) : S100000x64.Idx → EReal :=
  fun i => gateAt hm hg gW gb (i 0) * hg i + (Ideal.ofBits .f32 0x3F800000#32 - gateAt hm hg gW gb (i 0)) * hm i

/-- A row of two 64-column pieces set side by side, against a 128-row column: the sum over the 128 columns splits
    into the first piece against rows 0..63 and the second against rows 64..127. -/
theorem concat_row_dot (y1 y2 : S100000x64.Idx → EReal)
    (h : Shape.Concatenates [S100000x64, S100000x64] S100000x128 1) (gW : S128x1.Idx → EReal) (r : Fin 100000) (c : Fin 1) :
    ∑ k : Fin 128, concatenate S100000x128 1 [⟨S100000x64, y1⟩, ⟨S100000x64, y2⟩] h (ix2 r k) * gW (ix2 k c)
      = (∑ k : Fin 64, y1 (ix2 r k) * gW (ix2 (Fin.castAdd 64 k : Fin 128) c))
        + ∑ k : Fin 64, y2 (ix2 r k) * gW (ix2 (Fin.natAdd 64 k : Fin 128) c) := by
  refine (Fin.sum_univ_add (a := 64) (b := 64) (fun k : Fin 128 =>
    concatenate S100000x128 1 [⟨S100000x64, y1⟩, ⟨S100000x64, y2⟩] h (ix2 r k) * gW (ix2 k c))).trans ?_
  congr 1 <;> refine Finset.sum_congr rfl fun k _ => ?_
  · rw [concatenate_pair_apply_left 1 y1 y2 h (ix2 r (Fin.castAdd 64 k : Fin 128)) rfl (ix2 r k)
      (fun b => by match b with | ⟨0, _⟩ => rfl | ⟨1, _⟩ => rfl)]
  · rw [concatenate_pair_apply_right 1 y1 y2 h (ix2 r (Fin.natAdd 64 k : Fin 128)) rfl rfl (ix2 r k)
      (fun b hb => by match b with | ⟨0, _⟩ => rfl | ⟨1, _⟩ => exact absurd rfl hb)
      (by show k.val + 64 = 64 + k.val; omega)]

theorem lidx102_eq (i : S100000x1.Idx) (k : Fin 128) : lidx_main_v102 i k = ix2 (i 0) k :=
  funext fun a => by match a with | ⟨0, _⟩ => rfl | ⟨1, _⟩ => rfl
theorem ridx102_eq (i : S100000x1.Idx) (k : Fin 128) : ridx_main_v102 i k = ix2 k (i 1) :=
  funext fun a => by match a with | ⟨0, _⟩ => rfl | ⟨1, _⟩ => rfl
theorem idx112_eq (i : S100000x64.Idx) : idx_main_v112 i = ix2 (i 0 : Fin 100000) (0 : Fin 1) :=
  funext fun a => by match a with | ⟨0, _⟩ => rfl | ⟨1, _⟩ => rfl
theorem idx103_eq (i : S100000x1.Idx) : idx_main_v103 (idx_main_v104 i) = ix1 (0 : Fin 1) :=
  funext fun a => by match a with | ⟨0, _⟩ => rfl
theorem idx97_eq (i : S100000x64.Idx) : idx_main_v97 (idx_main_v98 i) = ix1 (i 1) :=
  funext fun a => by match a with | ⟨0, _⟩ => rfl

variable (x0 : (⟨S100000x128, .f32⟩ : BufTy).Contents (Elt Ideal)) (x1 : (⟨S2x1200000, .i32⟩ : BufTy).Contents (Elt Ideal)) (x2 : (⟨S128x64, .f32⟩ : BufTy).Contents (Elt Ideal))
  (x3 x4 x5 x6 x7 : (⟨S64, .f32⟩ : BufTy).Contents (Elt Ideal)) (x8 : (⟨S128x64, .f32⟩ : BufTy).Contents (Elt Ideal)) (x9 : (⟨S64, .f32⟩ : BufTy).Contents (Elt Ideal))
  (x10 : (⟨S64x64, .f32⟩ : BufTy).Contents (Elt Ideal)) (x11 : (⟨S64, .f32⟩ : BufTy).Contents (Elt Ideal)) (x12 : (⟨S64x64, .f32⟩ : BufTy).Contents (Elt Ideal)) (x13 : (⟨S64, .f32⟩ : BufTy).Contents (Elt Ideal))
  (x14 : (⟨S128x1, .f32⟩ : BufTy).Contents (Elt Ideal)) (x15 : (⟨S1, .f32⟩ : BufTy).Contents (Elt Ideal))

/-- Buffer %100: the third aggregation plus its bias, clipped below at zero. -/
theorem hg_eq : val_main_v100 (F := Ideal) x0 x1 x8 x9 x10 x11 x12 x13 = reluBias (val_main_v96 (F := Ideal) x0 x1 x8 x9 x10 x11 x12) x13 := by
  funext i
  rw [val_main_v100_apply, val_main_v99_apply, val_main_v98_apply, val_main_v97_apply, idx97_eq,
    val_main_call3_v0_apply, val_main_call3_cst_apply]
  show max (val_main_v96 (F := Ideal) x0 x1 x8 x9 x10 x11 x12 i + x13 (ix1 (i 1))) (Ideal.ofBits .f32 0x00000000#32) = _
  rw [Ideal.ofBits_zero_f32]
  rfl

/-- Buffer %105, the gate's argument, at row r. -/
theorem pre_apply (r : Fin 100000) :
    val_main_v105 (F := Ideal) x0 x1 x2 x3 x4 x5 x6 x7 x8 x9 x10 x11 x12 x13 x14 x15 (ix2 r (0 : Fin 1))
      = (∑ k : Fin 64, val_main_v46 (F := Ideal) x0 x2 x3 x4 x5 x6 x7 (ix2 r k) * x14 (ix2 (Fin.castAdd 64 k : Fin 128) (0 : Fin 1)))
        + (∑ k : Fin 64, val_main_v100 (F := Ideal) x0 x1 x8 x9 x10 x11 x12 x13 (ix2 r k) * x14 (ix2 (Fin.natAdd 64 k : Fin 128) (0 : Fin 1)))
        + x15 (ix1 (0 : Fin 1)) := by
  rw [val_main_v105_apply, val_main_v104_apply, val_main_v103_apply, idx103_eq, val_main_v102_apply]
  simp only [lidx102_eq, ridx102_eq]
  unfold val_main_v101
  exact congrArg (fun z => z + x15 (ix1 (0 : Fin 1)))
    (concat_row_dot (val_main_v46 (F := Ideal) x0 x2 x3 x4 x5 x6 x7) (val_main_v100 (F := Ideal) x0 x1 x8 x9 x10 x11 x12 x13)
      concatenates_S100000x64_S100000x64_S100000x128_d1 x14 r (0 : Fin 1))

/-- Buffer %111, the gate, at row r. -/
theorem gate_apply (r : Fin 100000) :
    val_main_v111 (F := Ideal) x0 x1 x2 x3 x4 x5 x6 x7 x8 x9 x10 x11 x12 x13 x14 x15 (ix2 r (0 : Fin 1))
      = gateAt (val_main_v46 (F := Ideal) x0 x2 x3 x4 x5 x6 x7) (val_main_v100 (F := Ideal) x0 x1 x8 x9 x10 x11 x12 x13) x14 x15 r := by
  rw [val_main_v111_apply, val_main_v110_apply, val_main_cst_15_apply, val_main_v109_apply, val_main_v108_apply,
    val_main_cst_14_apply, val_main_v107_apply, val_main_v106_apply, pre_apply]
  have one : (FloatOps.ofBits .f32 0x3F800000#32 : Ideal .f32) = 1 := Ideal.ofBits_one_f32
  rw [one]
  rfl

/-- The gate as buffers %112 and %116 read it: one number per row, at the row of the index. -/
theorem gate_at112 (i : S100000x64.Idx) :
    val_main_v111 (F := Ideal) x0 x1 x2 x3 x4 x5 x6 x7 x8 x9 x10 x11 x12 x13 x14 x15 (idx_main_v112 i)
      = gateAt (val_main_v46 (F := Ideal) x0 x2 x3 x4 x5 x6 x7) (val_main_v100 (F := Ideal) x0 x1 x8 x9 x10 x11 x12 x13) x14 x15 (i 0) := by
  rw [idx112_eq]
  exact gate_apply x0 x1 x2 x3 x4 x5 x6 x7 x8 x9 x10 x11 x12 x13 x14 x15 (i 0)

/-- Buffer %118, the gated blend: buffer %111's gate of the row times buffer %100, plus one minus that gate times
    buffer %46. -/
theorem fused_eq :
    val_main_v118 (F := Ideal) x0 x1 x2 x3 x4 x5 x6 x7 x8 x9 x10 x11 x12 x13 x14 x15
      = fused (val_main_v46 (F := Ideal) x0 x2 x3 x4 x5 x6 x7) (val_main_v100 (F := Ideal) x0 x1 x8 x9 x10 x11 x12 x13) x14 x15 := by
  funext i
  rw [val_main_v118_apply, val_main_v113_apply, val_main_v117_apply, val_main_v112_apply, val_main_v116_apply,
    val_main_v115_apply, val_main_v114_apply, val_main_cst_16_apply, gate_at112]
  rfl

/-- The same with buffer %100 spelled out as the third aggregation plus its bias, clipped below at zero. -/
theorem fused_eq' :
    val_main_v118 (F := Ideal) x0 x1 x2 x3 x4 x5 x6 x7 x8 x9 x10 x11 x12 x13 x14 x15
      = fused (val_main_v46 (F := Ideal) x0 x2 x3 x4 x5 x6 x7) (reluBias (val_main_v96 (F := Ideal) x0 x1 x8 x9 x10 x11 x12) x13) x14 x15 := by
  rw [fused_eq, hg_eq]

end Cert.ReferenceIdeal.RefGate

end
-- ==== Proof.DenseForms.lean ====
/-
  The two programs' dense stages are the same functions in two spellings. The kernel reads a bias as a 1 × n row,
  the gate's weight as two 64 × 1 halves, and the gate's scalar bias as a 1 × 1 array; the reference reads the
  bias as a vector, the gate's weight as one 128 × 1 column and its bias as a vector of one entry. Whenever the
  rows are those vectors read at the same positions, each stage of one program is the stage of the other, term by
  term: no law of arithmetic is used beyond rewriting equal entries.
-/
import proofs.«135266_j45973329936474_1_alg».proof.Proof.GcnLayerValue1
import proofs.«135266_j45973329936474_1_alg».proof.Proof.GcnLayerValue2
import proofs.«135266_j45973329936474_1_alg».proof.Proof.GateValue
import proofs.«135266_j45973329936474_1_alg».proof.Proof.HeadValue
import proofs.«135266_j45973329936474_1_alg».proof.Proof.HeadValueLogits
import proofs.«135266_j45973329936474_1_alg».proof.Proof.RefGate
import Idealize.ShloMosaic.Lib.ValueIdx

set_option maxRecDepth 16384

noncomputable section

namespace Cert.DenseForms

open Idealize.ShloMosaic Idealize.ShloMosaic.ValueIdx
open Cert.KernelIdeal

/-- A graph layer's linear map with its bias read as a row is the one with the bias read as a vector. -/
theorem gcnDense1_form (A : S100000x64.Idx → EReal) (br : S1x64.Idx → EReal) (b : S64.Idx → EReal) (W : S64x64.Idx → EReal)
    (hb : ∀ k : Fin 64, br (ix2 (0 : Fin 1) k) = b (ix1 k)) :
    GcnLayer1.gcnDense A br W = fun i => ∑ k : Fin 64, max (A (ix2 (i 0) k) + b (ix1 k)) 0 * W (ix2 k (i 1)) := by
  funext i
  unfold GcnLayer1.gcnDense
  exact Finset.sum_congr rfl fun k _ => by rw [hb k]

theorem gcnDense2_form (A : S100000x64.Idx → EReal) (br : S1x64.Idx → EReal) (b : S64.Idx → EReal) (W : S64x64.Idx → EReal)
    (hb : ∀ k : Fin 64, br (ix2 (0 : Fin 1) k) = b (ix1 k)) :
    GcnLayer2.gcnDense A br W = fun i => ∑ k : Fin 64, max (A (ix2 (i 0) k) + b (ix1 k)) 0 * W (ix2 k (i 1)) := by
  funext i
  unfold GcnLayer2.gcnDense
  exact Finset.sum_congr rfl fun k _ => by rw [hb k]

/-- The gated blend: the graph branch relu(agg + bias), the gate's two half-columns and its scalar bias, read either way. -/
theorem fused_form (agg hm : S100000x64.Idx → EReal) (gb2r : S1x64.Idx → EReal) (gw1 gw2 : S64x1.Idx → EReal)
    (gbr : S1x1.Idx → EReal) (b : S64.Idx → EReal) (gW : S128x1.Idx → EReal) (gb : S1.Idx → EReal)
    (h1 : ∀ q : Fin 64, gb2r (ix2 (0 : Fin 1) q) = b (ix1 q))
    (h2 : ∀ k : Fin 64, gw1 (ix2 k (0 : Fin 1)) = gW (ix2 (Fin.castAdd 64 k : Fin 128) (0 : Fin 1)))
    (h3 : ∀ k : Fin 64, gw2 (ix2 k (0 : Fin 1)) = gW (ix2 (Fin.natAdd 64 k : Fin 128) (0 : Fin 1)))
    (h4 : gbr (ix2 (0 : Fin 1) (0 : Fin 1)) = gb (ix1 (0 : Fin 1))) :
    GateValue.fusedOf agg gb2r hm gw1 gw2 gbr
      = Cert.ReferenceIdeal.RefGate.fused hm (Cert.ReferenceIdeal.RefGate.reluBias agg b) gW gb := by
  have hg : ∀ (r : Fin 100000) (q : Fin 64),
      GateValue.hgAt agg gb2r r q = Cert.ReferenceIdeal.RefGate.reluBias agg b (ix2 r q) := fun r q => by
    unfold GateValue.hgAt Cert.ReferenceIdeal.RefGate.reluBias
    rw [h1 q]
  have hgate : ∀ r : Fin 100000, GateValue.gateAt agg gb2r hm gw1 gw2 gbr r
      = Cert.ReferenceIdeal.RefGate.gateAt hm (Cert.ReferenceIdeal.RefGate.reluBias agg b) gW gb r := fun r => by
    unfold GateValue.gateAt Cert.ReferenceIdeal.RefGate.gateAt
    simp only [hg, h2, h3, h4]
  funext i
  obtain ⟨r, q, rfl⟩ : ∃ (r : Fin 100000) (q : Fin 64), i = ix2 r q := ⟨i 0, i 1, eq_ix2 i⟩
  unfold GateValue.fusedOf Cert.ReferenceIdeal.RefGate.fused
  show GateValue.gateAt agg gb2r hm gw1 gw2 gbr r * GateValue.hgAt agg gb2r r q
      + (Ideal.ofBits .f32 0x3F800000#32 - GateValue.gateAt agg gb2r hm gw1 gw2 gbr r) * hm (ix2 r q) = _
  rw [hgate r, hg r q]

/-- The projection head with its two biases read as rows or as vectors. -/
theorem projHead_form (hf : S100000x64.Idx → EReal) (pW1 : S64x64.Idx → EReal) (pb1r : S1x64.Idx → EReal)
    (pW2 : S64x32.Idx → EReal) (pb2r : S1x32.Idx → EReal) (b1 : S64.Idx → EReal) (b2 : S32.Idx → EReal)
    (h1 : ∀ k : Fin 64, pb1r (ix2 (0 : Fin 1) k) = b1 (ix1 k)) (h2 : ∀ q : Fin 32, pb2r (ix2 (0 : Fin 1) q) = b2 (ix1 q)) :
    HeadProj.projHead hf pW1 pb1r pW2 pb2r = fun i =>
      (∑ k : Fin 64, max ((∑ j : Fin 64, hf (ix2 (i 0) j) * pW1 (ix2 j k)) + b1 (ix1 k)) 0 * pW2 (ix2 k (i 1))) + b2 (ix1 (i 1)) := by
  funext i
  obtain ⟨r, q, rfl⟩ : ∃ (r : Fin 100000) (q : Fin 32), i = ix2 r q := ⟨i 0, i 1, eq_ix2 i⟩
  unfold HeadProj.projHead
  show (∑ k : Fin 64, max ((∑ l : Fin 64, hf (ix2 r l) * pW1 (ix2 l k)) + pb1r (ix2 (0 : Fin 1) k)) 0 * pW2 (ix2 k q))
      + pb2r (ix2 (0 : Fin 1) q) = _
  rw [h2 q]
  simp only [h1]

/-- The classifier's column, flattened: entry r is the r-th row of the features against the weight column, plus the bias. -/
theorem classHead_form (hf : S100000x64.Idx → EReal) (cW : S64x1.Idx → EReal) (cbr : S1x1.Idx → EReal) (cb : S1.Idx → EReal)
    (h : cbr (ix2 (0 : Fin 1) (0 : Fin 1)) = cb (ix1 (0 : Fin 1))) (r : Fin 100000) :
    HeadLogits.classHead hf cW cbr (ix2 r (0 : Fin 1))
      = (∑ k : Fin 64, hf (ix2 r k) * cW (ix2 k (0 : Fin 1))) + cb (ix1 (0 : Fin 1)) := by
  unfold HeadLogits.classHead
  show (∑ l : Fin 64, hf (ix2 r l) * cW (ix2 l (0 : Fin 1))) + cbr (ix2 (0 : Fin 1) (0 : Fin 1)) = _
  rw [h]

end Cert.DenseForms

end
-- ==== Proof.RefDense.lean ====
/- The dense stages of the reference program, each read at an index as an explicit function of the stage before it.

   The reference interleaves dense linear algebra (products with weight matrices, bias rows broadcast down the rows,
   relu, the batch normalisation of the feature branch) with three graph aggregations (a gather along the edges, a scaling and
   a scatter-add). The aggregations' results stay opaque here. Every dense stage is a composition of pointwise operations, of
   broadcasts of a length-n vector to an [N, n] array (entry (r, q) reads entry q) and of products with a matrix (entry
   (r, q) is the sum over k of the left operand's (r, k) times the right operand's (k, q)); reading the composition at an
   index gives the closed forms below. -/
import proofs.«135266_j45973329936474_1_alg».proof.Proof.Gen.ReferenceIdeal.Read
import Idealize.ShloMosaic.Lib.ValueIdx
import Idealize.ShloMosaic.PureOps.Ideal.Laws
import Idealize.ShloMosaic.Lib.Pipeline.Value

noncomputable section

open scoped BigOperators
open Idealize.ShloMosaic Idealize.ShloMosaic.ValueIdx

namespace Cert.ReferenceIdeal.RefDense

open Cert.ReferenceIdeal Cert.ReferenceIdeal.Gen Cert.ReferenceIdeal.Read

variable (x0 : (⟨S100000x128, .f32⟩ : BufTy).Contents (Elt Ideal)) (x1 : (⟨S2x1200000, .i32⟩ : BufTy).Contents (Elt Ideal))
  (x2 : (⟨S128x64, .f32⟩ : BufTy).Contents (Elt Ideal)) (x3 x4 x5 x6 x7 : (⟨S64, .f32⟩ : BufTy).Contents (Elt Ideal)) (x8 : (⟨S128x64, .f32⟩ : BufTy).Contents (Elt Ideal)) (x9 : (⟨S64, .f32⟩ : BufTy).Contents (Elt Ideal)) (x10 : (⟨S64x64, .f32⟩ : BufTy).Contents (Elt Ideal))
  (x11 : (⟨S64, .f32⟩ : BufTy).Contents (Elt Ideal)) (x12 : (⟨S64x64, .f32⟩ : BufTy).Contents (Elt Ideal)) (x13 : (⟨S64, .f32⟩ : BufTy).Contents (Elt Ideal)) (x14 : (⟨S128x1, .f32⟩ : BufTy).Contents (Elt Ideal)) (x15 : (⟨S1, .f32⟩ : BufTy).Contents (Elt Ideal))
  (x16 : (⟨S64x64, .f32⟩ : BufTy).Contents (Elt Ideal)) (x17 : (⟨S64, .f32⟩ : BufTy).Contents (Elt Ideal)) (x18 : (⟨S64x32, .f32⟩ : BufTy).Contents (Elt Ideal)) (x19 : (⟨S32, .f32⟩ : BufTy).Contents (Elt Ideal)) (x20 : (⟨S64x1, .f32⟩ : BufTy).Contents (Elt Ideal)) (x21 : (⟨S1, .f32⟩ : BufTy).Contents (Elt Ideal))

/-! ## The printed index functions are the coordinate constructors -/

theorem lidx27 (i : S100000x64.Idx) (k : Fin 128) : lidx_main_v27 i k = ix2 (i 0) k :=
  funext fun a => Fin.ext (by
    match a with
    | ⟨0, _⟩ => rfl
    | ⟨1, _⟩ => rfl)
theorem ridx27 (i : S100000x64.Idx) (k : Fin 128) : ridx_main_v27 i k = ix2 k (i 1) :=
  funext fun a => Fin.ext (by
    match a with
    | ⟨0, _⟩ => rfl
    | ⟨1, _⟩ => rfl)
theorem lidx47 (i : S100000x64.Idx) (k : Fin 128) : lidx_main_v47 i k = ix2 (i 0) k :=
  funext fun a => Fin.ext (by
    match a with
    | ⟨0, _⟩ => rfl
    | ⟨1, _⟩ => rfl)
theorem ridx47 (i : S100000x64.Idx) (k : Fin 128) : ridx_main_v47 i k = ix2 k (i 1) :=
  funext fun a => Fin.ext (by
    match a with
    | ⟨0, _⟩ => rfl
    | ⟨1, _⟩ => rfl)
theorem lidx65 (i : S100000x64.Idx) (k : Fin 64) : lidx_main_v65 i k = ix2 (i 0) k :=
  funext fun a => Fin.ext (by
    match a with
    | ⟨0, _⟩ => rfl
    | ⟨1, _⟩ => rfl)
theorem ridx65 (i : S100000x64.Idx) (k : Fin 64) : ridx_main_v65 i k = ix2 k (i 1) :=
  funext fun a => Fin.ext (by
    match a with
    | ⟨0, _⟩ => rfl
    | ⟨1, _⟩ => rfl)
theorem lidx83 (i : S100000x64.Idx) (k : Fin 64) : lidx_main_v83 i k = ix2 (i 0) k :=
  funext fun a => Fin.ext (by
    match a with
    | ⟨0, _⟩ => rfl
    | ⟨1, _⟩ => rfl)
theorem ridx83 (i : S100000x64.Idx) (k : Fin 64) : ridx_main_v83 i k = ix2 k (i 1) :=
  funext fun a => Fin.ext (by
    match a with
    | ⟨0, _⟩ => rfl
    | ⟨1, _⟩ => rfl)
theorem ridx124 (i : S100000x32.Idx) (k : Fin 64) : ridx_main_v124 i k = ix2 k (i 1) :=
  funext fun a => Fin.ext (by
    match a with
    | ⟨0, _⟩ => rfl
    | ⟨1, _⟩ => rfl)
theorem lidx128 (i : S100000x1.Idx) (k : Fin 64) : lidx_main_v128 i k = ix2 (i 0) k :=
  funext fun a => Fin.ext (by
    match a with
    | ⟨0, _⟩ => rfl
    | ⟨1, _⟩ => rfl)
theorem ridx128 (i : S100000x1.Idx) (k : Fin 64) : ridx_main_v128 i k = ix2 k (i 1) :=
  funext fun a => Fin.ext (by
    match a with
    | ⟨0, _⟩ => rfl
    | ⟨1, _⟩ => rfl)

/-! A length-n vector broadcast to a row and the row broadcast down the rows: entry (r, q) reads entry q. -/
theorem row28 (i : S100000x64.Idx) : idx_main_v28 (idx_main_v29 i) = ix1 (i 1) :=
  funext fun a => Fin.ext (by
    match a with
    | ⟨0, _⟩ => rfl)
theorem row31 (i : S100000x64.Idx) : idx_main_v31 (idx_main_v32 i) = ix1 (i 1) :=
  funext fun a => Fin.ext (by
    match a with
    | ⟨0, _⟩ => rfl)
theorem row37 (i : S100000x64.Idx) : idx_main_v37 (idx_main_v38 i) = ix1 (i 1) :=
  funext fun a => Fin.ext (by
    match a with
    | ⟨0, _⟩ => rfl)
theorem row40 (i : S100000x64.Idx) : idx_main_v40 (idx_main_v41 i) = ix1 (i 1) :=
  funext fun a => Fin.ext (by
    match a with
    | ⟨0, _⟩ => rfl)
theorem row43 (i : S100000x64.Idx) : idx_main_v43 (idx_main_v44 i) = ix1 (i 1) :=
  funext fun a => Fin.ext (by
    match a with
    | ⟨0, _⟩ => rfl)
theorem row125 (i : S100000x32.Idx) : idx_main_v125 (idx_main_v126 i) = ix1 (i 1) :=
  funext fun a => Fin.ext (by
    match a with
    | ⟨0, _⟩ => rfl)
theorem row129 (i : S100000x1.Idx) : idx_main_v129 (idx_main_v130 i) = ix1 (i 1) :=
  funext fun a => Fin.ext (by
    match a with
    | ⟨0, _⟩ => have h : (i 1).val < 1 := (i 1).isLt; show 0 = (i 1).val; omega)
theorem reshape132 (i : S100000.Idx) : idx_main_v132 i = ix2 (i 0) (0 : Fin 1) :=
  funext fun a => Fin.ext (by
    match a with
    | ⟨0, _⟩ => exact Nat.div_one _
    | ⟨1, _⟩ => rfl)

/-! The same reads composed with a product's left index: the bias entry a product's k-th term meets is entry k. -/
theorem row61c (i : S100000x64.Idx) (k : Fin 64) : idx_main_v61 (idx_main_v62 (lidx_main_v65 i k)) = ix1 k :=
  funext fun a => Fin.ext (by
    match a with
    | ⟨0, _⟩ => rfl)
theorem row79c (i : S100000x64.Idx) (k : Fin 64) : idx_main_v79 (idx_main_v80 (lidx_main_v83 i k)) = ix1 k :=
  funext fun a => Fin.ext (by
    match a with
    | ⟨0, _⟩ => rfl)
theorem row120c (i : S100000x32.Idx) (k : Fin 64) : idx_main_v120 (idx_main_v121 (lidx_main_v124 i k)) = ix1 k :=
  funext fun a => Fin.ext (by
    match a with
    | ⟨0, _⟩ => rfl)
theorem lidx119c (i : S100000x32.Idx) (k j : Fin 64) : lidx_main_v119 (lidx_main_v124 i k) j = ix2 (i 0) j :=
  funext fun a => Fin.ext (by
    match a with
    | ⟨0, _⟩ => rfl
    | ⟨1, _⟩ => rfl)
theorem ridx119c (i : S100000x32.Idx) (k j : Fin 64) : ridx_main_v119 (lidx_main_v124 i k) j = ix2 j k :=
  funext fun a => Fin.ext (by
    match a with
    | ⟨0, _⟩ => rfl
    | ⟨1, _⟩ => rfl)

/-! ## (1) The first graph layer's linear map: x · gW0 -/

theorem firstLinear_eq : val_main_v47 (F := Ideal) x0 x8
    = fun i => ∑ k : Fin 128, x0 (ix2 (i 0) k) * x8 (ix2 k (i 1)) := by
  funext i
  rw [val_main_v47_apply]
  simp only [lidx47, ridx47] <;> rfl

/-! ## (2) The feature branch: linear map, bias, batch normalisation in the printed order, relu -/

/-- The per-column factor 1 / sqrt(variance + epsilon), as the printed term. -/
abbrev invStd (x7 : (⟨S64, .f32⟩ : BufTy).Contents (Elt Ideal)) : (⟨S64, .f32⟩ : BufTy).Contents (Elt Ideal) :=
  Host.rsqrt (F := Ideal) (φ := .f32) (addf x7 (broadcastInDim S64 ![] bcast_S_S64 (constant (F := Ideal) S_ .f32 0x3727C5AC#32)))

theorem invStd_eq : val_main_v36 (F := Ideal) x7 = invStd x7 := rfl

theorem featureBranch_eq : val_main_v46 (F := Ideal) x0 x2 x3 x4 x5 x6 x7
    = fun i => max (((((∑ k : Fin 128, x0 (ix2 (i 0) k) * x2 (ix2 k (i 1))) + x3 (ix1 (i 1))) - x6 (ix1 (i 1)))
        * invStd x7 (ix1 (i 1))) * x4 (ix1 (i 1)) + x5 (ix1 (i 1))) 0 := by
  funext i
  rw [val_main_v46_apply, val_main_v45_apply, val_main_v42_apply, val_main_v39_apply, val_main_v33_apply, val_main_v30_apply,
    val_main_v27_apply, val_main_v29_apply, val_main_v28_apply, val_main_v32_apply, val_main_v31_apply, val_main_v38_apply,
    val_main_v37_apply, val_main_v41_apply, val_main_v40_apply, val_main_v44_apply, val_main_v43_apply,
    val_main_call0_v0_apply, val_main_call0_cst_apply]
  simp only [lidx27, ridx27, row28, row31, row37, row40, row43, invStd_eq, Ideal.addf_def, Ideal.subf_def, Ideal.mulf_def,
    Ideal.maximumf_def, Ideal.ofBits_def, Ideal.ofBits_zero_f32] <;> rfl

/-! ## (3) The second and third graph layers' linear maps: relu(aggregate + bias) · W -/

theorem secondLinear_eq : val_main_v65 (F := Ideal) x0 x1 x8 x9 x10
    = fun i => ∑ k : Fin 64, max (val_main_v60 (F := Ideal) x0 x1 x8 (ix2 (i 0) k) + x9 (ix1 k)) 0 * x10 (ix2 k (i 1)) := by
  funext i
  rw [val_main_v65_apply]
  refine Finset.sum_congr rfl fun k _ => ?_
  rw [val_main_v64_apply, val_main_v63_apply, val_main_v62_apply, val_main_v61_apply, val_main_call1_v0_apply,
    val_main_call1_cst_apply, Ideal.addf_def, Ideal.maximumf_def, Ideal.ofBits_def, Ideal.ofBits_zero_f32, row61c, lidx65, ridx65]
  rfl

theorem thirdLinear_eq : val_main_v83 (F := Ideal) x0 x1 x8 x9 x10 x11 x12
    = fun i => ∑ k : Fin 64, max (val_main_v78 (F := Ideal) x0 x1 x8 x9 x10 (ix2 (i 0) k) + x11 (ix1 k)) 0 * x12 (ix2 k (i 1)) := by
  funext i
  rw [val_main_v83_apply]
  refine Finset.sum_congr rfl fun k _ => ?_
  rw [val_main_v82_apply, val_main_v81_apply, val_main_v80_apply, val_main_v79_apply, val_main_call2_v0_apply,
    val_main_call2_cst_apply, Ideal.addf_def, Ideal.maximumf_def, Ideal.ofBits_def, Ideal.ofBits_zero_f32, row79c, lidx83, ridx83]
  rfl

/-! ## (4) The head, from the fused features H (left as its stage) -/

theorem projection_eq : val_main_v127 (F := Ideal) x0 x1 x2 x3 x4 x5 x6 x7 x8 x9 x10 x11 x12 x13 x14 x15 x16 x17 x18 x19
    = fun i => (∑ k : Fin 64, max ((∑ j : Fin 64, val_main_v118 (F := Ideal) x0 x1 x2 x3 x4 x5 x6 x7 x8 x9 x10 x11 x12 x13 x14 x15 (ix2 (i 0) j) * x16 (ix2 j k)) + x17 (ix1 k)) 0 * x18 (ix2 k (i 1)))
        + x19 (ix1 (i 1)) := by
  funext i
  rw [val_main_v127_apply, val_main_v124_apply, val_main_v126_apply, val_main_v125_apply, row125, Ideal.addf_def]
  refine congrArg (· + x19 (ix1 (i 1))) (Finset.sum_congr rfl fun k _ => ?_)
  rw [val_main_v123_apply, val_main_v122_apply, val_main_v119_apply, val_main_v121_apply, val_main_v120_apply,
    val_main_call4_v0_apply, val_main_call4_cst_apply, Ideal.addf_def, Ideal.maximumf_def, Ideal.ofBits_def,
    Ideal.ofBits_zero_f32, row120c]
  simp only [lidx119c, ridx119c]
  rw [ridx124]
  rfl

theorem logitColumn_eq : val_main_v131 (F := Ideal) x0 x1 x2 x3 x4 x5 x6 x7 x8 x9 x10 x11 x12 x13 x14 x15 x20 x21
    = fun i => (∑ k : Fin 64, val_main_v118 (F := Ideal) x0 x1 x2 x3 x4 x5 x6 x7 x8 x9 x10 x11 x12 x13 x14 x15 (ix2 (i 0) k) * x20 (ix2 k (i 1))) + x21 (ix1 (i 1)) := by
  funext i
  rw [val_main_v131_apply, val_main_v128_apply, val_main_v130_apply, val_main_v129_apply]
  simp only [lidx128, ridx128, row129, Ideal.addf_def] <;> rfl

theorem logits_eq : val_main_v132 (F := Ideal) x0 x1 x2 x3 x4 x5 x6 x7 x8 x9 x10 x11 x12 x13 x14 x15 x20 x21
    = fun i => (∑ k : Fin 64, val_main_v118 (F := Ideal) x0 x1 x2 x3 x4 x5 x6 x7 x8 x9 x10 x11 x12 x13 x14 x15 (ix2 (i 0) k) * x20 (ix2 k (0 : Fin 1))) + x21 (ix1 (0 : Fin 1)) := by
  funext i
  rw [val_main_v132_apply, reshape132]
  exact congrFun (logitColumn_eq x0 x1 x2 x3 x4 x5 x6 x7 x8 x9 x10 x11 x12 x13 x14 x15 x20 x21) _

end Cert.ReferenceIdeal.RefDense

end
-- ==== Proof.PreFacts.lean ====
/-
  What the stated domain says of the arrays, element by element. The precondition is one conjunction of
  "every entry of this array has absolute value below +∞", one conjunct per float argument, and "every running
  variance is ≥ 0". An extended real whose absolute value is below +∞ is a real; a real that is ≥ 0 in the
  extended order is a non-negative real. Only the arrays that enter the batch normalisation are read here:
  the node features x, the first layer's weight and bias, and the four per-feature statistics γ, β, μ, σ².
-/
import proofs.«135266_j45973329936474_1_alg».proof.Pre_finite_inputs
import Idealize.ShloMosaic.Lib.ReduceAll
import Idealize.ShloMosaic.Lib.ValueIdx
import Idealize.ShloMosaic.PureOps.Ideal
import Idealize.ShloMosaic.PureOps.Ideal.Laws

set_option maxRecDepth 16384

noncomputable section

namespace Cert.PreFacts

open Idealize.ShloMosaic Cert.Pre_finite_inputs

instance : Subsingleton S_.Idx := ⟨fun a b => funext fun d => d.elim0⟩

variable [Cert.Pre_finite_inputs.Facts]

/-- The word of +∞ denotes the top of the extended reals. -/
theorem inf_word : Ideal.ofBits .f32 0x7F800000#32 = ⊤ := by
  simp [Ideal.ofBits, Ideal.ieee]

/-- An extended real with |x| < +∞ is a real. -/
theorem real_of_abs_lt (x : EReal) (h : Ideal.cmp .olt (max x (-x)) (Ideal.ofBits .f32 0x7F800000#32) = 1#1) :
    ∃ r : ℝ, x = ((r : ℝ) : EReal) := by
  rw [inf_word] at h
  induction x using EReal.rec with
  | bot => simp [Ideal.cmp] at h
  | coe r => exact ⟨r, rfl⟩
  | top => simp [Ideal.cmp] at h

/-- A real that is ≥ 0 in the extended order is a non-negative real. -/
theorem nonneg_of_ge (r : ℝ) (h : Ideal.cmp .oge ((r : ℝ) : EReal) (Ideal.ofBits .f32 0x00000000#32) = 1#1) : 0 ≤ r := by
  rw [Ideal.ofBits_zero_f32] at h
  by_contra hr
  have : ¬ ((0 : EReal) ≤ ((r : ℝ) : EReal)) := fun h0 => hr (EReal.coe_nonneg.mp h0)
  simp [Ideal.cmp, this] at h

/-- The entries the batch normalisation reads are reals, and the running variances are non-negative reals. -/
structure Domain (x : FVec Ideal S100000x128 .f32) (W1 : FVec Ideal S128x64 .f32)
    (b1 γ β μ σ2 : FVec Ideal S64 .f32) : Prop where
  x_real : ∀ i, ∃ r : ℝ, x i = ((r : ℝ) : EReal)
  W1_real : ∀ i, ∃ r : ℝ, W1 i = ((r : ℝ) : EReal)
  b1_real : ∀ i, ∃ r : ℝ, b1 i = ((r : ℝ) : EReal)
  γ_real : ∀ i, ∃ r : ℝ, γ i = ((r : ℝ) : EReal)
  β_real : ∀ i, ∃ r : ℝ, β i = ((r : ℝ) : EReal)
  μ_real : ∀ i, ∃ r : ℝ, μ i = ((r : ℝ) : EReal)
  σ2_nonneg : ∀ i, ∃ r : ℝ, 0 ≤ r ∧ σ2 i = ((r : ℝ) : EReal)

theorem domain_of_pre (a0 : FVec Ideal S100000x128 .f32) (a1 : IVec S2x1200000 32) (a2 : FVec Ideal S128x64 .f32)
    (a3 a4 a5 a6 a7 : FVec Ideal S64 .f32) (a8 : FVec Ideal S128x64 .f32) (a9 : FVec Ideal S64 .f32)
    (a10 : FVec Ideal S64x64 .f32) (a11 : FVec Ideal S64 .f32) (a12 : FVec Ideal S64x64 .f32) (a13 : FVec Ideal S64 .f32)
    (a14 : FVec Ideal S128x1 .f32) (a15 : FVec Ideal S1 .f32) (a16 : FVec Ideal S64x64 .f32) (a17 : FVec Ideal S64 .f32)
    (a18 : FVec Ideal S64x32 .f32) (a19 : FVec Ideal S32 .f32) (a20 : FVec Ideal S64x1 .f32) (a21 : FVec Ideal S1 .f32)
    (h : fn (F := Ideal) a0 a1 a2 a3 a4 a5 a6 a7 a8 a9 a10 a11 a12 a13 a14 a15 a16 a17 a18 a19 a20 a21 = fun _ => 1#1) :
    Domain a0 a2 a3 a4 a5 a6 a7 := by
  have h0 := congrFun h ValueIdx.ix0
  dsimp only [fn, fn_part1, fn_part2, fn_part3, fn_part4, fn_part5, fn_part6, andi] at h0
  obtain ⟨h0, hpos⟩ := IntOp.andi_eq_one.1 h0
  obtain ⟨h0, -⟩ := IntOp.andi_eq_one.1 h0
  obtain ⟨h0, -⟩ := IntOp.andi_eq_one.1 h0
  obtain ⟨h0, -⟩ := IntOp.andi_eq_one.1 h0
  obtain ⟨h0, -⟩ := IntOp.andi_eq_one.1 h0
  obtain ⟨h0, -⟩ := IntOp.andi_eq_one.1 h0
  obtain ⟨h0, -⟩ := IntOp.andi_eq_one.1 h0
  obtain ⟨h0, -⟩ := IntOp.andi_eq_one.1 h0
  obtain ⟨h0, -⟩ := IntOp.andi_eq_one.1 h0
  obtain ⟨h0, -⟩ := IntOp.andi_eq_one.1 h0
  obtain ⟨h0, -⟩ := IntOp.andi_eq_one.1 h0
  obtain ⟨h0, -⟩ := IntOp.andi_eq_one.1 h0
  obtain ⟨h0, -⟩ := IntOp.andi_eq_one.1 h0
  obtain ⟨h0, -⟩ := IntOp.andi_eq_one.1 h0
  obtain ⟨h0, -⟩ := IntOp.andi_eq_one.1 h0
  obtain ⟨h0, hσ⟩ := IntOp.andi_eq_one.1 h0
  obtain ⟨h0, hμ⟩ := IntOp.andi_eq_one.1 h0
  obtain ⟨h0, hβ⟩ := IntOp.andi_eq_one.1 h0
  obtain ⟨h0, hγ⟩ := IntOp.andi_eq_one.1 h0
  obtain ⟨h0, hb⟩ := IntOp.andi_eq_one.1 h0
  obtain ⟨hx, hW⟩ := IntOp.andi_eq_one.1 h0
  refine ⟨fun i => ?_, fun i => ?_, fun i => ?_, fun i => ?_, fun i => ?_, fun i => ?_, fun i => ?_⟩
  · exact real_of_abs_lt _ (Host.reduce_andi_all _ _ _ _ _ hx i)
  · exact real_of_abs_lt _ (Host.reduce_andi_all _ _ _ _ _ hW i)
  · exact real_of_abs_lt _ (Host.reduce_andi_all _ _ _ _ _ hb i)
  · exact real_of_abs_lt _ (Host.reduce_andi_all _ _ _ _ _ hγ i)
  · exact real_of_abs_lt _ (Host.reduce_andi_all _ _ _ _ _ hβ i)
  · exact real_of_abs_lt _ (Host.reduce_andi_all _ _ _ _ _ hμ i)
  · obtain ⟨r, hr⟩ := real_of_abs_lt _ (Host.reduce_andi_all _ _ _ _ _ hσ i)
    have hge := Host.reduce_andi_all _ _ _ _ _ hpos i
    refine ⟨r, nonneg_of_ge r ?_, hr⟩
    rw [← hr]
    exact hge

end Cert.PreFacts

end
-- ==== Proof.BatchNormFold.lean ====
/-
  The one algebraic law that separates the two programs: batch normalisation in inference mode, written by the
  reference as ((h - μ) · r · γ) + β with r = (σ² + ε)^(-1/2), and by the kernel as h · s + t with the affine pair
  s = γ · r, t = β - μ · s folded once per feature. Over the reals the two agree by distributivity; on the extended
  reals distributivity fails at infinities, so the law is stated for real h, μ, γ, β and real r. That r is real is
  where the domain σ² ≥ 0 is used: σ² + ε > 0, and the reciprocal square root of a positive real is a real.
-/
import Idealize.ShloMosaic.PureOps.Ideal

noncomputable section

namespace Cert.BatchNormFold

open Idealize.ShloMosaic

/-- The stabiliser ε, the single-precision number nearest 1e-5, is the positive real 10995116 / 2^40. -/
theorem eps_real : ∃ e : ℝ, 0 < e ∧ Ideal.ofBits .f32 0x3727C5AC#32 = ((e : ℝ) : EReal) := by
  refine ⟨10995116 / 2 ^ 40, by norm_num, ?_⟩
  simp [Ideal.ofBits, Ideal.ieee, -EReal.coe_mul]; norm_num

/-- The reciprocal square root of a positive real is a real. -/
theorem rsqrt_pos_real (x : ℝ) (hx : 0 < x) : Ideal.rsqrt ((x : ℝ) : EReal) = (((Real.sqrt x)⁻¹ : ℝ) : EReal) := by
  show (if x < 0 then (⊥ : EReal) else if x = 0 then ⊤ else (((Real.sqrt x)⁻¹ : ℝ) : EReal)) = _
  rw [if_neg (not_lt.mpr hx.le), if_neg hx.ne']

/-- With a variance σ² ≥ 0 and ε > 0 the scale (σ² + ε)^(-1/2) is a real. -/
theorem rsqrt_var_real (v e : ℝ) (hv : 0 ≤ v) (he : 0 < e) :
    ∃ r : ℝ, Ideal.rsqrt (((v : ℝ) : EReal) + ((e : ℝ) : EReal)) = ((r : ℝ) : EReal) :=
  ⟨(Real.sqrt (v + e))⁻¹, by rw [← EReal.coe_add]; exact rsqrt_pos_real (v + e) (by linarith)⟩

/-- A finite sum of reals, summed in the extended reals, is the real sum. -/
theorem sum_coe {ι : Type*} (s : Finset ι) (f : ι → ℝ) :
    ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- A product of two finite extended reals is finite, and so is a finite sum of such products: a row of a finite
    matrix times a finite matrix is a real. -/
theorem dot_real {ι : Type*} [Fintype ι] (x w : ι → EReal) (hx : ∀ k, ∃ a : ℝ, x k = ((a : ℝ) : EReal))
    (hw : ∀ k, ∃ a : ℝ, w k = ((a : ℝ) : EReal)) : ∃ d : ℝ, ∑ k, x k * w k = ((d : ℝ) : EReal) := by
  choose a ha using hx
  choose b hb using hw
  refine ⟨∑ k, a k * b k, ?_⟩
  rw [← sum_coe]
  exact Finset.sum_congr rfl fun k _ => by rw [ha k, hb k, EReal.coe_mul]

/-- The fold itself, on reals read as extended reals: ((d + b) - μ) · r · γ + β = (d + b) · (γ · r) + (β - μ · (γ · r)). -/
theorem fold (d b μ γ β r : ℝ) :
    ((((d : ℝ) : EReal) + ((b : ℝ) : EReal)) - ((μ : ℝ) : EReal)) * ((r : ℝ) : EReal) * ((γ : ℝ) : EReal) + ((β : ℝ) : EReal)
      = (((d : ℝ) : EReal) + ((b : ℝ) : EReal)) * (((γ : ℝ) : EReal) * ((r : ℝ) : EReal))
        + (((β : ℝ) : EReal) - ((μ : ℝ) : EReal) * (((γ : ℝ) : EReal) * ((r : ℝ) : EReal))) := by
  simp only [← EReal.coe_add, ← EReal.coe_sub, ← EReal.coe_mul]
  congr 1
  ring

end Cert.BatchNormFold

end
-- ==== Proof.FeatureBranch.lean ====
/- The feature branch of the two programs is one function of the arguments.

   Both programs compute h = x · W1 + b1 per entry and then the inference-mode batch normalisation followed by relu.
   The reference writes the normalisation as ((h − μ) · r) · γ + β with r = (σ² + ε)^(−1/2) per feature; the kernel is
   handed the affine pair s = γ · r, t = β − μ · s, folded once per feature, and computes h · s + t. The two agree by
   distributivity, which holds on the extended reals only away from the infinities: on the stated domain every entry of
   x, W1, b1, γ, β, μ is a real and σ² is a non-negative real, so h is a real (a finite sum of products of reals), σ² + ε
   is a positive real and r is a real, and the law is the one over the reals. -/
import proofs.«135266_j45973329936474_1_alg».proof.Proof.InitialValue
import proofs.«135266_j45973329936474_1_alg».proof.Proof.RefDense
import proofs.«135266_j45973329936474_1_alg».proof.Proof.PreFacts
import proofs.«135266_j45973329936474_1_alg».proof.Proof.BatchNormFold

noncomputable section

open scoped BigOperators
open Idealize.ShloMosaic Idealize.ShloMosaic.ValueIdx

namespace Cert.FeatureBranch

open Cert.ReferenceIdeal Cert.ReferenceIdeal.Read

/-- The per-feature factor read at a feature: the reciprocal square root of the variance plus ε. -/
theorem invStd_apply (x7 : (⟨S64, .f32⟩ : BufTy).Contents (Elt Ideal)) (q : Fin 64) :
    RefDense.invStd x7 (ix1 q) = Ideal.rsqrt (x7 (ix1 q) + Ideal.ofBits .f32 0x3727C5AC#32) := rfl

/-- With the kernel's bias row equal to b1 and its affine pair the folded (γ · r, β − μ · (γ · r)), the kernel's feature
    branch is the reference's, on the domain where the entries are reals and the variances non-negative reals. -/
theorem hmlpOf_eq_ref (x0 : (⟨S100000x128, .f32⟩ : BufTy).Contents (Elt Ideal)) (x2 : (⟨S128x64, .f32⟩ : BufTy).Contents (Elt Ideal)) (x3 x4 x5 x6 x7 : (⟨S64, .f32⟩ : BufTy).Contents (Elt Ideal))
    (D : Cert.PreFacts.Domain x0 x2 x3 x4 x5 x6 x7) (b1r sc sh : S1x64.Idx → EReal)
    (hb : ∀ q : Fin 64, b1r (ix2 (0 : Fin 1) q) = x3 (ix1 q))
    (hsc : ∀ q : Fin 64, sc (ix2 (0 : Fin 1) q) = x4 (ix1 q) * RefDense.invStd x7 (ix1 q))
    (hsh : ∀ q : Fin 64, sh (ix2 (0 : Fin 1) q) = x5 (ix1 q) - x6 (ix1 q) * (x4 (ix1 q) * RefDense.invStd x7 (ix1 q))) :
    Cert.KernelIdeal.InitialValue.hmlpOf x0 x2 b1r sc sh = val_main_v46 (F := Ideal) x0 x2 x3 x4 x5 x6 x7 := by
  funext i
  obtain ⟨r, q, rfl⟩ : ∃ (r : Fin 100000) (q : Fin 64), i = ix2 r q := ⟨i 0, i 1, eq_ix2 i⟩
  refine Eq.trans ?_ (congrFun (RefDense.featureBranch_eq x0 x2 x3 x4 x5 x6 x7) (ix2 r q)).symm
  show max (((∑ k : Fin 128, x0 (ix2 r k) * x2 (ix2 k q)) + b1r (ix2 (0 : Fin 1) q)) * sc (ix2 (0 : Fin 1) q)
        + sh (ix2 (0 : Fin 1) q)) 0
      = max (((((∑ k : Fin 128, x0 (ix2 r k) * x2 (ix2 k q)) + x3 (ix1 q)) - x6 (ix1 q)) * RefDense.invStd x7 (ix1 q))
          * x4 (ix1 q) + x5 (ix1 q)) 0
  rw [hb q, hsc q, hsh q]
  obtain ⟨d, hd⟩ := Cert.BatchNormFold.dot_real (fun k : Fin 128 => x0 (ix2 r k)) (fun k : Fin 128 => x2 (ix2 k q))
    (fun k => D.x_real (ix2 r k)) (fun k => D.W1_real (ix2 k q))
  obtain ⟨b, hb'⟩ := D.b1_real (ix1 q)
  obtain ⟨g, hg⟩ := D.γ_real (ix1 q)
  obtain ⟨be, hbe⟩ := D.β_real (ix1 q)
  obtain ⟨mu, hmu⟩ := D.μ_real (ix1 q)
  obtain ⟨v, hv0, hv⟩ := D.σ2_nonneg (ix1 q)
  obtain ⟨e, he0, he⟩ := Cert.BatchNormFold.eps_real
  obtain ⟨s, hs⟩ := Cert.BatchNormFold.rsqrt_var_real v e hv0 he0
  rw [invStd_apply, hd, hb', hg, hbe, hmu, hv, he, hs]
  exact congrArg (max · 0) (Cert.BatchNormFold.fold d b mu g be s).symm

end Cert.FeatureBranch

end
-- ==== Proof.PrologueRead.lean ====
/- What the first and the last stretch of host operations leave, read at an index.
   Before the first region the program stores each bias vector of n entries as a 1 x n array, folds the batch
   normalisation into a scale row and a shift row (scale = gamma * r and shift = beta - mean * scale, with r the
   reciprocal square root of the running variance plus a small constant), and cuts the 128 x 1 gate weights into rows
   0..63 and rows 64..127. After the last region it reads the 100000 x 1 classifier output as a vector of 100000
   entries. Each statement reads one such buffer at an index as an argument of the program, or the region's output,
   at the matching index: a reshape keeps the row-major position, a slice shifts a coordinate by its offset. -/
import proofs.«135266_j45973329936474_1_alg».proof.Proof.Gen.KernelIdeal.Frame
import Idealize.ShloMosaic.Lib.Pipeline.Value
import Idealize.ShloMosaic.Lib.ValueIdx
import Idealize.ShloMosaic.Lib.ValueLayout
import Idealize.ShloMosaic.Lib.Tactic

noncomputable section

open Idealize.ShloMosaic Idealize.ShloMosaic.TcCoe Idealize.SL.Sem Idealize.ShloMosaic.StableHlo
open Idealize.ShloMosaic.ValueIdx

namespace Cert.KernelIdeal.PrologueRead

open Cert.KernelIdeal Cert.KernelIdeal.Gen

variable (m : (ℓ : Loc nD τ sig) → Buf (Elt Ideal) ℓ) (ρ : Dev nD → PrngReg)

/-! ## The bias rows: a vector of n entries stored as a 1 x n array -/

set_option maxHeartbeats 4000000 in
/-- Buffer main_v33 is argument 3 laid as one row. -/
theorem row_main_v33 (c : Dev nD) (q : Fin 64) :
    W1 m ρ c (Proc.devRef .tc main_v33) (ix2 (0 : Fin 1) q) = m ((c : Thread nD τ).loc main_arg3) (ix1 q) := by
  dsimp only [W1]
  after_results_simp
  exact shapeCast_apply (s := S64) (t := S1x64) (m ((c : Thread nD τ).loc main_arg3)) shapeCasts_S64_S1x64 (ix2 (0 : Fin 1) q) (ix1 q)
    (by rw [Shape.rowMajor_val_two, Shape.rowMajor_val_one]; show q.val = 0 * 64 + q.val; omega)

set_option maxHeartbeats 4000000 in
/-- Buffer main_v36 is argument 9 laid as one row. -/
theorem row_main_v36 (c : Dev nD) (q : Fin 64) :
    W1 m ρ c (Proc.devRef .tc main_v36) (ix2 (0 : Fin 1) q) = m ((c : Thread nD τ).loc main_arg9) (ix1 q) := by
  dsimp only [W1]
  after_results_simp
  exact shapeCast_apply (s := S64) (t := S1x64) (m ((c : Thread nD τ).loc main_arg9)) shapeCasts_S64_S1x64 (ix2 (0 : Fin 1) q) (ix1 q)
    (by rw [Shape.rowMajor_val_two, Shape.rowMajor_val_one]; show q.val = 0 * 64 + q.val; omega)

set_option maxHeartbeats 4000000 in
/-- Buffer main_v37 is argument 11 laid as one row. -/
theorem row_main_v37 (c : Dev nD) (q : Fin 64) :
    W1 m ρ c (Proc.devRef .tc main_v37) (ix2 (0 : Fin 1) q) = m ((c : Thread nD τ).loc main_arg11) (ix1 q) := by
  dsimp only [W1]
  after_results_simp
  exact shapeCast_apply (s := S64) (t := S1x64) (m ((c : Thread nD τ).loc main_arg11)) shapeCasts_S64_S1x64 (ix2 (0 : Fin 1) q) (ix1 q)
    (by rw [Shape.rowMajor_val_two, Shape.rowMajor_val_one]; show q.val = 0 * 64 + q.val; omega)

set_option maxHeartbeats 4000000 in
/-- Buffer main_v38 is argument 13 laid as one row. -/
theorem row_main_v38 (c : Dev nD) (q : Fin 64) :
    W1 m ρ c (Proc.devRef .tc main_v38) (ix2 (0 : Fin 1) q) = m ((c : Thread nD τ).loc main_arg13) (ix1 q) := by
  dsimp only [W1]
  after_results_simp
  exact shapeCast_apply (s := S64) (t := S1x64) (m ((c : Thread nD τ).loc main_arg13)) shapeCasts_S64_S1x64 (ix2 (0 : Fin 1) q) (ix1 q)
    (by rw [Shape.rowMajor_val_two, Shape.rowMajor_val_one]; show q.val = 0 * 64 + q.val; omega)

set_option maxHeartbeats 4000000 in
/-- Buffer main_v40 is argument 17 laid as one row. -/
theorem row_main_v40 (c : Dev nD) (q : Fin 64) :
    W1 m ρ c (Proc.devRef .tc main_v40) (ix2 (0 : Fin 1) q) = m ((c : Thread nD τ).loc main_arg17) (ix1 q) := by
  dsimp only [W1]
  after_results_simp
  exact shapeCast_apply (s := S64) (t := S1x64) (m ((c : Thread nD τ).loc main_arg17)) shapeCasts_S64_S1x64 (ix2 (0 : Fin 1) q) (ix1 q)
    (by rw [Shape.rowMajor_val_two, Shape.rowMajor_val_one]; show q.val = 0 * 64 + q.val; omega)

set_option maxHeartbeats 4000000 in
/-- Buffer main_v41 is argument 19 laid as one row. -/
theorem row_main_v41 (c : Dev nD) (q : Fin 32) :
    W1 m ρ c (Proc.devRef .tc main_v41) (ix2 (0 : Fin 1) q) = m ((c : Thread nD τ).loc main_arg19) (ix1 q) := by
  dsimp only [W1]
  after_results_simp
  exact shapeCast_apply (s := S32) (t := S1x32) (m ((c : Thread nD τ).loc main_arg19)) shapeCasts_S32_S1x32 (ix2 (0 : Fin 1) q) (ix1 q)
    (by rw [Shape.rowMajor_val_two, Shape.rowMajor_val_one]; show q.val = 0 * 32 + q.val; omega)

set_option maxHeartbeats 4000000 in
/-- Buffer main_v39 is the one entry of argument 15, as a 1 x 1 array. -/
theorem row_main_v39 (c : Dev nD) :
    W1 m ρ c (Proc.devRef .tc main_v39) (ix2 (0 : Fin 1) (0 : Fin 1)) = m ((c : Thread nD τ).loc main_arg15) (ix1 (0 : Fin 1)) := by
  dsimp only [W1]
  after_results_simp
  exact shapeCast_apply (s := S1) (t := S1x1) (m ((c : Thread nD τ).loc main_arg15)) shapeCasts_S1_S1x1 (ix2 (0 : Fin 1) (0 : Fin 1)) (ix1 (0 : Fin 1))
    (by rw [Shape.rowMajor_val_two, Shape.rowMajor_val_one]; rfl)

set_option maxHeartbeats 4000000 in
/-- Buffer main_v42 is the one entry of argument 21, as a 1 x 1 array. -/
theorem row_main_v42 (c : Dev nD) :
    W1 m ρ c (Proc.devRef .tc main_v42) (ix2 (0 : Fin 1) (0 : Fin 1)) = m ((c : Thread nD τ).loc main_arg21) (ix1 (0 : Fin 1)) := by
  dsimp only [W1]
  after_results_simp
  exact shapeCast_apply (s := S1) (t := S1x1) (m ((c : Thread nD τ).loc main_arg21)) shapeCasts_S1_S1x1 (ix2 (0 : Fin 1) (0 : Fin 1)) (ix1 (0 : Fin 1))
    (by rw [Shape.rowMajor_val_two, Shape.rowMajor_val_one]; rfl)

/-! ## The folded batch normalisation: scale = gamma * r and shift = beta - mean * scale, with r the reciprocal square
    root of the running variance plus the small constant -/

/-- The four batch-normalisation arguments of the program on core c, at their literal type: arguments 4 (gamma),
    5 (beta), 6 (running mean) and 7 (running variance). -/
abbrev bnGamma (c : Dev nD) : S64.Idx → EReal := m ((c : Thread nD τ).loc main_arg4)
abbrev bnBeta (c : Dev nD) : S64.Idx → EReal := m ((c : Thread nD τ).loc main_arg5)
abbrev bnMean (c : Dev nD) : S64.Idx → EReal := m ((c : Thread nD τ).loc main_arg6)
abbrev bnVar (c : Dev nD) : S64.Idx → EReal := m ((c : Thread nD τ).loc main_arg7)

/-- The reciprocal square root of the running variance plus the constant, entry by entry, left as the host operation. -/
abbrev bnR (c : Dev nD) : S64.Idx → EReal :=
  Host.rsqrt (F := Ideal) (φ := .f32) (addf (bnVar m c)
    (broadcastInDim S64 ![] bcast_S_S64 (constant (F := Ideal) S_ .f32 0x3727C5AC#32)))

set_option maxHeartbeats 4000000 in
/-- Buffer main_v34, the scale row. -/
theorem row_main_v34 (c : Dev nD) (q : Fin 64) :
    W1 m ρ c (Proc.devRef .tc main_v34) (ix2 (0 : Fin 1) q) = bnGamma m c (ix1 q) * bnR m c (ix1 q) := by
  dsimp only [W1]
  after_results_simp
  refine (shapeCast_apply (s := S64) (t := S1x64) _ shapeCasts_S64_S1x64 (ix2 (0 : Fin 1) q) (ix1 q)
    (by rw [Shape.rowMajor_val_two, Shape.rowMajor_val_one]; show q.val = 0 * 64 + q.val; omega)).trans ?_
  rfl

set_option maxHeartbeats 4000000 in
/-- Buffer main_v35, the shift row. -/
theorem row_main_v35 (c : Dev nD) (q : Fin 64) :
    W1 m ρ c (Proc.devRef .tc main_v35) (ix2 (0 : Fin 1) q)
      = bnBeta m c (ix1 q) - bnMean m c (ix1 q) * (bnGamma m c (ix1 q) * bnR m c (ix1 q)) := by
  dsimp only [W1]
  after_results_simp
  refine (shapeCast_apply (s := S64) (t := S1x64) _ shapeCasts_S64_S1x64 (ix2 (0 : Fin 1) q) (ix1 q)
    (by rw [Shape.rowMajor_val_two, Shape.rowMajor_val_one]; show q.val = 0 * 64 + q.val; omega)).trans ?_
  rfl

/-! ## The two halves of the gate weights: rows 0..63 and rows 64..127 of the 128 x 1 argument -/

set_option maxHeartbeats 4000000 in
theorem gateW_lo (c : Dev nD) (k : Fin 64) :
    W1 m ρ c (Proc.devRef .tc main_v43) (ix2 k (0 : Fin 1)) = m ((c : Thread nD τ).loc main_arg14) (ix2 (Fin.castAdd 64 k : Fin 128) (0 : Fin 1)) := by
  dsimp only [W1]
  after_results_simp
  exact extractStridedSlice_apply (s := S128x1) (t := S64x1) ![0, 0] (m ((c : Thread nD τ).loc main_arg14)) slices_S128x1_S64x1_0_0 (ix2 k (0 : Fin 1))
    (ix2 (Fin.castAdd 64 k : Fin 128) (0 : Fin 1)) (fun a => match a with
      | ⟨0, _⟩ => by show k.val = 0 + k.val; omega
      | ⟨1, _⟩ => by show 0 = 0 + 0; rfl)

set_option maxHeartbeats 4000000 in
theorem gateW_hi (c : Dev nD) (k : Fin 64) :
    W1 m ρ c (Proc.devRef .tc main_v44) (ix2 k (0 : Fin 1)) = m ((c : Thread nD τ).loc main_arg14) (ix2 (Fin.natAdd 64 k : Fin 128) (0 : Fin 1)) := by
  dsimp only [W1]
  after_results_simp
  exact extractStridedSlice_apply (s := S128x1) (t := S64x1) ![64, 0] (m ((c : Thread nD τ).loc main_arg14)) slices_S128x1_S64x1_64_0 (ix2 k (0 : Fin 1))
    (ix2 (Fin.natAdd 64 k : Fin 128) (0 : Fin 1)) (fun a => match a with
      | ⟨0, _⟩ => by show 64 + k.val = 64 + k.val; rfl
      | ⟨1, _⟩ => by show 0 = 0 + 0; rfl)

/-! ## The last stretch: the 100000 x 1 classifier output read as a vector of 100000 entries -/

set_option maxHeartbeats 4000000 in
theorem logits_flat (c : Dev nD) :
    W10 m ρ c (Proc.devRef .tc main_v89) = fun i => W9 m ρ c (Proc.devRef .tc main_v88_1) (ix2 (i 0) (0 : Fin 1)) := by
  dsimp only [W10]
  after_results_simp
  funext i
  exact shapeCast_apply (s := S100000x1) (t := S100000) _ shapeCasts_S100000x1_S100000 i (ix2 (i 0) (0 : Fin 1))
    (by rw [Shape.rowMajor_val_two, Shape.rowMajor_val_one]; show (i 0).val * 1 + 0 = (i 0).val; omega)

end Cert.KernelIdeal.PrologueRead

end
-- ==== Proof.Bridge.lean ====
/-
  The reference's stages, applied to the kernel's argument arrays, are the kernel's stages, one after another. The
  first linear map is the same sum. Each aggregation is the shared graph computation of equal features with equal
  index arrays and normalisation. Each later linear map is relu(· + bias) against the next weight, the bias read as a
  row by one program and as a vector by the other. The feature branch is where the domain is used: the kernel's
  folded affine pair against the reference's normalise-then-scale, equal on the reals. The gated blend and the two
  heads follow entry by entry. The last host operation of the kernel only flattens the classifier's column.
-/
import proofs.«135266_j45973329936474_1_alg».proof.Proof.KernelStages
import proofs.«135266_j45973329936474_1_alg».proof.Proof.GraphBridge
import proofs.«135266_j45973329936474_1_alg».proof.Proof.DenseForms
import proofs.«135266_j45973329936474_1_alg».proof.Proof.RefDense
import proofs.«135266_j45973329936474_1_alg».proof.Proof.RefGate
import proofs.«135266_j45973329936474_1_alg».proof.Proof.FeatureBranch
import proofs.«135266_j45973329936474_1_alg».proof.Proof.PrologueRead
import proofs.«135266_j45973329936474_1_alg».proof.Proof.PreFacts
import proofs.«135266_j45973329936474_1_alg».proof.Proof.Gen.Pre_finite_inputs
import proofs.«135266_j45973329936474_1_alg».proof.Proof.Gen.ReferenceIdeal.Read
import proofs.«135266_j45973329936474_1_alg».proof.Defs

set_option maxRecDepth 16384
set_option maxHeartbeats 4000000

noncomputable section

namespace Cert.Bridge

open Idealize.ShloMosaic Idealize.ShloMosaic.TcCoe Idealize.SL.Sem Idealize.ShloMosaic.ValueIdx
open Cert.KernelIdeal Cert.KernelIdeal.Gen
open Cert.ReferenceIdeal.Read (val_main_v46 val_main_v47 val_main_v60 val_main_v65 val_main_v78 val_main_v83 val_main_v96 val_main_v118 val_main_v127 val_main_v132)

variable (m : (ℓ : Loc nD τ sig) → Buf (Elt Ideal) ℓ) (ρ : Dev nD → PrngReg)

/-! ## The kernel's argument arrays -/
abbrev a0 (c : Dev nD) := m ((c : Thread nD τ).loc main_arg0)
abbrev a1 (c : Dev nD) := m ((c : Thread nD τ).loc main_arg1)
abbrev a2 (c : Dev nD) := m ((c : Thread nD τ).loc main_arg2)
abbrev a3 (c : Dev nD) := m ((c : Thread nD τ).loc main_arg3)
abbrev a4 (c : Dev nD) := m ((c : Thread nD τ).loc main_arg4)
abbrev a5 (c : Dev nD) := m ((c : Thread nD τ).loc main_arg5)
abbrev a6 (c : Dev nD) := m ((c : Thread nD τ).loc main_arg6)
abbrev a7 (c : Dev nD) := m ((c : Thread nD τ).loc main_arg7)
abbrev a8 (c : Dev nD) := m ((c : Thread nD τ).loc main_arg8)
abbrev a9 (c : Dev nD) := m ((c : Thread nD τ).loc main_arg9)
abbrev a10 (c : Dev nD) := m ((c : Thread nD τ).loc main_arg10)
abbrev a11 (c : Dev nD) := m ((c : Thread nD τ).loc main_arg11)
abbrev a12 (c : Dev nD) := m ((c : Thread nD τ).loc main_arg12)
abbrev a13 (c : Dev nD) := m ((c : Thread nD τ).loc main_arg13)
abbrev a14 (c : Dev nD) := m ((c : Thread nD τ).loc main_arg14)
abbrev a15 (c : Dev nD) := m ((c : Thread nD τ).loc main_arg15)
abbrev a16 (c : Dev nD) := m ((c : Thread nD τ).loc main_arg16)
abbrev a17 (c : Dev nD) := m ((c : Thread nD τ).loc main_arg17)
abbrev a18 (c : Dev nD) := m ((c : Thread nD τ).loc main_arg18)
abbrev a19 (c : Dev nD) := m ((c : Thread nD τ).loc main_arg19)
abbrev a20 (c : Dev nD) := m ((c : Thread nD τ).loc main_arg20)
abbrev a21 (c : Dev nD) := m ((c : Thread nD τ).loc main_arg21)

/-! ## Stage by stage -/

theorem hw0 (c : Dev nD) : val_main_v47 (F := Ideal) (a0 m c) (a8 m c) = Stages.hw0K m c :=
  (Cert.ReferenceIdeal.RefDense.firstLinear_eq (a0 m c) (a8 m c)).trans rfl

theorem agg0 (c : Dev nD) : val_main_v60 (F := Ideal) (a0 m c) (a1 m c) (a8 m c) = Stages.agg0K m ρ c :=
  (GraphBridge.agg0_ref (a0 m c) (a1 m c) (a8 m c)).trans
    (Stages.congr4 (Graph.aggregate (F := Ideal)) (GraphBridge.src_eq m ρ c).symm (GraphBridge.dst_eq m ρ c).symm
      (GraphBridge.nrm_eq m ρ c).symm (hw0 m c))

theorem hw1 (c : Dev nD) : val_main_v65 (F := Ideal) (a0 m c) (a1 m c) (a8 m c) (a9 m c) (a10 m c) = Stages.hw1K m ρ c := by
  rw [Cert.ReferenceIdeal.RefDense.secondLinear_eq, agg0 m ρ c]
  exact (DenseForms.gcnDense1_form (Stages.agg0K m ρ c) (W1 m ρ c (Proc.devRef .tc main_v36)) (a9 m c) (a10 m c) (PrologueRead.row_main_v36 m ρ c)).symm

theorem agg1 (c : Dev nD) : val_main_v78 (F := Ideal) (a0 m c) (a1 m c) (a8 m c) (a9 m c) (a10 m c) = Stages.agg1K m ρ c :=
  (GraphBridge.agg1_ref (a0 m c) (a1 m c) (a8 m c) (a9 m c) (a10 m c)).trans
    (Stages.congr4 (Graph.aggregate (F := Ideal)) (GraphBridge.src_eq m ρ c).symm (GraphBridge.dst_eq m ρ c).symm
      (GraphBridge.nrm_eq m ρ c).symm (hw1 m ρ c))

theorem hw2 (c : Dev nD) : val_main_v83 (F := Ideal) (a0 m c) (a1 m c) (a8 m c) (a9 m c) (a10 m c) (a11 m c) (a12 m c) = Stages.hw2K m ρ c := by
  rw [Cert.ReferenceIdeal.RefDense.thirdLinear_eq, agg1 m ρ c]
  exact (DenseForms.gcnDense2_form (Stages.agg1K m ρ c) (W1 m ρ c (Proc.devRef .tc main_v37)) (a11 m c) (a12 m c) (PrologueRead.row_main_v37 m ρ c)).symm

theorem agg2 (c : Dev nD) : val_main_v96 (F := Ideal) (a0 m c) (a1 m c) (a8 m c) (a9 m c) (a10 m c) (a11 m c) (a12 m c) = Stages.agg2K m ρ c :=
  (GraphBridge.agg2_ref (a0 m c) (a1 m c) (a8 m c) (a9 m c) (a11 m c) (a10 m c) (a12 m c)).trans
    (Stages.congr4 (Graph.aggregate (F := Ideal)) (GraphBridge.src_eq m ρ c).symm (GraphBridge.dst_eq m ρ c).symm
      (GraphBridge.nrm_eq m ρ c).symm (hw2 m ρ c))

section Domain
variable (hpre : Cert.Pre_KernelIdeal m)
include hpre

/-- The feature branch: the one stage whose equality needs the domain. -/
theorem hmlp (c : Dev nD) : val_main_v46 (F := Ideal) (a0 m c) (a2 m c) (a3 m c) (a4 m c) (a5 m c) (a6 m c) (a7 m c) = Stages.hmlpK m ρ c :=
  (Cert.FeatureBranch.hmlpOf_eq_ref (a0 m c) (a2 m c) (a3 m c) (a4 m c) (a5 m c) (a6 m c) (a7 m c)
    (Cert.PreFacts.domain_of_pre (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c) (a19 m c) (a20 m c) (a21 m c) (hpre c))
    (W1 m ρ c (Proc.devRef .tc main_v33)) (W1 m ρ c (Proc.devRef .tc main_v34)) (W1 m ρ c (Proc.devRef .tc main_v35)) (PrologueRead.row_main_v33 m ρ c) (PrologueRead.row_main_v34 m ρ c) (PrologueRead.row_main_v35 m ρ c)).symm

theorem fused (c : Dev nD) : val_main_v118 (F := Ideal) (a0 m c) (a1 m c) (a2 m c) (a3 m c) (a4 m c) (a5 m c) (a6 m c) (a7 m c) (a8 m c) (a9 m c) (a10 m c) (a11 m c) (a12 m c) (a13 m c) (a14 m c) (a15 m c) = Stages.fusedK m ρ c := by
  rw [Cert.ReferenceIdeal.RefGate.fused_eq', hmlp m ρ hpre c, agg2 m ρ c]
  exact (DenseForms.fused_form (Stages.agg2K m ρ c) (Stages.hmlpK m ρ c) (W1 m ρ c (Proc.devRef .tc main_v38)) (W1 m ρ c (Proc.devRef .tc main_v43)) (W1 m ρ c (Proc.devRef .tc main_v44)) (W1 m ρ c (Proc.devRef .tc main_v39))
    (a13 m c) (a14 m c) (a15 m c) (PrologueRead.row_main_v38 m ρ c) (PrologueRead.gateW_lo m ρ c) (PrologueRead.gateW_hi m ρ c) (PrologueRead.row_main_v39 m ρ c)).symm

theorem zproj (c : Dev nD) : val_main_v127 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c) (a19 m c) = Stages.zprojK m ρ c := by
  rw [Cert.ReferenceIdeal.RefDense.projection_eq, fused m ρ hpre c]
  exact (DenseForms.projHead_form (Stages.fusedK m ρ c) (a16 m c) (W1 m ρ c (Proc.devRef .tc main_v40)) (a18 m c) (W1 m ρ c (Proc.devRef .tc main_v41)) (a17 m c) (a19 m c)
    (PrologueRead.row_main_v40 m ρ c) (PrologueRead.row_main_v41 m ρ c)).symm

theorem logits (c : Dev nD) : val_main_v132 (F := Ideal) (a0 m c) (a1 m c) (a2 m c) (a3 m c) (a4 m c) (a5 m c) (a6 m c) (a7 m c) (a8 m c) (a9 m c) (a10 m c) (a11 m c) (a12 m c) (a13 m c) (a14 m c) (a15 m c) (a20 m c) (a21 m c)
    = W10 m ρ c (Proc.devRef .tc main_v89) := by
  rw [Cert.ReferenceIdeal.RefDense.logits_eq, fused m ρ hpre c, PrologueRead.logits_flat m ρ c, Stages.logitCol_eq m ρ c]
  funext i
  exact (DenseForms.classHead_form (Stages.fusedK m ρ c) (a20 m c) (W1 m ρ c (Proc.devRef .tc main_v42)) (a21 m c) (PrologueRead.row_main_v42 m ρ c) (i 0)).symm

/-! ## From a reference memory that agrees on the arguments -/

variable (m' : (ℓ : Loc Cert.ReferenceIdeal.nD Cert.ReferenceIdeal.τ Cert.ReferenceIdeal.sig) → Buf (Elt Ideal) ℓ)

theorem logits_ref (c : Dev nD)
    (hag : m' ((c.tc : Thread Cert.ReferenceIdeal.nD Cert.ReferenceIdeal.τ).loc Cert.ReferenceIdeal.main_arg0) = m ((c.tc : Thread nD τ).loc main_arg0)
      ∧ m' ((c.tc : Thread Cert.ReferenceIdeal.nD Cert.ReferenceIdeal.τ).loc Cert.ReferenceIdeal.main_arg1) = m ((c.tc : Thread nD τ).loc main_arg1)
      ∧ m' ((c.tc : Thread Cert.ReferenceIdeal.nD Cert.ReferenceIdeal.τ).loc Cert.ReferenceIdeal.main_arg2) = m ((c.tc : Thread nD τ).loc main_arg2)
      ∧ m' ((c.tc : Thread Cert.ReferenceIdeal.nD Cert.ReferenceIdeal.τ).loc Cert.ReferenceIdeal.main_arg3) = m ((c.tc : Thread nD τ).loc main_arg3)
      ∧ m' ((c.tc : Thread Cert.ReferenceIdeal.nD Cert.ReferenceIdeal.τ).loc Cert.ReferenceIdeal.main_arg4) = m ((c.tc : Thread nD τ).loc main_arg4)
      ∧ m' ((c.tc : Thread Cert.ReferenceIdeal.nD Cert.ReferenceIdeal.τ).loc Cert.ReferenceIdeal.main_arg5) = m ((c.tc : Thread nD τ).loc main_arg5)
      ∧ m' ((c.tc : Thread Cert.ReferenceIdeal.nD Cert.ReferenceIdeal.τ).loc Cert.ReferenceIdeal.main_arg6) = m ((c.tc : Thread nD τ).loc main_arg6)
      ∧ m' ((c.tc : Thread Cert.ReferenceIdeal.nD Cert.ReferenceIdeal.τ).loc Cert.ReferenceIdeal.main_arg7) = m ((c.tc : Thread nD τ).loc main_arg7)
      ∧ m' ((c.tc : Thread Cert.ReferenceIdeal.nD Cert.ReferenceIdeal.τ).loc Cert.ReferenceIdeal.main_arg8) = m ((c.tc : Thread nD τ).loc main_arg8)
      ∧ m' ((c.tc : Thread Cert.ReferenceIdeal.nD Cert.ReferenceIdeal.τ).loc Cert.ReferenceIdeal.main_arg9) = m ((c.tc : Thread nD τ).loc main_arg9)
      ∧ m' ((c.tc : Thread Cert.ReferenceIdeal.nD Cert.ReferenceIdeal.τ).loc Cert.ReferenceIdeal.main_arg10) = m ((c.tc : Thread nD τ).loc main_arg10)
      ∧ m' ((c.tc : Thread Cert.ReferenceIdeal.nD Cert.ReferenceIdeal.τ).loc Cert.ReferenceIdeal.main_arg11) = m ((c.tc : Thread nD τ).loc main_arg11)
      ∧ m' ((c.tc : Thread Cert.ReferenceIdeal.nD Cert.ReferenceIdeal.τ).loc Cert.ReferenceIdeal.main_arg12) = m ((c.tc : Thread nD τ).loc main_arg12)
      ∧ m' ((c.tc : Thread Cert.ReferenceIdeal.nD Cert.ReferenceIdeal.τ).loc Cert.ReferenceIdeal.main_arg13) = m ((c.tc : Thread nD τ).loc main_arg13)
      ∧ m' ((c.tc : Thread Cert.ReferenceIdeal.nD Cert.ReferenceIdeal.τ).loc Cert.ReferenceIdeal.main_arg14) = m ((c.tc : Thread nD τ).loc main_arg14)
      ∧ m' ((c.tc : Thread Cert.ReferenceIdeal.nD Cert.ReferenceIdeal.τ).loc Cert.ReferenceIdeal.main_arg15) = m ((c.tc : Thread nD τ).loc main_arg15)
      ∧ m' ((c.tc : Thread Cert.ReferenceIdeal.nD Cert.ReferenceIdeal.τ).loc Cert.ReferenceIdeal.main_arg16) = m ((c.tc : Thread nD τ).loc main_arg16)
      ∧ m' ((c.tc : Thread Cert.ReferenceIdeal.nD Cert.ReferenceIdeal.τ).loc Cert.ReferenceIdeal.main_arg17) = m ((c.tc : Thread nD τ).loc main_arg17)
      ∧ m' ((c.tc : Thread Cert.ReferenceIdeal.nD Cert.ReferenceIdeal.τ).loc Cert.ReferenceIdeal.main_arg18) = m ((c.tc : Thread nD τ).loc main_arg18)
      ∧ m' ((c.tc : Thread Cert.ReferenceIdeal.nD Cert.ReferenceIdeal.τ).loc Cert.ReferenceIdeal.main_arg19) = m ((c.tc : Thread nD τ).loc main_arg19)
      ∧ m' ((c.tc : Thread Cert.ReferenceIdeal.nD Cert.ReferenceIdeal.τ).loc Cert.ReferenceIdeal.main_arg20) = m ((c.tc : Thread nD τ).loc main_arg20)
      ∧ m' ((c.tc : Thread Cert.ReferenceIdeal.nD Cert.ReferenceIdeal.τ).loc Cert.ReferenceIdeal.main_arg21) = m ((c.tc : Thread nD τ).loc main_arg21)) :
    Cert.ReferenceIdeal.Value.res_main_v132 m' c = W10 m ρ c (Proc.devRef .tc main_v89) := by
  obtain ⟨h0, h1, h2, h3, h4, h5, h6, h7, h8, h9, h10, h11, h12, h13, h14, h15, h16, h17, h18, h19, h20, h21⟩ := hag
  rw [Cert.ReferenceIdeal.Read.val_main_v132_eq, h0, h1, h2, h3, h4, h5, h6, h7, h8, h9, h10, h11, h12, h13, h14, h15, h20, h21]
  exact logits m ρ hpre c

theorem zproj_ref (c : Dev nD)
    (hag : m' ((c.tc : Thread Cert.ReferenceIdeal.nD Cert.ReferenceIdeal.τ).loc Cert.ReferenceIdeal.main_arg0) = m ((c.tc : Thread nD τ).loc main_arg0)
      ∧ m' ((c.tc : Thread Cert.ReferenceIdeal.nD Cert.ReferenceIdeal.τ).loc Cert.ReferenceIdeal.main_arg1) = m ((c.tc : Thread nD τ).loc main_arg1)
      ∧ m' ((c.tc : Thread Cert.ReferenceIdeal.nD Cert.ReferenceIdeal.τ).loc Cert.ReferenceIdeal.main_arg2) = m ((c.tc : Thread nD τ).loc main_arg2)
      ∧ m' ((c.tc : Thread Cert.ReferenceIdeal.nD Cert.ReferenceIdeal.τ).loc Cert.ReferenceIdeal.main_arg3) = m ((c.tc : Thread nD τ).loc main_arg3)
      ∧ m' ((c.tc : Thread Cert.ReferenceIdeal.nD Cert.ReferenceIdeal.τ).loc Cert.ReferenceIdeal.main_arg4) = m ((c.tc : Thread nD τ).loc main_arg4)
      ∧ m' ((c.tc : Thread Cert.ReferenceIdeal.nD Cert.ReferenceIdeal.τ).loc Cert.ReferenceIdeal.main_arg5) = m ((c.tc : Thread nD τ).loc main_arg5)
      ∧ m' ((c.tc : Thread Cert.ReferenceIdeal.nD Cert.ReferenceIdeal.τ).loc Cert.ReferenceIdeal.main_arg6) = m ((c.tc : Thread nD τ).loc main_arg6)
      ∧ m' ((c.tc : Thread Cert.ReferenceIdeal.nD Cert.ReferenceIdeal.τ).loc Cert.ReferenceIdeal.main_arg7) = m ((c.tc : Thread nD τ).loc main_arg7)
      ∧ m' ((c.tc : Thread Cert.ReferenceIdeal.nD Cert.ReferenceIdeal.τ).loc Cert.ReferenceIdeal.main_arg8) = m ((c.tc : Thread nD τ).loc main_arg8)
      ∧ m' ((c.tc : Thread Cert.ReferenceIdeal.nD Cert.ReferenceIdeal.τ).loc Cert.ReferenceIdeal.main_arg9) = m ((c.tc : Thread nD τ).loc main_arg9)
      ∧ m' ((c.tc : Thread Cert.ReferenceIdeal.nD Cert.ReferenceIdeal.τ).loc Cert.ReferenceIdeal.main_arg10) = m ((c.tc : Thread nD τ).loc main_arg10)
      ∧ m' ((c.tc : Thread Cert.ReferenceIdeal.nD Cert.ReferenceIdeal.τ).loc Cert.ReferenceIdeal.main_arg11) = m ((c.tc : Thread nD τ).loc main_arg11)
      ∧ m' ((c.tc : Thread Cert.ReferenceIdeal.nD Cert.ReferenceIdeal.τ).loc Cert.ReferenceIdeal.main_arg12) = m ((c.tc : Thread nD τ).loc main_arg12)
      ∧ m' ((c.tc : Thread Cert.ReferenceIdeal.nD Cert.ReferenceIdeal.τ).loc Cert.ReferenceIdeal.main_arg13) = m ((c.tc : Thread nD τ).loc main_arg13)
      ∧ m' ((c.tc : Thread Cert.ReferenceIdeal.nD Cert.ReferenceIdeal.τ).loc Cert.ReferenceIdeal.main_arg14) = m ((c.tc : Thread nD τ).loc main_arg14)
      ∧ m' ((c.tc : Thread Cert.ReferenceIdeal.nD Cert.ReferenceIdeal.τ).loc Cert.ReferenceIdeal.main_arg15) = m ((c.tc : Thread nD τ).loc main_arg15)
      ∧ m' ((c.tc : Thread Cert.ReferenceIdeal.nD Cert.ReferenceIdeal.τ).loc Cert.ReferenceIdeal.main_arg16) = m ((c.tc : Thread nD τ).loc main_arg16)
      ∧ m' ((c.tc : Thread Cert.ReferenceIdeal.nD Cert.ReferenceIdeal.τ).loc Cert.ReferenceIdeal.main_arg17) = m ((c.tc : Thread nD τ).loc main_arg17)
      ∧ m' ((c.tc : Thread Cert.ReferenceIdeal.nD Cert.ReferenceIdeal.τ).loc Cert.ReferenceIdeal.main_arg18) = m ((c.tc : Thread nD τ).loc main_arg18)
      ∧ m' ((c.tc : Thread Cert.ReferenceIdeal.nD Cert.ReferenceIdeal.τ).loc Cert.ReferenceIdeal.main_arg19) = m ((c.tc : Thread nD τ).loc main_arg19)
      ∧ m' ((c.tc : Thread Cert.ReferenceIdeal.nD Cert.ReferenceIdeal.τ).loc Cert.ReferenceIdeal.main_arg20) = m ((c.tc : Thread nD τ).loc main_arg20)
      ∧ m' ((c.tc : Thread Cert.ReferenceIdeal.nD Cert.ReferenceIdeal.τ).loc Cert.ReferenceIdeal.main_arg21) = m ((c.tc : Thread nD τ).loc main_arg21)) :
    Cert.ReferenceIdeal.Value.res_main_v127 m' c = W10 m ρ c (Proc.devRef .tc main_v88_0) := by
  obtain ⟨h0, h1, h2, h3, h4, h5, h6, h7, h8, h9, h10, h11, h12, h13, h14, h15, h16, h17, h18, h19, h20, h21⟩ := hag
  rw [Cert.ReferenceIdeal.Read.val_main_v127_eq, h0, h1, h2, h3, h4, h5, h6, h7, h8, h9, h10, h11, h12, h13, h14, h15, h16, h17, h18, h19]
  exact (zproj m ρ hpre c).trans (Stages.zproj_eq m ρ c).symm
end Domain

end Cert.Bridge

end
-- ==== Proof.lean ====
/-
  The claim: the three programs run to the end without a fault and leave their arguments alone; the word-level kernel's
  idealization rewrote nothing; and on the extended reals, from memories that agree on the arguments, the idealized
  kernel and the idealized reference end with the same logits and the same projection array, on the domain where
  every float input is finite and the running variances are non-negative.
  The kernel is five pipelined regions among host stretches. Its value is the composition of its stages: the feature
  branch and first linear map, three rounds of the shared graph aggregation each followed by relu(· + bias) times the
  next weight, the sigmoid-gated blend, the projection head and the classifier. The reference computes the same
  stages in one host program. Stage by stage the two agree: the graph parts are one computation applied to the same
  array; the dense parts are the same sums with biases read as rows or as vectors and the gate's 128-term sum split
  into two of 64; and the batch normalisation, which the kernel folds into an affine pair, agrees by distributivity
  on the reals, which is where finiteness and the non-negative variance are used.
-/
import proofs.«135266_j45973329936474_1_alg».proof.Defs
import proofs.«135266_j45973329936474_1_alg».proof.Proof.Gen.Kernel
import proofs.«135266_j45973329936474_1_alg».proof.Proof.Gen.Kernel.Frame
import proofs.«135266_j45973329936474_1_alg».proof.Proof.Gen.KernelIdeal
import proofs.«135266_j45973329936474_1_alg».proof.Proof.Gen.KernelIdeal.Frame
import proofs.«135266_j45973329936474_1_alg».proof.Proof.Gen.ReferenceIdeal
import proofs.«135266_j45973329936474_1_alg».proof.Proof.Gen.ReferenceIdeal.Run
import proofs.«135266_j45973329936474_1_alg».proof.Proof.Gen.ReferenceIdeal.Read
import proofs.«135266_j45973329936474_1_alg».proof.Proof.Gen.Pre_finite_inputs
import proofs.«135266_j45973329936474_1_alg».proof.Proof.KernelRun
import proofs.«135266_j45973329936474_1_alg».proof.Proof.Bridge
import Idealize.ShloMosaic.Adequacy
import Idealize.ShloMosaic.Init

set_option maxRecDepth 16384
set_option maxHeartbeats 4000000

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The ideal pass rewrote no operation. -/
theorem preserves : Cert.preserves_Kernel_KernelIdeal := trivial

section
open Cert.KernelIdeal Cert.KernelIdeal.Gen

/-- Both runs end with the kernel's last boundary contents at the result buffers: the kernel's by its run, the
    reference's because its composed term of the (agreeing) arguments is the kernel's composition of stages. -/
theorem algebraic : Cert.algebraic_KernelIdeal_ReferenceIdeal := by
  intro m ρ m' ρ' hpre hagree
  refine ⟨fun c => W10 m ρ c (Proc.devRef .tc main_v89), fun c => W10 m ρ c (Proc.devRef .tc main_v88_0), ?_, ?_⟩
  · exact (θ_run Cert.KernelIdeal.defs _ _).mono (fun r h c =>
      ⟨h c _ (mem_uc main_v89 (by decide)), h c _ (mem_uc main_v88_0 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c),
       (h c _ (mem_uc main_arg12 (by decide))).trans (W10_main_arg12 m ρ c),
       (h c _ (mem_uc main_arg13 (by decide))).trans (W10_main_arg13 m ρ c),
       (h c _ (mem_uc main_arg14 (by decide))).trans (W10_main_arg14 m ρ c),
       (h c _ (mem_uc main_arg15 (by decide))).trans (W10_main_arg15 m ρ c),
       (h c _ (mem_uc main_arg16 (by decide))).trans (W10_main_arg16 m ρ c),
       (h c _ (mem_uc main_arg17 (by decide))).trans (W10_main_arg17 m ρ c),
       (h c _ (mem_uc main_arg18 (by decide))).trans (W10_main_arg18 m ρ c),
       (h c _ (mem_uc main_arg19 (by decide))).trans (W10_main_arg19 m ρ c),
       (h c _ (mem_uc main_arg20 (by decide))).trans (W10_main_arg20 m ρ c),
       (h c _ (mem_uc main_arg21 (by decide))).trans (W10_main_arg21 m ρ c)⟩)
      (Cert.KernelIdeal.RunValue.run_all m ρ)
  · refine (θ_run Cert.ReferenceIdeal.defs _ _).mono (fun r h c => ⟨(h c).1.trans ?_, (h c).2.1.trans ?_, (h c).2.2⟩)
      (Cert.ReferenceIdeal.Value.run (F := Ideal) m' ρ')
    · exact Cert.Bridge.logits_ref m ρ hpre m' c (hagree c)
    · exact Cert.Bridge.zproj_ref m ρ hpre m' c (hagree c)
end

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
